-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  IdealRules.truncf_extf.Statement Cert.KernelIdeal.S512x1024 .f32 .bf16

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v48) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x1024 : Shape := ⟨2, ![8192, 1024]⟩
abbrev S1024 : Shape := ⟨1, ![1024]⟩
abbrev S1024x1024 : Shape := ⟨2, ![1024, 1024]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S1024 : S_.BroadcastsInDim S1024 (![] : Fin 0 → Fin S1024.rank)
  reducesTo_S1024_S_d0 : S1024.ReducesTo [0] S_
  bcast_S_S1024x1024 : S_.BroadcastsInDim S1024x1024 (![] : Fin 0 → Fin S1024x1024.rank)
  reducesTo_S1024x1024_S_d0_1 : S1024x1024.ReducesTo [0, 1] S_

variable [Facts]

def fn_part1 {F : FTy → Type} [FloatOps F] (main_arg4 : FVec F S1024 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  main_v23

def fn {F : FTy → Type} [FloatOps F] (main_arg0 : FVec F S8192x1024 .f32) (main_arg1 : FVec F S8192x1024 .f32) (main_arg2 : FVec F S1024 .f32) (main_arg3 : FVec F S1024x1024 .f32) (main_arg4 : FVec F S1024 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S8192x1024 .f32 := Host.absf main_arg1
  let main_cst_0 : FVec F S_ .f32 := constant S_ .f32 0x7F800000#32
  let main_v5 : FVec F S8192x1024 .f32 := broadcastInDim S8192x1024 ![] bcast_S_S8192x1024 main_cst_0
  let main_v6 : IVec S8192x1024 1 := cmpf .olt main_v4 main_v5
  let main_c_1 : IVec S_ 1 := constantI S_ 1 1#1
  let main_v7 : IVec S_ 1 := (fun x v => Host.reduce IntOp.andi x v reducesTo_S8192x1024_S_d0_1 h_S_) main_v6 main_c_1
  let main_v8 : IVec S_ 1 := andi main_v3 main_v7
  let main_v9 : FVec F S1024 .f32 := Host.absf main_arg2
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg4 main_v13 main_v16
-- ==== Kernel.lean ====
abbrev S8192x1024 : Shape := ⟨2, ![8192, 1024]⟩
abbrev S1024 : Shape := ⟨1, ![1024]⟩
abbrev S1024x1024 : Shape := ⟨2, ![1024, 1024]⟩
abbrev S_ : Shape := ⟨0, ![]⟩
abbrev S8192 : Shape := ⟨1, ![8192]⟩
abbrev S1x8192 : Shape := ⟨2, ![1, 8192]⟩
abbrev S1x1024 : Shape := ⟨2, ![1, 1024]⟩
abbrev S512x1024 : Shape := ⟨2, ![512, 1024]⟩
abbrev S512x1 : Shape := ⟨2, ![512, 1]⟩
abbrev S512 : Shape := ⟨1, ![512]⟩

abbrev nBuf : Space → Nat
  | .hbm => 14
  | .vmem => 16
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1024, .f32⟩
  | .hbm, ⟨3, _⟩ => ⟨S1024x1024, .f32⟩
  | .hbm, ⟨4, _⟩ => ⟨S1024, .f32⟩
  | .hbm, ⟨5, _⟩ => ⟨S8192x1024, .f32⟩
  | .hbm, ⟨6, _⟩ => ⟨S_, .f32⟩
  | .hbm, ⟨7, _⟩ => ⟨S8192, .f32⟩
  | .hbm, ⟨8, _⟩ => ⟨S1x8192, .f32⟩
  | .hbm, ⟨9, _⟩ => ⟨S8192x1024, .bf16⟩
  | .hbm, ⟨10, _⟩ => ⟨S1024x1024, .bf16⟩
  | .hbm, ⟨11, _⟩ => ⟨S1x1024, .f32⟩
  | .hbm, ⟨12, _⟩ => ⟨S1x1024, .f32⟩
  | .hbm, ⟨13, _⟩ => ⟨S8192x1024, .f32⟩
  | .local _ .vmem, ⟨0, _⟩ => ⟨S512x1024, .f32⟩
  | .local _ .vmem, ⟨1, _⟩ => ⟨S512x1024, .f32⟩
  | .local _ .vmem, ⟨2, _⟩ => ⟨S1024x1024, .bf16⟩
  | .local _ .vmem, ⟨3, _⟩ => ⟨S1024x1024, .bf16⟩
  | .local _ .vmem, ⟨4, _⟩ => ⟨S1x1024, .f32⟩
  | .local _ .vmem, ⟨5, _⟩ => ⟨S1x1024, .f32⟩
  | .local _ .vmem, ⟨6, _⟩ => ⟨S1024x1024, .bf16⟩
  | .local _ .vmem, ⟨7, _⟩ => ⟨S1x1024, .f32⟩
  | .local _ .vmem, ⟨8, _⟩ => ⟨S1x1024, .f32⟩
  | .local _ .vmem, ⟨9, _⟩ => ⟨S512x1024, .f32⟩
  | .local _ .vmem, ⟨10, _⟩ => ⟨S512x1024, .f32⟩
  | .local _ .vmem, ⟨11, _⟩ => ⟨S512x1, .f32⟩
  | .local _ .vmem, ⟨12, _⟩ => ⟨S512x1, .f32⟩
  | .local _ .vmem, ⟨13, _⟩ => ⟨S512x1024, .f32⟩
  | .local _ .vmem, ⟨14, _⟩ => ⟨S512x1024, .bf16⟩
  | .local _ .vmem, ⟨15, _⟩ => ⟨S512x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_scratch0 : Ref sig .tc := ⟨.vmem, 11, rfl⟩
abbrev cc0_scratch1 : Ref sig .tc := ⟨.vmem, 12, rfl⟩
abbrev cc0_scratch2 : Ref sig .tc := ⟨.vmem, 13, rfl⟩
abbrev cc0_scratch3 : Ref sig .tc := ⟨.vmem, 14, rfl⟩
abbrev cc0_scratch4 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨2, ![16, 8], ![false, false]⟩

def k0_cond2 (i : grid0.Coords) : BitVec 1 :=
  let arg1 : BitVec 32 := BitVec.ofNat 32 (i 1).val
  let c7_i32 : BitVec 32 := 7#32
  let v47 : BitVec 1 := Scalar.cmpi .eq arg1 c7_i32
  let v48 : BitVec 32 := Scalar.extui v47
  let c0_i32_25 : BitVec 32 := 0#32
  let v49 : BitVec 1 := Scalar.cmpi .ne v48 c0_i32_25
  v49

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

class Facts₀ : Prop where
  reducesTo_S8192x1024_S8192_d1 : S8192x1024.ReducesTo [1] S8192
  h_S_ : 0 < S_.numel
  shapeCasts_S8192_S1x8192 : S8192.ShapeCasts S1x8192
  bitsLt_bf16_f32 : FTy.bits .bf16 < FTy.bits .f32
  shapeCasts_S1024_S1x1024 : S1024.ShapeCasts S1x1024
  inb_S512x1_S512x1_0_0 : ∀ a, (![0, 0] : Fin 2 → Nat) a + S512x1.size a ≤ S512x1.size a
  h_S512x1 : 0 < S512x1.numel
  shapeCasts_S512x1_S512x1 : S512x1.ShapeCasts S512x1
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  packedbf16_S512x1024_S512x1024_0_0 : (Rect.unit (s := S512x1024) ![0, 0] S512x1024.size inb_S512x1024_S512x1024_0_0).PackedRows (EltTy.packing .bf16)
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  transposes_S1024x1024_p1_0_S1024x1024 : S1024x1024.Transposes [1, 0] S1024x1024
  broadcasts_S1x1024_S512x1024 : S1x1024.Broadcasts S512x1024
  reduces_S512x1024_S512 : S512x1024.Reduces [1] S512
  shapeCasts_S512_S512x1 : S512.ShapeCasts S512x1
  broadcasts_S512x1_S512x1024 : S512x1.Broadcasts S512x1024
  dot_S512x1024_S1024x1024_S512x1024_1_0_0_1_n_n_wf : DotDims.WF S512x1024 S1024x1024 S512x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S8192x1024.size a
  hwx0_0 : ∀ i : grid0.Coords, EltTy.bits .f32 = 32 ∨ (Rect.block (s := S8192x1024) S512x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S8192x1024.size a
  hwx0_1 : ∀ i : grid0.Coords, EltTy.bits .bf16 = 32 ∨ (Rect.block (s := S8192x1024) S1024x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x8192.size a
  hwx0_2 : ∀ i : grid0.Coords, EltTy.bits .f32 = 32 ∨ (Rect.block (s := S1x8192) S1x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S1024x1024.size a
  hwx0_3 : ∀ i : grid0.Coords, EltTy.bits .bf16 = 32 ∨ (Rect.block (s := S1024x1024) S1024x1024.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1024.size a ≤ S1x1024.size a
  hwx0_4 : ∀ i : grid0.Coords, EltTy.bits .f32 = 32 ∨ (Rect.block (s := S1x1024) S1x1024.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x1024.size a ≤ S1x1024.size a
  hwx0_5 : ∀ i : grid0.Coords, EltTy.bits .f32 = 32 ∨ (Rect.block (s := S1x1024) S1x1024.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S512x1024.size a ≤ S8192x1024.size a
  hwx0_6 : ∀ i : grid0.Coords, EltTy.bits .f32 = 32 ∨ (Rect.block (s := S8192x1024) S512x1024.size (cc0_transform_6 i) (hinb0_6 i)).WholeWords (EltTy.packing .f32)

variable [Facts₀]

def dot_S512x1024_S1024x1024_S512x1024_1_0_0_1_n_n : DotDims S512x1024 S1024x1024 S512x1024 where
  lhsContracting := [1]
  rhsContracting := [0]
  lhsNonContracting := [0]
  rhsNonContracting := [1]
  lhsBatch := []
  rhsBatch := []
  wf := dot_S512x1024_S1024x1024_S512x1024_1_0_0_1_n_n_wf

abbrev win0_0 : Pipeline.Window sig grid0 :=
  Pipeline.Window.ofSpec (Memref.whole main_arg0) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v4) S1024x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v5) S1x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v6) S1x1024.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v7) S512x1024.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev idle0 : Fin 7 → grid0.Coords → Bool := fun | 0 => fun _ => false | 1 => fun _ => false | 2 => fun _ => false | 3 => fun _ => false | 4 => fun _ => false | 5 => fun _ => false | 6 => fun i => !(k0_cond2 i == 1#1) | ⟨_ + 7, h⟩ => absurd h (Nat.not_lt.2 (Nat.le_add_left _ _))

class Facts : Prop extends Facts₀ where

variable [Facts]
-- ==== ReferenceIdeal.lean ====
abbrev S8192x1024 : Shape := ⟨2, ![8192, 1024]⟩
abbrev S1024 : Shape := ⟨1, ![1024]⟩
abbrev S1024x1024 : Shape := ⟨2, ![1024, 1024]⟩
abbrev S_ : Shape := ⟨0, ![]⟩
abbrev S8192 : Shape := ⟨1, ![8192]⟩
abbrev S8192x1 : Shape := ⟨2, ![8192, 1]⟩
abbrev S1x8192 : Shape := ⟨2, ![1, 8192]⟩
abbrev S8192x8192 : Shape := ⟨2, ![8192, 8192]⟩
abbrev S1024x8192 : Shape := ⟨2, ![1024, 8192]⟩
abbrev S1x1024 : Shape := ⟨2, ![1, 1024]⟩

abbrev nBuf : Space → Nat
  | .hbm => 64
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1024, .f32⟩
  | .hbm, ⟨3, _⟩ => ⟨S1024x1024, .f32⟩
  | .hbm, ⟨4, _⟩ => ⟨S1024, .f32⟩
  | .hbm, ⟨5, _⟩ => ⟨S8192x1024, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S8192x1024, .f32⟩
  | .hbm, ⟨10, _⟩ => ⟨S_, .f32⟩
  | .hbm, ⟨11, _⟩ => ⟨S8192, .f32⟩
  | .hbm, ⟨12, _⟩ => ⟨S1x8192, .f32⟩
  | .hbm, ⟨13, _⟩ => ⟨S8192x8192, .f32⟩
  | .hbm, ⟨14, _⟩ => ⟨S8192x8192, .f32⟩
  | .hbm, ⟨15, _⟩ => ⟨S8192x8192, .f32⟩
  | .hbm, ⟨16, _⟩ => ⟨S1024x8192, .f32⟩
  | .hbm, ⟨17, _⟩ => ⟨S8192x8192, .f32⟩
  | .hbm, ⟨18, _⟩ => ⟨S_, .f32⟩
  | .hbm, ⟨19, _⟩ => ⟨S8192x8192, .f32⟩
  | .hbm, ⟨20, _⟩ => ⟨S8192x8192, .f32⟩
  | .hbm, ⟨21, _⟩ => ⟨S8192x8192, .f32⟩
  | .hbm, ⟨22, _⟩ => ⟨S8192x8192, .f32⟩
  | .hbm, ⟨23, _⟩ => ⟨S_, .f32⟩
  | .hbm, ⟨24, _⟩ => ⟨S8192x8192, .f32⟩
  | .hbm, ⟨25, _⟩ => ⟨S8192x8192, .f32⟩
  | .hbm, ⟨26, _⟩ => ⟨S_, .f32⟩
  | .hbm, ⟨27, _⟩ => ⟨S8192, .f32⟩
  | .hbm, ⟨28, _⟩ => ⟨S_, .f32⟩
  | .hbm, ⟨29, _⟩ => ⟨S8192, .f32⟩
  | .hbm, ⟨30, _⟩ => ⟨S8192, .f32⟩
  | .hbm, ⟨31, _⟩ => ⟨S8192x1, .f32⟩
  | .hbm, ⟨32, _⟩ => ⟨S8192x8192, .f32⟩
  | .hbm, ⟨33, _⟩ => ⟨S8192x8192, .f32⟩
  | .hbm, ⟨34, _⟩ => ⟨S8192x8192, .f32⟩
  | .hbm, ⟨35, _⟩ => ⟨S_, .f32⟩
  | .hbm, ⟨36, _⟩ => ⟨S8192, .f32⟩
  | .hbm, ⟨37, _⟩ => ⟨S8192x1, .f32⟩
  | .hbm, ⟨38, _⟩ => ⟨S8192x8192, .f32⟩
  | .hbm, ⟨39, _⟩ => ⟨S8192x8192, .f32⟩
  | .hbm, ⟨40, _⟩ => ⟨S8192x1024, .f32⟩
  | .hbm, ⟨41, _⟩ => ⟨S8192x1024, .f32⟩
  | .hbm, ⟨42, _⟩ => ⟨S8192x1024, .f32⟩
  | .hbm, ⟨43, _⟩ => ⟨S_, .f32⟩
  | .hbm, ⟨44, _⟩ => ⟨S8192, .f32⟩
  | .hbm, ⟨45, _⟩ => ⟨S8192x1, .f32⟩
  | .hbm, ⟨46, _⟩ => ⟨S_, .f32⟩
  | .hbm, ⟨47, _⟩ => ⟨S8192x1, .f32⟩
  | .hbm, ⟨48, _⟩ => ⟨S8192x1, .f32⟩
  | .hbm, ⟨49, _⟩ => ⟨S8192x1, .f32⟩
  | .hbm, ⟨50, _⟩ => ⟨S_, .f32⟩
  | .hbm, ⟨51, _⟩ => ⟨S8192x1, .f32⟩
  | .hbm, ⟨52, _⟩ => ⟨S8192x1, .f32⟩
  | .hbm, ⟨53, _⟩ => ⟨S8192x1024, .f32⟩
  | .hbm, ⟨54, _⟩ => ⟨S8192x1024, .f32⟩
  | .hbm, ⟨55, _⟩ => ⟨S1x1024, .f32⟩
  | .hbm, ⟨56, _⟩ => ⟨S8192x1024, .f32⟩
  | .hbm, ⟨57, _⟩ => ⟨S8192x1024, .f32⟩
  | .hbm, ⟨58, _⟩ => ⟨S1024x1024, .f32⟩
  | .hbm, ⟨59, _⟩ => ⟨S8192x1024, .f32⟩
  | .hbm, ⟨60, _⟩ => ⟨S8192x1024, .f32⟩
  | .hbm, ⟨61, _⟩ => ⟨S1x1024, .f32⟩
  | .hbm, ⟨62, _⟩ => ⟨S8192x1024, .f32⟩
  | .hbm, ⟨63, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst_1 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_2 : Ref sig .tc := ⟨.hbm, 23, rfl⟩
abbrev main_v15 : Ref sig .tc := ⟨.hbm, 24, rfl⟩
abbrev main_v16 : Ref sig .tc := ⟨.hbm, 25, rfl⟩
abbrev main_cst_3 : Ref sig .tc := ⟨.hbm, 26, rfl⟩
abbrev main_v17 : Ref sig .tc := ⟨.hbm, 27, rfl⟩
abbrev main_cst_4 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_cst_5 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst_6 : Ref sig .tc := ⟨.hbm, 43, rfl⟩
abbrev main_v31 : Ref sig .tc := ⟨.hbm, 44, rfl⟩
abbrev main_v32 : Ref sig .tc := ⟨.hbm, 45, rfl⟩
abbrev main_cst_7 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_cst_8 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩

abbrev nD : Nat := 1
abbrev τ : Topo := Topo.v7x

variable {F : FTy → Type} [FloatOps F]

class Facts₀ : Prop where
  reducesTo_S8192x1024_S8192_d1 : S8192x1024.ReducesTo [1] S8192
  h_S_ : 0 < S_.numel
  bcast_S8192_S8192x1_0 : S8192.BroadcastsInDim S8192x1 (![0] : Fin 1 → Fin S8192x1.rank)
  bcast_S8192_S1x8192_1 : S8192.BroadcastsInDim S1x8192 (![1] : Fin 1 → Fin S1x8192.rank)
  bcast_S8192x1_S8192x8192_0_1 : S8192x1.BroadcastsInDim S8192x8192 (![0, 1] : Fin 2 → Fin S8192x8192.rank)
  bcast_S1x8192_S8192x8192_0_1 : S1x8192.BroadcastsInDim S8192x8192 (![0, 1] : Fin 2 → Fin S8192x8192.rank)
  transposes_S8192x1024_S1024x8192_1_0 : S8192x1024.Transposes [1, 0] S1024x8192
  bcast_S_S8192x8192 : S_.BroadcastsInDim S8192x8192 (![] : Fin 0 → Fin S8192x8192.rank)
  reducesTo_S8192x8192_S8192_d1 : S8192x8192.ReducesTo [1] S8192
  bcast_S_S8192 : S_.BroadcastsInDim S8192 (![] : Fin 0 → Fin S8192.rank)
  bcast_S_S8192x1 : S_.BroadcastsInDim S8192x1 (![] : Fin 0 → Fin S8192x1.rank)
  bcast_S8192x1_S8192x1024_0_1 : S8192x1.BroadcastsInDim S8192x1024 (![0, 1] : Fin 2 → Fin S8192x1024.rank)
  bcast_S1024_S1x1024_1 : S1024.BroadcastsInDim S1x1024 (![1] : Fin 1 → Fin S1x1024.rank)
  bcast_S1x1024_S8192x1024_0_1 : S1x1024.BroadcastsInDim S8192x1024 (![0, 1] : Fin 2 → Fin S8192x1024.rank)
  transposes_S1024x1024_S1024x1024_1_0 : S1024x1024.Transposes [1, 0] S1024x1024
  dot_S8192x1024_S1024x8192_S8192x8192_1_0_0_1_n_n_wf : DotDims.WF S8192x1024 S1024x8192 S8192x8192 [1] [0] [0] [1] [] []
  dot_S8192x8192_S8192x1024_S8192x1024_1_0_0_1_n_n_wf : DotDims.WF S8192x8192 S8192x1024 S8192x1024 [1] [0] [0] [1] [] []
  dot_S8192x1024_S1024x1024_S8192x1024_1_0_0_1_n_n_wf : DotDims.WF S8192x1024 S1024x1024 S8192x1024 [1] [0] [0] [1] [] []

variable [Facts₀]

def dot_S8192x1024_S1024x8192_S8192x8192_1_0_0_1_n_n : DotDims S8192x1024 S1024x8192 S8192x8192 where
  lhsContracting := [1]
  rhsContracting := [0]
  lhsNonContracting := [0]
  rhsNonContracting := [1]
  lhsBatch := []
  rhsBatch := []
  wf := dot_S8192x1024_S1024x8192_S8192x8192_1_0_0_1_n_n_wf
def dot_S8192x8192_S8192x1024_S8192x1024_1_0_0_1_n_n : DotDims S8192x8192 S8192x1024 S8192x1024 where
  lhsContracting := [1]
  rhsContracting := [0]
  lhsNonContracting := [0]
  rhsNonContracting := [1]
  lhsBatch := []
  rhsBatch := []
  wf := dot_S8192x8192_S8192x1024_S8192x1024_1_0_0_1_n_n_wf
def dot_S8192x1024_S1024x1024_S8192x1024_1_0_0_1_n_n : DotDims S8192x1024 S1024x1024 S8192x1024 where
  lhsContracting := [1]
  rhsContracting := [0]
  lhsNonContracting := [0]
  rhsNonContracting := [1]
  lhsBatch := []
  rhsBatch := []
  wf := dot_S8192x1024_S1024x1024_S8192x1024_1_0_0_1_n_n_wf

class Facts : Prop extends Facts₀ where

variable [Facts]
-- ==== Proof.Claims.lean ====
/-
  The four claims that do not depend on the values the programs compute.

  A frame claim of a program says: from any memory satisfying the precondition, with all semaphores at zero, every
  weakly fair execution of the program terminates without a fault, and at the end each of the five argument arrays
  holds what it held at the start. For the two kernels this is the generated frame run; for the reference it is the
  generated run of the whole program, which states the result array's final value as well, weakened to the
  conjuncts about the arguments.

  The preservation claim restates the one rewrite that separates the bit-exact kernel from its idealisation: a
  vector narrowed from f32 to bf16 and widened back. On the extended reals a change of format is the identity, so
  the window is the vector itself; on bit patterns it is, element by element, the rounding through bf16. Both
  halves hold by unfolding the definitions.
-/
import proofs.«109600_j80247168959070_2_alg».proof.Defs
import proofs.«109600_j80247168959070_2_alg».proof.Proof.Gen.Kernel
import proofs.«109600_j80247168959070_2_alg».proof.Proof.Gen.Kernel.Frame
import proofs.«109600_j80247168959070_2_alg».proof.Proof.Gen.KernelIdeal
import proofs.«109600_j80247168959070_2_alg».proof.Proof.Gen.KernelIdeal.Frame
import proofs.«109600_j80247168959070_2_alg».proof.Proof.Gen.ReferenceIdeal
import proofs.«109600_j80247168959070_2_alg».proof.Proof.Gen.ReferenceIdeal.Run
import proofs.«109600_j80247168959070_2_alg».proof.Proof.Gen.Pre_finite_inputs

noncomputable section

open Idealize.ShloMosaic Idealize.SL.Sem

namespace Cert.Proof.Parts

/-- The bit-exact kernel terminates without a fault and leaves its argument arrays unchanged. -/
theorem frame_kernel :
    Cert.frame_Kernel (hKernel := Cert.Kernel.Gen.facts) (hPre_finite_inputs := Cert.Pre_finite_inputs.Gen.facts) :=
  fun m ρ _ => Cert.Kernel.Gen.frame m ρ

/-- The idealised kernel terminates without a fault and leaves its argument arrays unchanged. -/
theorem frame_kernel_ideal :
    Cert.frame_KernelIdeal (hKernelIdeal := Cert.KernelIdeal.Gen.facts)
      (hPre_finite_inputs := Cert.Pre_finite_inputs.Gen.facts) :=
  fun m ρ _ => Cert.KernelIdeal.Gen.frame m ρ

/-- The reference terminates without a fault and leaves its argument arrays unchanged: its run's postcondition,
    less the conjunct about the result array. -/
theorem frame_reference :
    Cert.frame_ReferenceIdeal (hReferenceIdeal := Cert.ReferenceIdeal.Gen.facts)
      (hPre_finite_inputs := Cert.Pre_finite_inputs.Gen.facts) :=
  fun m ρ _ =>
    (θ_run Cert.ReferenceIdeal.defs _ _).mono (fun _ h c => (h c).2) (Cert.ReferenceIdeal.Value.run (F := Ideal) m ρ)

/-- The one rewrite between the kernel and its idealisation, `extf .f32 (truncf .bf16 v) ↦ v` at shape 512 × 1024:
    the identity on the extended reals, the rounding through bf16 on bit patterns. -/
theorem preserves : Cert.preserves_Kernel_KernelIdeal :=
  IdealRules.truncf_extf.statement Cert.KernelIdeal.S512x1024 .f32 .bf16

end Cert.Proof.Parts

end
-- ==== Proof.Spec.lean ====
/-
  The real-valued reading of the vector-quantisation layer that both programs compute, and the partial sums the
  kernel's running softmax carries from one codebook tile to the next.

  Data: `H r d` the rows of the input, `C j d` the codebook's rows, `Sc d` the normalisation's scale, `Wt n d` the
  linear layer's weight (output feature `n`, input feature `d`), `Bv n` its bias. With
  `score r j = 2 · ⟨H r, C j⟩ − ‖C j‖²` (the negated squared distance up to the row constant `‖H r‖²`, which a softmax
  over `j` does not see), the soft assignment of row `r` is `zE r = (∑ⱼ e^{score r j} · C j) / ∑ⱼ e^{score r j}`, the
  residual `H r − zE r` is normalised by its root mean square plus `ε`, scaled, sent through the linear layer and added
  back to `zE r`.
-/
import Idealize.ShloMosaic.PureOps.Ideal
import Idealize.ShloMosaic.Lib.ValueIdx
import Mathlib.Analysis.SpecialFunctions.Exp
import Mathlib.Analysis.SpecialFunctions.Sqrt

noncomputable section

namespace Cert.VQ

open Idealize.ShloMosaic

/-- The real number the f32 pattern of `1e-8` denotes (both programs spell the same pattern). -/
def epsR : ℝ := (Ideal.ofBits .f32 0x322BCC77#32).toReal

section spec

variable (H C : Fin 8192 → Fin 1024 → ℝ) (Sc Bv : Fin 1024 → ℝ) (Wt : Fin 1024 → Fin 1024 → ℝ)

/-- `‖C j‖²`. -/
def csq (j : Fin 8192) : ℝ := ∑ d : Fin 1024, C j d * C j d

/-- `2 · ⟨H r, C j⟩ − ‖C j‖²`. -/
def score (r j : Fin 8192) : ℝ := 2 * (∑ d : Fin 1024, H r d * C j d) - csq C j

/-- The soft assignment: the softmax-weighted mean of the codebook's rows. -/
def zE (r : Fin 8192) (d : Fin 1024) : ℝ :=
  (∑ j : Fin 8192, Real.exp (score H C r j) * C j d) / (∑ j : Fin 8192, Real.exp (score H C r j))

/-- The residual `H r − zE r`. -/
def resid (r : Fin 8192) (d : Fin 1024) : ℝ := H r d - zE H C r d

/-- The residual's root mean square over the 1024 features. -/
def rms (r : Fin 8192) : ℝ := Real.sqrt ((∑ d : Fin 1024, resid H C r d * resid H C r d) / 1024)

/-- The normalised, scaled residual. -/
def xn (r : Fin 8192) (d : Fin 1024) : ℝ := resid H C r d / (rms H C r + epsR) * Sc d

/-- The layer's output. -/
def outR (r : Fin 8192) (n : Fin 1024) : ℝ :=
  zE H C r n + (∑ d : Fin 1024, xn H C Sc r d * Wt n d) + Bv n

end spec

/-- The sum of `f` over the codebook rows of the first `k` tiles of 1024 rows. -/
def part (f : Fin 8192 → ℝ) (k : ℕ) : ℝ := ∑ j : Fin 8192, if j.val < 1024 * k then f j else 0

/-- Row `p` of row tile `i` (tiles of 512 rows). -/
def row (i : Fin 16) (p : Fin 512) : Fin 8192 := ⟨512 * i.val + p.val, by omega⟩

/-- Row `q` of codebook tile `k` (tiles of 1024 rows). -/
def crow (k : Fin 8) (q : Fin 1024) : Fin 8192 := ⟨1024 * k.val + q.val, by omega⟩

end Cert.VQ

end
-- ==== Proof.SemDefs.lean ====
/-
  How the kernel's carried buffers and operand blocks are read when the data are real numbers: the state of a row
  tile after some codebook tiles (`Good`) and what each operand block holds (`IsH`, `IsC`, `IsCsq`, `IsW`, `IsB`, `IsSc`).
-/
import proofs.«109600_j80247168959070_2_alg».proof.Proof.Gen.KernelIdeal.Skeleton
import proofs.«109600_j80247168959070_2_alg».proof.Proof.Spec

noncomputable section

namespace Cert.VQ

open Idealize.ShloMosaic Idealize.ShloMosaic.ValueIdx Cert.KernelIdeal Cert.KernelIdeal.Gen

/-- The five carried buffers of row tile `i` after `k` codebook tiles: row by row, a real reference point `m`, the
    partial sums of `e^{score − m}` and of `e^{score − m} · C`, the input's row, and zero (the input minus itself). -/
def Good (H C : Fin 8192 → Fin 1024 → ℝ) (i : Fin 16) (k : ℕ)
    (xs0 xs1 : Vec Ideal S512x1 .f32) (xs2 : Vec Ideal S512x1024 .f32) (xs3 xs4 : Vec Ideal S512x1024 .bf16) : Prop :=
  ∀ p : Fin 512, ∃ m : ℝ,
    xs0 (ix2 p 0) = ((m : ℝ) : EReal)
    ∧ xs1 (ix2 p 0) = ((part (fun j => Real.exp (score H C (row i p) j - m)) k : ℝ) : EReal)
    ∧ (∀ d : Fin 1024, xs2 (ix2 p d) = ((part (fun j => Real.exp (score H C (row i p) j - m) * C j d) k : ℝ) : EReal))
    ∧ (∀ d : Fin 1024, xs3 (ix2 p d) = ((H (row i p) d : ℝ) : EReal))
    ∧ (∀ d : Fin 1024, xs4 (ix2 p d) = 0)

/-- The input's block of row tile `i` holds `H`'s rows. -/
def IsH (H : Fin 8192 → Fin 1024 → ℝ) (i : Fin 16) (x0 : Vec Ideal S512x1024 .f32) : Prop :=
  ∀ (p : Fin 512) (d : Fin 1024), x0 (ix2 p d) = ((H (row i p) d : ℝ) : EReal)
/-- The codebook's block of tile `k` holds `C`'s rows. -/
def IsC (C : Fin 8192 → Fin 1024 → ℝ) (k : Fin 8) (x1 : Vec Ideal S1024x1024 .bf16) : Prop :=
  ∀ (q d : Fin 1024), x1 (ix2 q d) = ((C (crow k q) d : ℝ) : EReal)
/-- The block of squared norms of tile `k`. -/
def IsCsq (C : Fin 8192 → Fin 1024 → ℝ) (k : Fin 8) (x2 : Vec Ideal S1x1024 .f32) : Prop :=
  ∀ q : Fin 1024, x2 (ix2 0 q) = ((csq C (crow k q) : ℝ) : EReal)
def IsW (Wt : Fin 1024 → Fin 1024 → ℝ) (x3 : Vec Ideal S1024x1024 .bf16) : Prop :=
  ∀ n d : Fin 1024, x3 (ix2 n d) = ((Wt n d : ℝ) : EReal)
def IsB (Bv : Fin 1024 → ℝ) (x4 : Vec Ideal S1x1024 .f32) : Prop :=
  ∀ n : Fin 1024, x4 (ix2 0 n) = ((Bv n : ℝ) : EReal)
def IsSc (Sc : Fin 1024 → ℝ) (x5 : Vec Ideal S1x1024 .f32) : Prop :=
  ∀ d : Fin 1024, x5 (ix2 0 d) = ((Sc d : ℝ) : EReal)

end Cert.VQ

end
-- ==== Proof.LibSoftmaxReal.lean ====
/-
  Real numbers inside the extended reals, and the softmax-weighted mean.

  A finite sum of real numbers taken in the extended reals is the real sum (`coe_sum`); the maximum of finitely many
  real numbers folded from `-∞` is a real number (`fold_max_coe`); the quotient by a nonzero real and the square root of
  a nonnegative real are the real ones (`div_coe_coe`, `sqrt_coe_nonneg`); the f32 patterns of `2`, `1`, `1024`, `-∞`
  and `0` (`lit_two` … `lit_zero`). A softmax-weighted mean `(∑ e^{s j − m}·c j) / ∑ e^{s j − m}` does not depend on
  the reference point `m` subtracted from the scores (`softmax_shift`) — so a running (tile by tile) evaluation with
  any real running maximum and a two-pass evaluation that normalises the weights first (`softmax_two_pass`, where a
  constant added to every score cancels too) give the same value. Over any finite nonempty index type.
-/
import Idealize.ShloMosaic.PureOps.Ideal
import Mathlib.Analysis.SpecialFunctions.Exp
import Mathlib.Analysis.SpecialFunctions.Sqrt

noncomputable section

namespace Cert.Lib.SoftmaxReal

open Idealize.ShloMosaic

/-- A finite sum of real numbers, taken in the extended reals, is the real sum. -/
theorem coe_sum {ι : Type*} (s : Finset ι) (f : ι → ℝ) :
    ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- The maximum of finitely many (at least one) real numbers, folded from `-∞`, is a real number. -/
theorem fold_max_coe (n : ℕ) (hn : 0 < n) (f : Fin n → ℝ) :
    ∃ x : ℝ, (Finset.univ : Finset (Fin n)).fold max (⊥ : EReal) (fun k => ((f k : ℝ) : EReal)) = ((x : ℝ) : EReal) := by
  classical
  -- Over any finite index set the fold is a real number unless the set is empty.
  have aux : ∀ s : Finset (Fin n), s = ∅ ∨
      ∃ x : ℝ, s.fold max (⊥ : EReal) (fun k => ((f k : ℝ) : EReal)) = ((x : ℝ) : EReal) := by
    intro s
    induction s using Finset.induction_on with
    | empty => exact Or.inl rfl
    | insert a s ha ih =>
      refine Or.inr ?_
      rw [Finset.fold_insert ha]
      rcases ih with rfl | ⟨x, hx⟩
      · exact ⟨f a, by simp⟩
      · exact ⟨max (f a) x, by rw [hx, EReal.coe_strictMono.monotone.map_max]⟩
  rcases aux Finset.univ with h | h
  · exact absurd h (Finset.univ_nonempty_iff.mpr ⟨⟨0, hn⟩⟩).ne_empty
  · exact h

/-- The quotient of two reals, the divisor not zero. -/
theorem div_coe_coe (x y : ℝ) (hy : y ≠ 0) : Ideal.div ((x : ℝ) : EReal) ((y : ℝ) : EReal) = ((x / y : ℝ) : EReal) := by
  rw [Ideal.div_coe hy, ← EReal.coe_mul, mul_one_div]

/-- The square root of a real that is not negative. -/
theorem sqrt_coe_nonneg (x : ℝ) (hx : 0 ≤ x) : Ideal.sqrt ((x : ℝ) : EReal) = ((Real.sqrt x : ℝ) : EReal) := by
  rw [Ideal.sqrt_coe, if_neg (not_lt.mpr hx)]

theorem lit_two : Ideal.ofBits .f32 0x40000000#32 = ((2 : ℝ) : EReal) := by
  simp [Ideal.ofBits, Ideal.ieee, -EReal.coe_mul]; norm_num
theorem lit_one : Ideal.ofBits .f32 0x3F800000#32 = ((1 : ℝ) : EReal) := by
  simp [Ideal.ofBits, Ideal.ieee, -EReal.coe_mul]; norm_num
theorem lit_1024 : Ideal.ofBits .f32 0x44800000#32 = ((1024 : ℝ) : EReal) := by
  simp [Ideal.ofBits, Ideal.ieee, -EReal.coe_mul]; norm_num
theorem lit_neg_inf : Ideal.ofBits .f32 0xFF800000#32 = (⊥ : EReal) := by
  simp [Ideal.ofBits, Ideal.ieee]
theorem lit_zero : Ideal.ofBits .f32 0x00000000#32 = ((0 : ℝ) : EReal) := by
  simp [Ideal.ofBits, Ideal.ieee]
theorem sum_exp_pos {ι : Type*} [Fintype ι] [Nonempty ι] (s : ι → ℝ) : 0 < ∑ j : ι, Real.exp (s j) := by
  exact Finset.sum_pos (fun j _ => Real.exp_pos _) Finset.univ_nonempty

/-- A softmax-weighted mean does not depend on the reference point subtracted from the scores. -/
theorem softmax_shift {ι : Type*} [Fintype ι] [Nonempty ι] (s c : ι → ℝ) (m : ℝ) :
    (∑ j : ι, Real.exp (s j - m) * c j) / (∑ j : ι, Real.exp (s j - m))
      = (∑ j : ι, Real.exp (s j) * c j) / (∑ j : ι, Real.exp (s j)) := by
  -- `e^{s − m} = e^{−m} · e^{s}`; the common positive factor `e^{−m}` leaves both sums and cancels.
  have h1 : ∀ j, Real.exp (s j - m) = Real.exp (-m) * Real.exp (s j) := fun j => by
    rw [← Real.exp_add]; congr 1; ring
  simp only [h1, mul_assoc, ← Finset.mul_sum]
  exact mul_div_mul_left _ _ (Real.exp_pos _).ne'

/-- The two-pass form: normalised weights first, then the weighted sum; a row constant `a` and the reference point `M`
    both cancel. -/
theorem softmax_two_pass {ι : Type*} [Fintype ι] [Nonempty ι] (s c : ι → ℝ) (a M : ℝ) :
    ∑ j : ι, (Real.exp (s j - a - M) / ∑ j' : ι, Real.exp (s j' - a - M)) * c j
      = (∑ j : ι, Real.exp (s j) * c j) / (∑ j : ι, Real.exp (s j)) := by
  simp only [div_mul_eq_mul_div, ← Finset.sum_div, sub_sub]
  exact softmax_shift s c (a + M)

end Cert.Lib.SoftmaxReal

end
-- ==== Proof.RealMath.lean ====
/-
  What the two value proofs share beyond the general facts about real numbers in the extended reals and the
  softmax-weighted mean (Proof/LibSoftmaxReal.lean): the pattern of `1e-8` as a positive real, and the partial sums
  over the codebook's tiles of 1024 rows — one more tile adds the tile's terms, eight tiles are the whole sum, and
  moving the reference point of the exponentials from `m` to `m'` multiplies a partial sum by `e^{m − m'}`.
-/
import proofs.«109600_j80247168959070_2_alg».proof.Proof.Spec
import proofs.«109600_j80247168959070_2_alg».proof.Proof.LibSoftmaxReal

noncomputable section

namespace Cert.VQ

open Idealize.ShloMosaic

export Cert.Lib.SoftmaxReal (coe_sum fold_max_coe div_coe_coe sqrt_coe_nonneg lit_two lit_one lit_1024 lit_neg_inf lit_zero
  sum_exp_pos softmax_shift softmax_two_pass)

/-- The pattern of `1e-8`: sign clear, exponent field `100`, fraction `2870391`, the positive normal number
    `(2^23 + 2870391) · 2^(100 − 127 − 23)`. -/
private theorem eps_pattern : ∃ c : ℝ, 0 < c ∧ Ideal.ofBits .f32 0x322BCC77#32 = ((c : ℝ) : EReal) := by
  refine ⟨(11258999 : ℝ) * (2 : ℝ) ^ (-50 : ℤ), by positivity, ?_⟩
  simp [Ideal.ofBits, Ideal.ieee, -EReal.coe_mul]

theorem lit_eps : Ideal.ofBits .f32 0x322BCC77#32 = ((epsR : ℝ) : EReal) := by
  obtain ⟨c, _, hc⟩ := eps_pattern
  rw [epsR, hc, EReal.toReal_coe]
theorem epsR_pos : 0 < epsR := by
  obtain ⟨c, hpos, hc⟩ := eps_pattern
  rw [epsR, hc, EReal.toReal_coe]
  exact hpos

theorem part_zero (f : Fin 8192 → ℝ) : part f 0 = 0 := by
  simp [part]

/-- One more tile: the partial sum grows by the tile's 1024 terms. -/
theorem part_succ (f : Fin 8192 → ℝ) (k : Fin 8) :
    part f (k.val + 1) = part f k.val + ∑ q : Fin 1024, f (crow k q) := by
  unfold part
  -- The indicator of `j < 1024 (k+1)` is that of `j < 1024 k` plus that of the tile `1024 k ≤ j < 1024 (k+1)`.
  have hsplit : ∀ j : Fin 8192, (if j.val < 1024 * (k.val + 1) then f j else 0)
      = (if j.val < 1024 * k.val then f j else 0)
        + (if 1024 * k.val ≤ j.val ∧ j.val < 1024 * (k.val + 1) then f j else 0) := by
    intro j
    by_cases h1 : j.val < 1024 * k.val
    · have h2 : j.val < 1024 * (k.val + 1) := by omega
      have h3 : ¬ (1024 * k.val ≤ j.val ∧ j.val < 1024 * (k.val + 1)) := by omega
      rw [if_pos h1, if_pos h2, if_neg h3, add_zero]
    · by_cases h2 : j.val < 1024 * (k.val + 1)
      · have h3 : 1024 * k.val ≤ j.val ∧ j.val < 1024 * (k.val + 1) := by omega
        rw [if_neg h1, if_pos h2, if_pos h3, zero_add]
      · have h3 : ¬ (1024 * k.val ≤ j.val ∧ j.val < 1024 * (k.val + 1)) := by omega
        rw [if_neg h1, if_neg h2, if_neg h3, add_zero]
  rw [Finset.sum_congr rfl (fun j _ => hsplit j), Finset.sum_add_distrib]
  congr 1
  -- The tile's sum, re-indexed by the position `q` inside the tile.
  symm
  refine Finset.sum_of_injOn (crow k) ?_ ?_ ?_ ?_
  · intro q _ q' _ h
    have := congrArg Fin.val h
    simp only [crow] at this
    exact Fin.ext (by omega)
  · intro q _
    exact Finset.mem_coe.mpr (Finset.mem_univ _)
  · intro j _ hj
    refine if_neg ?_
    rintro ⟨h1, h2⟩
    refine hj ⟨⟨j.val - 1024 * k.val, by omega⟩, Finset.mem_coe.mpr (Finset.mem_univ _), ?_⟩
    exact Fin.ext (by simp only [crow]; omega)
  · intro q _
    have hq := q.isLt
    have : 1024 * k.val ≤ (crow k q).val ∧ (crow k q).val < 1024 * (k.val + 1) := by
      simp only [crow]; omega
    rw [if_pos this]

theorem part_eight (f : Fin 8192 → ℝ) : part f 8 = ∑ j : Fin 8192, f j := by
  unfold part
  exact Finset.sum_congr rfl (fun j _ => if_pos (by have := j.isLt; omega))

/-- Moving the reference point of the exponentials from `m` to `m'` multiplies a partial sum by `e^{m − m'}`. -/
theorem part_rescale (s w : Fin 8192 → ℝ) (m m' : ℝ) (k : ℕ) :
    Real.exp (m - m') * part (fun j => Real.exp (s j - m) * w j) k = part (fun j => Real.exp (s j - m') * w j) k := by
  unfold part
  rw [Finset.mul_sum]
  refine Finset.sum_congr rfl (fun j _ => ?_)
  have he : Real.exp (m - m') * Real.exp (s j - m) = Real.exp (s j - m') := by
    rw [← Real.exp_add]; congr 1; ring
  split_ifs
  · rw [← mul_assoc, he]
  · rw [mul_zero]

theorem part_rescale_one (s : Fin 8192 → ℝ) (m m' : ℝ) (k : ℕ) :
    Real.exp (m - m') * part (fun j => Real.exp (s j - m)) k = part (fun j => Real.exp (s j - m')) k := by
  simpa using part_rescale s (fun _ => 1) m m' k

end Cert.VQ

end
-- ==== Proof.Blocks.lean ====
/-
  What the region finds in its windows when the arguments hold real numbers: the input and the codebook as
  launched (a change of float format is the identity on the extended reals), the codebook's squared norms laid out
  as one row, the bias and the scale as one row each — and so what each operand block of a grid point holds:
  point `t = 8·i + k` stages rows `512·i …` of the input, rows `1024·k …` of the codebook and of its norms, and the
  whole weight, bias and scale.
-/
import proofs.«109600_j80247168959070_2_alg».proof.Proof.Gen.KernelIdeal.Value
import proofs.«109600_j80247168959070_2_alg».proof.Proof.SemDefs
import proofs.«109600_j80247168959070_2_alg».proof.Proof.RealMath
import Idealize.ShloMosaic.Lib.Pipeline.Value
import Idealize.ShloMosaic.Lib.ValueLayout
import Idealize.ShloMosaic.Lib.StableHlo.Run
import Idealize.ShloMosaic.PureOps.Ideal.Laws

noncomputable section

namespace Cert.VQ

open Idealize.ShloMosaic Idealize.ShloMosaic.TcCoe Idealize.SL.Sem Idealize.ShloMosaic.ValueIdx
open Cert.KernelIdeal Cert.KernelIdeal.Gen

variable (m : (ℓ : Loc nD τ sig) → Buf (Elt Ideal) ℓ) (c : Dev nD)

/-- The printed index maps over the grid: point `t` is row tile `t / 8` and codebook tile `t % 8`. -/
theorem idx_facts : ∀ t : Fin cfg0.N,
    win0_0.index t (0 : Fin 2) = t.val / 8 ∧ win0_0.index t (1 : Fin 2) = 0
    ∧ win0_1.index t (0 : Fin 2) = t.val % 8 ∧ win0_1.index t (1 : Fin 2) = 0
    ∧ win0_2.index t (0 : Fin 2) = 0 ∧ win0_2.index t (1 : Fin 2) = t.val % 8
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val / 8 ∧ win0_6.index t (1 : Fin 2) = 0 :=
  (by decide +kernel : ∀ t : Fin grid0.N, _)

/-- The codebook in the matrix unit's format is the codebook. -/
theorem V_cb : (V m c main_v3 : S8192x1024.Idx → EReal) = m ((c : Thread nD τ).loc main_arg1) := by
  dsimp only [Gen.V, Gen.hostOps0]; after_results; rfl

/-- The weight in the matrix unit's format is the weight. -/
theorem V_w : (V m c main_v4 : S1024x1024.Idx → EReal) = m ((c : Thread nD τ).loc main_arg3) := by
  dsimp only [Gen.V, Gen.hostOps0]; after_results; rfl
/-- The bias laid out as one row. -/
theorem V_b : (V m c main_v5 : S1x1024.Idx → EReal) = shapeCast S1x1024 (m ((c : Thread nD τ).loc main_arg4)) shapeCasts_S1024_S1x1024 := by
  dsimp only [Gen.V, Gen.hostOps0]; after_results; rfl
/-- The scale laid out as one row. -/
theorem V_sc : (V m c main_v6 : S1x1024.Idx → EReal) = shapeCast S1x1024 (m ((c : Thread nD τ).loc main_arg2)) shapeCasts_S1024_S1x1024 := by
  dsimp only [Gen.V, Gen.hostOps0]; after_results; rfl
/-- The codebook's squared norms laid out as one row. -/
theorem V_csq : (V m c main_v2 : S1x8192.Idx → EReal) = shapeCast S1x8192 (Host.reduceAdd (F := Ideal) (mulf (m ((c : Thread nD τ).loc main_arg1)) (m ((c : Thread nD τ).loc main_arg1))) (constant (F := Ideal) S_ .f32 0x00000000#32) reducesTo_S8192x1024_S8192_d1 h_S_) shapeCasts_S8192_S1x8192 := by
  dsimp only [Gen.V, Gen.hostOps0]; after_results; rfl

section blocks

variable (H C : Fin 8192 → Fin 1024 → ℝ) (Sc Bv : Fin 1024 → ℝ) (Wt : Fin 1024 → Fin 1024 → ℝ)

/-- The input's block at point `t` holds the rows of row tile `t / 8`. -/
theorem isH_iblk (h0 : ∀ (r : Fin 8192) (d : Fin 1024), m ((c : Thread nD τ).loc main_arg0) (ix2 r d) = ((H r d : ℝ) : EReal))
    (t : Fin cfg0.N) (i : Fin 16) (hi : i.val = t.val / 8) : IsH H i (iblk m c 0 t) := by
  intro p d
  show V m c main_arg0 (((cfg0.win 0).blk t).view.emb (ix2 p d)) = _
  rw [V_main_arg0]
  obtain ⟨e0, e1, -⟩ := idx_facts t
  have he : ((cfg0.win 0).blk t).view.emb (ix2 p d) = ix2 (row i p) d := by
    funext a; apply Fin.ext
    match a with
    | ⟨0, _⟩ => show win0_0.index t (0 : Fin 2) * 512 + 1 * p.val = 512 * i.val + p.val; omega
    | ⟨1, _⟩ => show win0_0.index t (1 : Fin 2) * 1024 + 1 * d.val = d.val; omega
  rw [he]; exact h0 _ _

/-- The codebook's block at point `t` holds the rows of codebook tile `t % 8`. -/
theorem isC_iblk (h1 : ∀ (j : Fin 8192) (d : Fin 1024), m ((c : Thread nD τ).loc main_arg1) (ix2 j d) = ((C j d : ℝ) : EReal))
    (t : Fin cfg0.N) (k : Fin 8) (hk : k.val = t.val % 8) : IsC C k (iblk m c 1 t) := by
  intro q d
  show V m c main_v3 (((cfg0.win 1).blk t).view.emb (ix2 q d)) = _
  rw [V_cb]
  obtain ⟨-, -, e0, e1, -⟩ := idx_facts t
  have he : ((cfg0.win 1).blk t).view.emb (ix2 q d) = ix2 (crow k q) d := by
    funext a; apply Fin.ext
    match a with
    | ⟨0, _⟩ => show win0_1.index t (0 : Fin 2) * 1024 + 1 * q.val = 1024 * k.val + q.val; omega
    | ⟨1, _⟩ => show win0_1.index t (1 : Fin 2) * 1024 + 1 * d.val = d.val; omega
  rw [he]; exact h1 _ _

/-- The weight's block is the whole weight. -/
theorem isW_iblk (h3 : ∀ (n d : Fin 1024), m ((c : Thread nD τ).loc main_arg3) (ix2 n d) = ((Wt n d : ℝ) : EReal))
    (t : Fin cfg0.N) : IsW Wt (iblk m c 3 t) := by
  intro n d
  show V m c main_v4 (((cfg0.win 3).blk t).view.emb (ix2 n d)) = _
  rw [V_w]
  obtain ⟨-, -, -, -, -, -, e0, e1, -⟩ := idx_facts t
  have he : ((cfg0.win 3).blk t).view.emb (ix2 n d) = ix2 n d := by
    funext a; apply Fin.ext
    match a with
    | ⟨0, _⟩ => show win0_3.index t (0 : Fin 2) * 1024 + 1 * n.val = n.val; omega
    | ⟨1, _⟩ => show win0_3.index t (1 : Fin 2) * 1024 + 1 * d.val = d.val; omega
  rw [he]; exact h3 _ _

/-- The bias row. -/
theorem isB_iblk (h4 : ∀ n : Fin 1024, m ((c : Thread nD τ).loc main_arg4) (ix1 n) = ((Bv n : ℝ) : EReal))
    (t : Fin cfg0.N) : IsB Bv (iblk m c 4 t) := by
  intro n
  show V m c main_v5 (((cfg0.win 4).blk t).view.emb (ix2 0 n)) = _
  rw [V_b]
  obtain ⟨-, -, -, -, -, -, -, -, e0, e1, -⟩ := idx_facts t
  have he : ((cfg0.win 4).blk t).view.emb (ix2 0 n) = ix2 (0 : Fin 1) n := by
    funext a; apply Fin.ext
    match a with
    | ⟨0, _⟩ => show win0_4.index t (0 : Fin 2) * 1 + 1 * 0 = 0; omega
    | ⟨1, _⟩ => show win0_4.index t (1 : Fin 2) * 1024 + 1 * n.val = n.val; omega
  rw [he, shapeCast_a_1a_apply]; exact h4 _

/-- The scale row. -/
theorem isSc_iblk (h2 : ∀ d : Fin 1024, m ((c : Thread nD τ).loc main_arg2) (ix1 d) = ((Sc d : ℝ) : EReal))
    (t : Fin cfg0.N) : IsSc Sc (iblk m c 5 t) := by
  intro d
  show V m c main_v6 (((cfg0.win 5).blk t).view.emb (ix2 0 d)) = _
  rw [V_sc]
  obtain ⟨-, -, -, -, -, -, -, -, -, -, e0, e1, -⟩ := idx_facts t
  have he : ((cfg0.win 5).blk t).view.emb (ix2 0 d) = ix2 (0 : Fin 1) d := by
    funext a; apply Fin.ext
    match a with
    | ⟨0, _⟩ => show win0_5.index t (0 : Fin 2) * 1 + 1 * 0 = 0; omega
    | ⟨1, _⟩ => show win0_5.index t (1 : Fin 2) * 1024 + 1 * d.val = d.val; omega
  rw [he, shapeCast_a_1a_apply]; exact h2 _

/-- A row of the codebook's squared norms is the sum of the row's squares. -/
theorem csq_row (a1 : FVec Ideal S8192x1024 .f32) (h1 : ∀ (j : Fin 8192) (d : Fin 1024), a1 (ix2 j d) = ((C j d : ℝ) : EReal))
    (j : Fin 8192) :
    Host.reduceAdd (F := Ideal) (mulf a1 a1) (constant (F := Ideal) S_ .f32 0x00000000#32) reducesTo_S8192x1024_S8192_d1 h_S_ (ix1 j) = ((csq C j : ℝ) : EReal) := by
  generalize hy : mulf a1 a1 = y0
  simp only [Host.reduceAdd, Ideal.hostReduceAdd_def]
  rw [Ideal.hostReduceAdd_single reducesTo_S8192x1024_S8192_d1 (by decide)]
  have hk : ∀ k : Fin 1024, y0 ((by decide : Shape.Reduces S8192x1024 [1] S8192).lift (ix1 j) k) = ((C j k * C j k : ℝ) : EReal) := by
    intro k
    have e : (by decide : Shape.Reduces S8192x1024 [1] S8192).lift (ix1 j) k = ix2 j k :=
      funext fun a => Fin.ext (by match a with | ⟨0, _⟩ => rfl | ⟨1, _⟩ => rfl)
    rw [e, ← hy]
    show a1 (ix2 j k) * a1 (ix2 j k) = _
    rw [h1, EReal.coe_mul]
  refine (congrArg (_ + ·) ((Finset.sum_congr rfl fun k _ => hk k).trans
    (coe_sum Finset.univ fun k : Fin 1024 => C j k * C j k))).trans ?_
  show Ideal.ofBits .f32 0x00000000#32 + _ = _
  rw [Ideal.ofBits_zero_f32, zero_add]; rfl

/-- The block of squared norms at point `t` is that of codebook tile `t % 8`. -/
theorem isCsq_iblk (h1 : ∀ (j : Fin 8192) (d : Fin 1024), m ((c : Thread nD τ).loc main_arg1) (ix2 j d) = ((C j d : ℝ) : EReal))
    (t : Fin cfg0.N) (k : Fin 8) (hk : k.val = t.val % 8) : IsCsq C k (iblk m c 2 t) := by
  intro q
  show V m c main_v2 (((cfg0.win 2).blk t).view.emb (ix2 0 q)) = _
  rw [V_csq]
  obtain ⟨-, -, -, -, e0, e1, -⟩ := idx_facts t
  have he : ((cfg0.win 2).blk t).view.emb (ix2 0 q) = ix2 (0 : Fin 1) (crow k q) := by
    funext a; apply Fin.ext
    match a with
    | ⟨0, _⟩ => show win0_2.index t (0 : Fin 2) * 1 + 1 * 0 = 0; omega
    | ⟨1, _⟩ => show win0_2.index t (1 : Fin 2) * 1024 + 1 * q.val = 1024 * k.val + q.val; omega
  rw [he, shapeCast_a_1a_apply]; exact csq_row C (m ((c : Thread nD τ).loc main_arg1)) h1 _

end blocks

end Cert.VQ

end
-- ==== Proof.Pieces.lean ====
/-
  What each case of the kernel body leaves in the carried buffers and in the output block, as the body's own
  arithmetic applied to the operand blocks and to what the point before left: the first codebook tile of a row tile
  (case A) starts the running maximum, the running sum and the weighted sum from `-∞`, `0`, `0` and stores the
  input block and the input minus itself; a later tile (cases B and C) carries them on and keeps those two; the last
  tile (case C) also stores the output block, computed from the sums it has just updated.
-/
import proofs.«109600_j80247168959070_2_alg».proof.Proof.Gen.KernelIdeal.Frame
import Idealize.ShloMosaic.Lib.Pipeline.Value

set_option maxRecDepth 16384

noncomputable section

namespace Cert.KernelIdeal.Pieces

open Idealize.ShloMosaic Idealize.ShloMosaic.TcCoe Idealize.ShloMosaic.Tactic Idealize.SL.Sem Cert.KernelIdeal Cert.KernelIdeal.Gen

variable {F : FTy → Type} [FloatOps F]

/-- A pair of zero offsets, however spelt, is the constant-zero offset function. -/
private theorem p_hz : (![0, 0] : Fin 2 → Nat) = fun _ => 0 := funext fun a => by fin_cases a <;> rfl

theorem sout0_A_0_eq (c : Dev nD) (i : grid0.Coords) (arg2 : Memref sig .tc .vmem S512x1024 .f32) (harg2 : arg2.IsWhole) (arg3 : Memref sig .tc .vmem S1024x1024 .bf16) (harg3 : arg3.IsWhole) (arg4 : Memref sig .tc .vmem S1x1024 .f32) (harg4 : arg4.IsWhole) (arg5 : Memref sig .tc .vmem S1024x1024 .bf16) (harg5 : arg5.IsWhole) (arg6 : Memref sig .tc .vmem S1x1024 .f32) (harg6 : arg6.IsWhole) (arg7 : Memref sig .tc .vmem S1x1024 .f32) (harg7 : arg7.IsWhole) (arg8 : Memref sig .tc .vmem S512x1024 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1024 .f32) (harg11 : arg11.IsWhole) (arg12 : Memref sig .tc .vmem S512x1024 .bf16) (harg12 : arg12.IsWhole) (arg13 : Memref sig .tc .vmem S512x1024 .bf16) (harg13 : arg13.IsWhole) (hc0 : cond0_0 i) (hc1 : ¬cond0_1 i)
    (x0 : Vec F S512x1024 .f32) (x1 : Vec F S1024x1024 .bf16) (x2 : Vec F S1x1024 .f32) (x3 : Vec F S1024x1024 .bf16) (x4 : Vec F S1x1024 .f32) (x5 : Vec F S1x1024 .f32) :
    sout0_A_0 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 = k0_pay2 (k0_pay11 (k0_pay7 x0) (k0_pay8 x0) x1 x2 (k0_pay4 (F := F))) := by
  unfold sout0_A_0
  rw [View.read_writes_eq_canon _ _ _ (scover0_A_0 c i arg2 harg2 arg3 harg3 arg4 harg4 arg5 harg5 arg6 harg6 arg7 harg7 arg8 harg8 arg9 harg9 arg10 harg10 arg11 harg11 arg12 harg12 arg13 harg13 hc0 hc1 x0 x1 x2 x3 x4 x5)]
  unfold kernelRun0_A
  dsimp only
  sl_unfold_words
  rw [View.canon_cons_unit_zero (S := S512x1) p_hz]
  simp only [View.readCov_unit_zero (S := S512x1024) _ p_hz, View.readCov_unit_zero (S := S512x1) _ p_hz]
  simp only [View.readAt_eq_ld, harg2.read_unread, harg3.read_unread, harg4.read_unread, harg5.read_unread, harg6.read_unread, harg7.read_unread, harg9.read_unread, harg10.read_unread, harg11.read_unread, harg12.read_unread, harg13.read_unread,
    View.ld_unit_zero (S := S512x1024) p_hz, View.ld_unit_zero (S := S1024x1024) p_hz, View.ld_unit_zero (S := S1x1024) p_hz, View.ld_unit_zero (S := S512x1) p_hz]

theorem sout0_A_1_eq (c : Dev nD) (i : grid0.Coords) (arg2 : Memref sig .tc .vmem S512x1024 .f32) (harg2 : arg2.IsWhole) (arg3 : Memref sig .tc .vmem S1024x1024 .bf16) (harg3 : arg3.IsWhole) (arg4 : Memref sig .tc .vmem S1x1024 .f32) (harg4 : arg4.IsWhole) (arg5 : Memref sig .tc .vmem S1024x1024 .bf16) (harg5 : arg5.IsWhole) (arg6 : Memref sig .tc .vmem S1x1024 .f32) (harg6 : arg6.IsWhole) (arg7 : Memref sig .tc .vmem S1x1024 .f32) (harg7 : arg7.IsWhole) (arg8 : Memref sig .tc .vmem S512x1024 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1024 .f32) (harg11 : arg11.IsWhole) (arg12 : Memref sig .tc .vmem S512x1024 .bf16) (harg12 : arg12.IsWhole) (arg13 : Memref sig .tc .vmem S512x1024 .bf16) (harg13 : arg13.IsWhole) (hc0 : cond0_0 i) (hc1 : ¬cond0_1 i)
    (x0 : Vec F S512x1024 .f32) (x1 : Vec F S1024x1024 .bf16) (x2 : Vec F S1x1024 .f32) (x3 : Vec F S1024x1024 .bf16) (x4 : Vec F S1x1024 .f32) (x5 : Vec F S1x1024 .f32) :
    sout0_A_1 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 = k0_pay14 (k0_pay7 x0) (k0_pay8 x0) x1 x2 (k0_pay4 (F := F)) (k0_pay5 (F := F)) := by
  unfold sout0_A_1
  rw [View.read_writes_eq_canon _ _ _ (scover0_A_1 c i arg2 harg2 arg3 harg3 arg4 harg4 arg5 harg5 arg6 harg6 arg7 harg7 arg8 harg8 arg9 harg9 arg10 harg10 arg11 harg11 arg12 harg12 arg13 harg13 hc0 hc1 x0 x1 x2 x3 x4 x5)]
  unfold kernelRun0_A
  dsimp only
  sl_unfold_words
  rw [View.canon_cons_unit_zero (S := S512x1) p_hz]
  simp only [View.readCov_unit_zero (S := S512x1024) _ p_hz, View.readCov_unit_zero (S := S512x1) _ p_hz]
  simp only [View.readAt_eq_ld, harg2.read_unread, harg3.read_unread, harg4.read_unread, harg5.read_unread, harg6.read_unread, harg7.read_unread, harg9.read_unread, harg10.read_unread, harg11.read_unread, harg12.read_unread, harg13.read_unread,
    View.ld_unit_zero (S := S512x1024) p_hz, View.ld_unit_zero (S := S1024x1024) p_hz, View.ld_unit_zero (S := S1x1024) p_hz, View.ld_unit_zero (S := S512x1) p_hz]

theorem sout0_A_2_eq (c : Dev nD) (i : grid0.Coords) (arg2 : Memref sig .tc .vmem S512x1024 .f32) (harg2 : arg2.IsWhole) (arg3 : Memref sig .tc .vmem S1024x1024 .bf16) (harg3 : arg3.IsWhole) (arg4 : Memref sig .tc .vmem S1x1024 .f32) (harg4 : arg4.IsWhole) (arg5 : Memref sig .tc .vmem S1024x1024 .bf16) (harg5 : arg5.IsWhole) (arg6 : Memref sig .tc .vmem S1x1024 .f32) (harg6 : arg6.IsWhole) (arg7 : Memref sig .tc .vmem S1x1024 .f32) (harg7 : arg7.IsWhole) (arg8 : Memref sig .tc .vmem S512x1024 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1024 .f32) (harg11 : arg11.IsWhole) (arg12 : Memref sig .tc .vmem S512x1024 .bf16) (harg12 : arg12.IsWhole) (arg13 : Memref sig .tc .vmem S512x1024 .bf16) (harg13 : arg13.IsWhole) (hc0 : cond0_0 i) (hc1 : ¬cond0_1 i)
    (x0 : Vec F S512x1024 .f32) (x1 : Vec F S1024x1024 .bf16) (x2 : Vec F S1x1024 .f32) (x3 : Vec F S1024x1024 .bf16) (x4 : Vec F S1x1024 .f32) (x5 : Vec F S1x1024 .f32) :
    sout0_A_2 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 = k0_pay1 (k0_pay9 x1) (k0_pay12 (k0_pay7 x0) (k0_pay8 x0) x1 x2 (k0_pay4 (F := F))) (k0_pay13 (k0_pay7 x0) (k0_pay8 x0) x1 x2 (k0_pay4 (F := F))) (k0_pay6 (F := F)) := by
  unfold sout0_A_2
  rw [View.read_writes_eq_canon _ _ _ (scover0_A_2 c i arg2 harg2 arg3 harg3 arg4 harg4 arg5 harg5 arg6 harg6 arg7 harg7 arg8 harg8 arg9 harg9 arg10 harg10 arg11 harg11 arg12 harg12 arg13 harg13 hc0 hc1 x0 x1 x2 x3 x4 x5)]
  unfold kernelRun0_A
  dsimp only
  sl_unfold_words
  rw [View.canon_cons_unit_zero (S := S512x1024) p_hz]
  simp only [View.readCov_unit_zero (S := S512x1024) _ p_hz, View.readCov_unit_zero (S := S512x1) _ p_hz]
  simp only [View.readAt_eq_ld, harg2.read_unread, harg3.read_unread, harg4.read_unread, harg5.read_unread, harg6.read_unread, harg7.read_unread, harg9.read_unread, harg10.read_unread, harg11.read_unread, harg12.read_unread, harg13.read_unread,
    View.ld_unit_zero (S := S512x1024) p_hz, View.ld_unit_zero (S := S1024x1024) p_hz, View.ld_unit_zero (S := S1x1024) p_hz, View.ld_unit_zero (S := S512x1) p_hz]

theorem sout0_A_3_eq (c : Dev nD) (i : grid0.Coords) (arg2 : Memref sig .tc .vmem S512x1024 .f32) (harg2 : arg2.IsWhole) (arg3 : Memref sig .tc .vmem S1024x1024 .bf16) (harg3 : arg3.IsWhole) (arg4 : Memref sig .tc .vmem S1x1024 .f32) (harg4 : arg4.IsWhole) (arg5 : Memref sig .tc .vmem S1024x1024 .bf16) (harg5 : arg5.IsWhole) (arg6 : Memref sig .tc .vmem S1x1024 .f32) (harg6 : arg6.IsWhole) (arg7 : Memref sig .tc .vmem S1x1024 .f32) (harg7 : arg7.IsWhole) (arg8 : Memref sig .tc .vmem S512x1024 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1024 .f32) (harg11 : arg11.IsWhole) (arg12 : Memref sig .tc .vmem S512x1024 .bf16) (harg12 : arg12.IsWhole) (arg13 : Memref sig .tc .vmem S512x1024 .bf16) (harg13 : arg13.IsWhole) (hc0 : cond0_0 i) (hc1 : ¬cond0_1 i)
    (x0 : Vec F S512x1024 .f32) (x1 : Vec F S1024x1024 .bf16) (x2 : Vec F S1x1024 .f32) (x3 : Vec F S1024x1024 .bf16) (x4 : Vec F S1x1024 .f32) (x5 : Vec F S1x1024 .f32) :
    sout0_A_3 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 = k0_pay7 x0 := by
  unfold sout0_A_3
  rw [View.read_writes_eq_canon _ _ _ (scover0_A_3 c i arg2 harg2 arg3 harg3 arg4 harg4 arg5 harg5 arg6 harg6 arg7 harg7 arg8 harg8 arg9 harg9 arg10 harg10 arg11 harg11 arg12 harg12 arg13 harg13 hc0 hc1 x0 x1 x2 x3 x4 x5)]
  unfold kernelRun0_A
  dsimp only
  sl_unfold_words
  rw [View.canon_unit_zero (S := S512x1024) p_hz]
  simp only [View.readAt_eq_ld, harg2.read_unread, harg3.read_unread, harg4.read_unread, harg5.read_unread, harg6.read_unread, harg7.read_unread, harg9.read_unread, harg10.read_unread, harg11.read_unread, harg12.read_unread, harg13.read_unread,
    View.ld_unit_zero (S := S512x1024) p_hz, View.ld_unit_zero (S := S1024x1024) p_hz, View.ld_unit_zero (S := S1x1024) p_hz, View.ld_unit_zero (S := S512x1) p_hz]

theorem sout0_A_4_eq (c : Dev nD) (i : grid0.Coords) (arg2 : Memref sig .tc .vmem S512x1024 .f32) (harg2 : arg2.IsWhole) (arg3 : Memref sig .tc .vmem S1024x1024 .bf16) (harg3 : arg3.IsWhole) (arg4 : Memref sig .tc .vmem S1x1024 .f32) (harg4 : arg4.IsWhole) (arg5 : Memref sig .tc .vmem S1024x1024 .bf16) (harg5 : arg5.IsWhole) (arg6 : Memref sig .tc .vmem S1x1024 .f32) (harg6 : arg6.IsWhole) (arg7 : Memref sig .tc .vmem S1x1024 .f32) (harg7 : arg7.IsWhole) (arg8 : Memref sig .tc .vmem S512x1024 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1024 .f32) (harg11 : arg11.IsWhole) (arg12 : Memref sig .tc .vmem S512x1024 .bf16) (harg12 : arg12.IsWhole) (arg13 : Memref sig .tc .vmem S512x1024 .bf16) (harg13 : arg13.IsWhole) (hc0 : cond0_0 i) (hc1 : ¬cond0_1 i)
    (x0 : Vec F S512x1024 .f32) (x1 : Vec F S1024x1024 .bf16) (x2 : Vec F S1x1024 .f32) (x3 : Vec F S1024x1024 .bf16) (x4 : Vec F S1x1024 .f32) (x5 : Vec F S1x1024 .f32) :
    sout0_A_4 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 = k0_pay8 x0 := by
  unfold sout0_A_4
  rw [View.read_writes_eq_canon _ _ _ (scover0_A_4 c i arg2 harg2 arg3 harg3 arg4 harg4 arg5 harg5 arg6 harg6 arg7 harg7 arg8 harg8 arg9 harg9 arg10 harg10 arg11 harg11 arg12 harg12 arg13 harg13 hc0 hc1 x0 x1 x2 x3 x4 x5)]
  unfold kernelRun0_A
  dsimp only
  sl_unfold_words
  rw [View.canon_unit_zero (S := S512x1024) p_hz]
  simp only [View.readAt_eq_ld, harg2.read_unread, harg3.read_unread, harg4.read_unread, harg5.read_unread, harg6.read_unread, harg7.read_unread, harg9.read_unread, harg10.read_unread, harg11.read_unread, harg12.read_unread, harg13.read_unread,
    View.ld_unit_zero (S := S512x1024) p_hz, View.ld_unit_zero (S := S1024x1024) p_hz, View.ld_unit_zero (S := S1x1024) p_hz, View.ld_unit_zero (S := S512x1) p_hz]

theorem sout0_B_0_eq (c : Dev nD) (i : grid0.Coords) (arg2 : Memref sig .tc .vmem S512x1024 .f32) (harg2 : arg2.IsWhole) (arg3 : Memref sig .tc .vmem S1024x1024 .bf16) (harg3 : arg3.IsWhole) (arg4 : Memref sig .tc .vmem S1x1024 .f32) (harg4 : arg4.IsWhole) (arg5 : Memref sig .tc .vmem S1024x1024 .bf16) (harg5 : arg5.IsWhole) (arg6 : Memref sig .tc .vmem S1x1024 .f32) (harg6 : arg6.IsWhole) (arg7 : Memref sig .tc .vmem S1x1024 .f32) (harg7 : arg7.IsWhole) (arg8 : Memref sig .tc .vmem S512x1024 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1024 .f32) (harg11 : arg11.IsWhole) (arg12 : Memref sig .tc .vmem S512x1024 .bf16) (harg12 : arg12.IsWhole) (arg13 : Memref sig .tc .vmem S512x1024 .bf16) (harg13 : arg13.IsWhole) (hc0 : ¬cond0_0 i) (hc1 : ¬cond0_1 i)
    (x0 : Vec F S512x1024 .f32) (x1 : Vec F S1024x1024 .bf16) (x2 : Vec F S1x1024 .f32) (x3 : Vec F S1024x1024 .bf16) (x4 : Vec F S1x1024 .f32) (x5 : Vec F S1x1024 .f32) (xs0 : Vec F S512x1 .f32) (xs1 : Vec F S512x1 .f32) (xs2 : Vec F S512x1024 .f32) (xs3 : Vec F S512x1024 .bf16) (xs4 : Vec F S512x1024 .bf16) :
    sout0_B_0 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 xs0 xs1 xs2 xs3 xs4 = k0_pay2 (k0_pay11 xs3 xs4 x1 x2 xs0) := by
  unfold sout0_B_0
  rw [View.read_writes_eq_canon _ _ _ (scover0_B_0 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 xs0 xs1 xs2 xs3 xs4)]
  unfold kernelRun0_B
  dsimp only
  sl_unfold_words
  rw [View.canon_unit_zero (S := S512x1) p_hz]
  simp only [View.readAt_eq_ld, harg2.read_unread, harg3.read_unread, harg4.read_unread, harg5.read_unread, harg6.read_unread, harg7.read_unread, harg9.read_unread, harg10.read_unread, harg11.read_unread, harg12.read_unread, harg13.read_unread,
    View.ld_unit_zero (S := S512x1024) p_hz, View.ld_unit_zero (S := S1024x1024) p_hz, View.ld_unit_zero (S := S1x1024) p_hz, View.ld_unit_zero (S := S512x1) p_hz]

theorem sout0_B_1_eq (c : Dev nD) (i : grid0.Coords) (arg2 : Memref sig .tc .vmem S512x1024 .f32) (harg2 : arg2.IsWhole) (arg3 : Memref sig .tc .vmem S1024x1024 .bf16) (harg3 : arg3.IsWhole) (arg4 : Memref sig .tc .vmem S1x1024 .f32) (harg4 : arg4.IsWhole) (arg5 : Memref sig .tc .vmem S1024x1024 .bf16) (harg5 : arg5.IsWhole) (arg6 : Memref sig .tc .vmem S1x1024 .f32) (harg6 : arg6.IsWhole) (arg7 : Memref sig .tc .vmem S1x1024 .f32) (harg7 : arg7.IsWhole) (arg8 : Memref sig .tc .vmem S512x1024 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1024 .f32) (harg11 : arg11.IsWhole) (arg12 : Memref sig .tc .vmem S512x1024 .bf16) (harg12 : arg12.IsWhole) (arg13 : Memref sig .tc .vmem S512x1024 .bf16) (harg13 : arg13.IsWhole) (hc0 : ¬cond0_0 i) (hc1 : ¬cond0_1 i)
    (x0 : Vec F S512x1024 .f32) (x1 : Vec F S1024x1024 .bf16) (x2 : Vec F S1x1024 .f32) (x3 : Vec F S1024x1024 .bf16) (x4 : Vec F S1x1024 .f32) (x5 : Vec F S1x1024 .f32) (xs0 : Vec F S512x1 .f32) (xs1 : Vec F S512x1 .f32) (xs2 : Vec F S512x1024 .f32) (xs3 : Vec F S512x1024 .bf16) (xs4 : Vec F S512x1024 .bf16) :
    sout0_B_1 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 xs0 xs1 xs2 xs3 xs4 = k0_pay14 xs3 xs4 x1 x2 xs0 xs1 := by
  unfold sout0_B_1
  rw [View.read_writes_eq_canon _ _ _ (scover0_B_1 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 xs0 xs1 xs2 xs3 xs4)]
  unfold kernelRun0_B
  dsimp only
  sl_unfold_words
  rw [View.canon_unit_zero (S := S512x1) p_hz]
  simp only [View.readAt_eq_ld, harg2.read_unread, harg3.read_unread, harg4.read_unread, harg5.read_unread, harg6.read_unread, harg7.read_unread, harg9.read_unread, harg10.read_unread, harg11.read_unread, harg12.read_unread, harg13.read_unread,
    View.ld_unit_zero (S := S512x1024) p_hz, View.ld_unit_zero (S := S1024x1024) p_hz, View.ld_unit_zero (S := S1x1024) p_hz, View.ld_unit_zero (S := S512x1) p_hz]

theorem sout0_B_2_eq (c : Dev nD) (i : grid0.Coords) (arg2 : Memref sig .tc .vmem S512x1024 .f32) (harg2 : arg2.IsWhole) (arg3 : Memref sig .tc .vmem S1024x1024 .bf16) (harg3 : arg3.IsWhole) (arg4 : Memref sig .tc .vmem S1x1024 .f32) (harg4 : arg4.IsWhole) (arg5 : Memref sig .tc .vmem S1024x1024 .bf16) (harg5 : arg5.IsWhole) (arg6 : Memref sig .tc .vmem S1x1024 .f32) (harg6 : arg6.IsWhole) (arg7 : Memref sig .tc .vmem S1x1024 .f32) (harg7 : arg7.IsWhole) (arg8 : Memref sig .tc .vmem S512x1024 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1024 .f32) (harg11 : arg11.IsWhole) (arg12 : Memref sig .tc .vmem S512x1024 .bf16) (harg12 : arg12.IsWhole) (arg13 : Memref sig .tc .vmem S512x1024 .bf16) (harg13 : arg13.IsWhole) (hc0 : ¬cond0_0 i) (hc1 : ¬cond0_1 i)
    (x0 : Vec F S512x1024 .f32) (x1 : Vec F S1024x1024 .bf16) (x2 : Vec F S1x1024 .f32) (x3 : Vec F S1024x1024 .bf16) (x4 : Vec F S1x1024 .f32) (x5 : Vec F S1x1024 .f32) (xs0 : Vec F S512x1 .f32) (xs1 : Vec F S512x1 .f32) (xs2 : Vec F S512x1024 .f32) (xs3 : Vec F S512x1024 .bf16) (xs4 : Vec F S512x1024 .bf16) :
    sout0_B_2 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 xs0 xs1 xs2 xs3 xs4 = k0_pay1 (k0_pay9 x1) (k0_pay12 xs3 xs4 x1 x2 xs0) (k0_pay13 xs3 xs4 x1 x2 xs0) xs2 := by
  unfold sout0_B_2
  rw [View.read_writes_eq_canon _ _ _ (scover0_B_2 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 xs0 xs1 xs2 xs3 xs4)]
  unfold kernelRun0_B
  dsimp only
  sl_unfold_words
  rw [View.canon_unit_zero (S := S512x1024) p_hz]
  simp only [View.readAt_eq_ld, harg2.read_unread, harg3.read_unread, harg4.read_unread, harg5.read_unread, harg6.read_unread, harg7.read_unread, harg9.read_unread, harg10.read_unread, harg11.read_unread, harg12.read_unread, harg13.read_unread,
    View.ld_unit_zero (S := S512x1024) p_hz, View.ld_unit_zero (S := S1024x1024) p_hz, View.ld_unit_zero (S := S1x1024) p_hz, View.ld_unit_zero (S := S512x1) p_hz]

theorem sout0_C_0_eq (c : Dev nD) (i : grid0.Coords) (arg2 : Memref sig .tc .vmem S512x1024 .f32) (harg2 : arg2.IsWhole) (arg3 : Memref sig .tc .vmem S1024x1024 .bf16) (harg3 : arg3.IsWhole) (arg4 : Memref sig .tc .vmem S1x1024 .f32) (harg4 : arg4.IsWhole) (arg5 : Memref sig .tc .vmem S1024x1024 .bf16) (harg5 : arg5.IsWhole) (arg6 : Memref sig .tc .vmem S1x1024 .f32) (harg6 : arg6.IsWhole) (arg7 : Memref sig .tc .vmem S1x1024 .f32) (harg7 : arg7.IsWhole) (arg8 : Memref sig .tc .vmem S512x1024 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1024 .f32) (harg11 : arg11.IsWhole) (arg12 : Memref sig .tc .vmem S512x1024 .bf16) (harg12 : arg12.IsWhole) (arg13 : Memref sig .tc .vmem S512x1024 .bf16) (harg13 : arg13.IsWhole) (hc0 : ¬cond0_0 i) (hc1 : cond0_1 i)
    (x0 : Vec F S512x1024 .f32) (x1 : Vec F S1024x1024 .bf16) (x2 : Vec F S1x1024 .f32) (x3 : Vec F S1024x1024 .bf16) (x4 : Vec F S1x1024 .f32) (x5 : Vec F S1x1024 .f32) (xs0 : Vec F S512x1 .f32) (xs1 : Vec F S512x1 .f32) (xs2 : Vec F S512x1024 .f32) (xs3 : Vec F S512x1024 .bf16) (xs4 : Vec F S512x1024 .bf16) :
    sout0_C_0 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 xs0 xs1 xs2 xs3 xs4 = k0_pay2 (k0_pay11 xs3 xs4 x1 x2 xs0) := by
  unfold sout0_C_0
  rw [View.read_writes_eq_canon _ _ _ (scover0_C_0 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 xs0 xs1 xs2 xs3 xs4)]
  unfold kernelRun0_C
  dsimp only
  sl_unfold_words
  rw [View.canon_unit_zero (S := S512x1) p_hz]
  simp only [View.readAt_eq_ld, harg2.read_unread, harg3.read_unread, harg4.read_unread, harg5.read_unread, harg6.read_unread, harg7.read_unread, harg9.read_unread, harg10.read_unread, harg11.read_unread, harg12.read_unread, harg13.read_unread,
    View.ld_unit_zero (S := S512x1024) p_hz, View.ld_unit_zero (S := S1024x1024) p_hz, View.ld_unit_zero (S := S1x1024) p_hz, View.ld_unit_zero (S := S512x1) p_hz]

theorem sout0_C_1_eq (c : Dev nD) (i : grid0.Coords) (arg2 : Memref sig .tc .vmem S512x1024 .f32) (harg2 : arg2.IsWhole) (arg3 : Memref sig .tc .vmem S1024x1024 .bf16) (harg3 : arg3.IsWhole) (arg4 : Memref sig .tc .vmem S1x1024 .f32) (harg4 : arg4.IsWhole) (arg5 : Memref sig .tc .vmem S1024x1024 .bf16) (harg5 : arg5.IsWhole) (arg6 : Memref sig .tc .vmem S1x1024 .f32) (harg6 : arg6.IsWhole) (arg7 : Memref sig .tc .vmem S1x1024 .f32) (harg7 : arg7.IsWhole) (arg8 : Memref sig .tc .vmem S512x1024 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1024 .f32) (harg11 : arg11.IsWhole) (arg12 : Memref sig .tc .vmem S512x1024 .bf16) (harg12 : arg12.IsWhole) (arg13 : Memref sig .tc .vmem S512x1024 .bf16) (harg13 : arg13.IsWhole) (hc0 : ¬cond0_0 i) (hc1 : cond0_1 i)
    (x0 : Vec F S512x1024 .f32) (x1 : Vec F S1024x1024 .bf16) (x2 : Vec F S1x1024 .f32) (x3 : Vec F S1024x1024 .bf16) (x4 : Vec F S1x1024 .f32) (x5 : Vec F S1x1024 .f32) (xs0 : Vec F S512x1 .f32) (xs1 : Vec F S512x1 .f32) (xs2 : Vec F S512x1024 .f32) (xs3 : Vec F S512x1024 .bf16) (xs4 : Vec F S512x1024 .bf16) :
    sout0_C_1 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 xs0 xs1 xs2 xs3 xs4 = k0_pay14 xs3 xs4 x1 x2 xs0 xs1 := by
  unfold sout0_C_1
  rw [View.read_writes_eq_canon _ _ _ (scover0_C_1 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 xs0 xs1 xs2 xs3 xs4)]
  unfold kernelRun0_C
  dsimp only
  sl_unfold_words
  rw [View.canon_unit_zero (S := S512x1) p_hz]
  simp only [View.readAt_eq_ld, harg2.read_unread, harg3.read_unread, harg4.read_unread, harg5.read_unread, harg6.read_unread, harg7.read_unread, harg9.read_unread, harg10.read_unread, harg11.read_unread, harg12.read_unread, harg13.read_unread,
    View.ld_unit_zero (S := S512x1024) p_hz, View.ld_unit_zero (S := S1024x1024) p_hz, View.ld_unit_zero (S := S1x1024) p_hz, View.ld_unit_zero (S := S512x1) p_hz]

theorem sout0_C_2_eq (c : Dev nD) (i : grid0.Coords) (arg2 : Memref sig .tc .vmem S512x1024 .f32) (harg2 : arg2.IsWhole) (arg3 : Memref sig .tc .vmem S1024x1024 .bf16) (harg3 : arg3.IsWhole) (arg4 : Memref sig .tc .vmem S1x1024 .f32) (harg4 : arg4.IsWhole) (arg5 : Memref sig .tc .vmem S1024x1024 .bf16) (harg5 : arg5.IsWhole) (arg6 : Memref sig .tc .vmem S1x1024 .f32) (harg6 : arg6.IsWhole) (arg7 : Memref sig .tc .vmem S1x1024 .f32) (harg7 : arg7.IsWhole) (arg8 : Memref sig .tc .vmem S512x1024 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1024 .f32) (harg11 : arg11.IsWhole) (arg12 : Memref sig .tc .vmem S512x1024 .bf16) (harg12 : arg12.IsWhole) (arg13 : Memref sig .tc .vmem S512x1024 .bf16) (harg13 : arg13.IsWhole) (hc0 : ¬cond0_0 i) (hc1 : cond0_1 i)
    (x0 : Vec F S512x1024 .f32) (x1 : Vec F S1024x1024 .bf16) (x2 : Vec F S1x1024 .f32) (x3 : Vec F S1024x1024 .bf16) (x4 : Vec F S1x1024 .f32) (x5 : Vec F S1x1024 .f32) (xs0 : Vec F S512x1 .f32) (xs1 : Vec F S512x1 .f32) (xs2 : Vec F S512x1024 .f32) (xs3 : Vec F S512x1024 .bf16) (xs4 : Vec F S512x1024 .bf16) :
    sout0_C_2 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 xs0 xs1 xs2 xs3 xs4 = k0_pay1 (k0_pay9 x1) (k0_pay12 xs3 xs4 x1 x2 xs0) (k0_pay13 xs3 xs4 x1 x2 xs0) xs2 := by
  unfold sout0_C_2
  rw [View.read_writes_eq_canon _ _ _ (scover0_C_2 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 xs0 xs1 xs2 xs3 xs4)]
  unfold kernelRun0_C
  dsimp only
  sl_unfold_words
  rw [View.canon_unit_zero (S := S512x1024) p_hz]
  simp only [View.readAt_eq_ld, harg2.read_unread, harg3.read_unread, harg4.read_unread, harg5.read_unread, harg6.read_unread, harg7.read_unread, harg9.read_unread, harg10.read_unread, harg11.read_unread, harg12.read_unread, harg13.read_unread,
    View.ld_unit_zero (S := S512x1024) p_hz, View.ld_unit_zero (S := S1024x1024) p_hz, View.ld_unit_zero (S := S1x1024) p_hz, View.ld_unit_zero (S := S512x1) p_hz]

theorem out0_C_6_eq (c : Dev nD) (i : grid0.Coords) (arg2 : Memref sig .tc .vmem S512x1024 .f32) (harg2 : arg2.IsWhole) (arg3 : Memref sig .tc .vmem S1024x1024 .bf16) (harg3 : arg3.IsWhole) (arg4 : Memref sig .tc .vmem S1x1024 .f32) (harg4 : arg4.IsWhole) (arg5 : Memref sig .tc .vmem S1024x1024 .bf16) (harg5 : arg5.IsWhole) (arg6 : Memref sig .tc .vmem S1x1024 .f32) (harg6 : arg6.IsWhole) (arg7 : Memref sig .tc .vmem S1x1024 .f32) (harg7 : arg7.IsWhole) (arg8 : Memref sig .tc .vmem S512x1024 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1024 .f32) (harg11 : arg11.IsWhole) (arg12 : Memref sig .tc .vmem S512x1024 .bf16) (harg12 : arg12.IsWhole) (arg13 : Memref sig .tc .vmem S512x1024 .bf16) (harg13 : arg13.IsWhole) (hc0 : ¬cond0_0 i) (hc1 : cond0_1 i)
    (x0 : Vec F S512x1024 .f32) (x1 : Vec F S1024x1024 .bf16) (x2 : Vec F S1x1024 .f32) (x3 : Vec F S1024x1024 .bf16) (x4 : Vec F S1x1024 .f32) (x5 : Vec F S1x1024 .f32) (xs0 : Vec F S512x1 .f32) (xs1 : Vec F S512x1 .f32) (xs2 : Vec F S512x1024 .f32) (xs3 : Vec F S512x1024 .bf16) (xs4 : Vec F S512x1024 .bf16) :
    out0_C_6 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 xs0 xs1 xs2 xs3 xs4 = k0_pay3 (k0_pay1 (k0_pay9 x1) (k0_pay12 xs3 xs4 x1 x2 xs0) (k0_pay13 xs3 xs4 x1 x2 xs0) xs2) (k0_pay14 xs3 xs4 x1 x2 xs0 xs1) x0 x5 x3 x4 := by
  unfold out0_C_6
  rw [View.read_writes_eq_canon _ _ _ (cover0_C_6 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 xs0 xs1 xs2 xs3 xs4)]
  unfold kernelRun0_C
  dsimp only
  sl_unfold_words
  rw [View.canon_unit_zero (S := S512x1024) p_hz, View.readCov_unit_zero (S := S512x1024) _ p_hz, View.readCov_unit_zero (S := S512x1) _ p_hz]
  simp only [View.readAt_eq_ld, harg2.read_unread, harg3.read_unread, harg4.read_unread, harg5.read_unread, harg6.read_unread, harg7.read_unread, harg9.read_unread, harg10.read_unread, harg11.read_unread, harg12.read_unread, harg13.read_unread,
    View.ld_unit_zero (S := S512x1024) p_hz, View.ld_unit_zero (S := S1024x1024) p_hz, View.ld_unit_zero (S := S1x1024) p_hz, View.ld_unit_zero (S := S512x1) p_hz]

end Cert.KernelIdeal.Pieces

end
-- ==== Proof.Steps.lean ====
/-
  What each grid point leaves in the five carried buffers and in the output block, as the body's arithmetic applied
  to the point's operand blocks and to what the point before left: the first codebook tile of a row tile (points
  `≡ 0 mod 8`), a later tile (any other point), and the output block at the last tile (points `≡ 7 mod 8`), computed
  from the two sums the point has just updated.
-/
import proofs.«109600_j80247168959070_2_alg».proof.Proof.Gen.KernelIdeal.Frame
import proofs.«109600_j80247168959070_2_alg».proof.Proof.Pieces

set_option maxRecDepth 16384

noncomputable section

namespace Cert.KernelIdeal.Steps

open Idealize.ShloMosaic Idealize.ShloMosaic.TcCoe Idealize.SL.Sem Cert.KernelIdeal Cert.KernelIdeal.Gen

variable {F : FTy → Type} [FloatOps F]
variable (m : (ℓ : Loc nD τ sig) → Buf (Elt F) ℓ) (c : Dev nD)

/-- The five carried buffers after a point that starts a row tile, given that the point's contents are the first
    case's: each is the body's arithmetic on the operand blocks. -/
private theorem p_first {o : Vec F S512x1024 .f32 × Vec F S512x1 .f32 × Vec F S512x1 .f32 × Vec F S512x1024 .f32 × Vec F S512x1024 .bf16 × Vec F S512x1024 .bf16}
    {c : Dev nD} {i : grid0.Coords} {arg2 : Memref sig .tc .vmem S512x1024 .f32} {harg2 : arg2.IsWhole} {arg3 : Memref sig .tc .vmem S1024x1024 .bf16} {harg3 : arg3.IsWhole} {arg4 : Memref sig .tc .vmem S1x1024 .f32} {harg4 : arg4.IsWhole} {arg5 : Memref sig .tc .vmem S1024x1024 .bf16} {harg5 : arg5.IsWhole} {arg6 : Memref sig .tc .vmem S1x1024 .f32} {harg6 : arg6.IsWhole} {arg7 : Memref sig .tc .vmem S1x1024 .f32} {harg7 : arg7.IsWhole} {arg8 : Memref sig .tc .vmem S512x1024 .f32} {harg8 : arg8.IsWhole} {arg9 : Memref sig .tc .vmem S512x1 .f32} {harg9 : arg9.IsWhole} {arg10 : Memref sig .tc .vmem S512x1 .f32} {harg10 : arg10.IsWhole} {arg11 : Memref sig .tc .vmem S512x1024 .f32} {harg11 : arg11.IsWhole} {arg12 : Memref sig .tc .vmem S512x1024 .bf16} {harg12 : arg12.IsWhole} {arg13 : Memref sig .tc .vmem S512x1024 .bf16} {harg13 : arg13.IsWhole} {hc0 : cond0_0 i} {hc1 : ¬cond0_1 i} {x0 : Vec F S512x1024 .f32} {x1 : Vec F S1024x1024 .bf16} {x2 : Vec F S1x1024 .f32} {x3 : Vec F S1024x1024 .bf16} {x4 : Vec F S1x1024 .f32} {x5 : Vec F S1x1024 .f32}
    (e : o = (out0_A_6 c i arg2 harg2 arg3 harg3 arg4 harg4 arg5 harg5 arg6 harg6 arg7 harg7 arg8 harg8 arg9 harg9 arg10 harg10 arg11 harg11 arg12 harg12 arg13 harg13 hc0 hc1 x0 x1 x2 x3 x4 x5, sout0_A_0 c i arg2 harg2 arg3 harg3 arg4 harg4 arg5 harg5 arg6 harg6 arg7 harg7 arg8 harg8 arg9 harg9 arg10 harg10 arg11 harg11 arg12 harg12 arg13 harg13 hc0 hc1 x0 x1 x2 x3 x4 x5, sout0_A_1 c i arg2 harg2 arg3 harg3 arg4 harg4 arg5 harg5 arg6 harg6 arg7 harg7 arg8 harg8 arg9 harg9 arg10 harg10 arg11 harg11 arg12 harg12 arg13 harg13 hc0 hc1 x0 x1 x2 x3 x4 x5, sout0_A_2 c i arg2 harg2 arg3 harg3 arg4 harg4 arg5 harg5 arg6 harg6 arg7 harg7 arg8 harg8 arg9 harg9 arg10 harg10 arg11 harg11 arg12 harg12 arg13 harg13 hc0 hc1 x0 x1 x2 x3 x4 x5, sout0_A_3 c i arg2 harg2 arg3 harg3 arg4 harg4 arg5 harg5 arg6 harg6 arg7 harg7 arg8 harg8 arg9 harg9 arg10 harg10 arg11 harg11 arg12 harg12 arg13 harg13 hc0 hc1 x0 x1 x2 x3 x4 x5, sout0_A_4 c i arg2 harg2 arg3 harg3 arg4 harg4 arg5 harg5 arg6 harg6 arg7 harg7 arg8 harg8 arg9 harg9 arg10 harg10 arg11 harg11 arg12 harg12 arg13 harg13 hc0 hc1 x0 x1 x2 x3 x4 x5)) :
    o.2.1 = k0_pay2 (k0_pay11 (k0_pay7 x0) (k0_pay8 x0) x1 x2 (k0_pay4 (F := F)))
    ∧ o.2.2.1 = k0_pay14 (k0_pay7 x0) (k0_pay8 x0) x1 x2 (k0_pay4 (F := F)) (k0_pay5 (F := F))
    ∧ o.2.2.2.1 = k0_pay1 (k0_pay9 x1) (k0_pay12 (k0_pay7 x0) (k0_pay8 x0) x1 x2 (k0_pay4 (F := F))) (k0_pay13 (k0_pay7 x0) (k0_pay8 x0) x1 x2 (k0_pay4 (F := F))) (k0_pay6 (F := F))
    ∧ o.2.2.2.2.1 = k0_pay7 x0
    ∧ o.2.2.2.2.2 = k0_pay8 x0 := by
  subst e
  dsimp only
  exact ⟨Pieces.sout0_A_0_eq c i arg2 harg2 arg3 harg3 arg4 harg4 arg5 harg5 arg6 harg6 arg7 harg7 arg8 harg8 arg9 harg9 arg10 harg10 arg11 harg11 arg12 harg12 arg13 harg13 hc0 hc1 x0 x1 x2 x3 x4 x5, Pieces.sout0_A_1_eq c i arg2 harg2 arg3 harg3 arg4 harg4 arg5 harg5 arg6 harg6 arg7 harg7 arg8 harg8 arg9 harg9 arg10 harg10 arg11 harg11 arg12 harg12 arg13 harg13 hc0 hc1 x0 x1 x2 x3 x4 x5, Pieces.sout0_A_2_eq c i arg2 harg2 arg3 harg3 arg4 harg4 arg5 harg5 arg6 harg6 arg7 harg7 arg8 harg8 arg9 harg9 arg10 harg10 arg11 harg11 arg12 harg12 arg13 harg13 hc0 hc1 x0 x1 x2 x3 x4 x5, Pieces.sout0_A_3_eq c i arg2 harg2 arg3 harg3 arg4 harg4 arg5 harg5 arg6 harg6 arg7 harg7 arg8 harg8 arg9 harg9 arg10 harg10 arg11 harg11 arg12 harg12 arg13 harg13 hc0 hc1 x0 x1 x2 x3 x4 x5, Pieces.sout0_A_4_eq c i arg2 harg2 arg3 harg3 arg4 harg4 arg5 harg5 arg6 harg6 arg7 harg7 arg8 harg8 arg9 harg9 arg10 harg10 arg11 harg11 arg12 harg12 arg13 harg13 hc0 hc1 x0 x1 x2 x3 x4 x5⟩

/-- The five carried buffers after a later point that is not the last of its row tile: the three running quantities
    carried on from what the point before left, the other two buffers kept. -/
private theorem p_later_B {o : Vec F S512x1024 .f32 × Vec F S512x1 .f32 × Vec F S512x1 .f32 × Vec F S512x1024 .f32 × Vec F S512x1024 .bf16 × Vec F S512x1024 .bf16}
    {c : Dev nD} {i : grid0.Coords} {arg2 : Memref sig .tc .vmem S512x1024 .f32} {harg2 : arg2.IsWhole} {arg3 : Memref sig .tc .vmem S1024x1024 .bf16} {harg3 : arg3.IsWhole} {arg4 : Memref sig .tc .vmem S1x1024 .f32} {harg4 : arg4.IsWhole} {arg5 : Memref sig .tc .vmem S1024x1024 .bf16} {harg5 : arg5.IsWhole} {arg6 : Memref sig .tc .vmem S1x1024 .f32} {harg6 : arg6.IsWhole} {arg7 : Memref sig .tc .vmem S1x1024 .f32} {harg7 : arg7.IsWhole} {arg8 : Memref sig .tc .vmem S512x1024 .f32} {harg8 : arg8.IsWhole} {arg9 : Memref sig .tc .vmem S512x1 .f32} {harg9 : arg9.IsWhole} {arg10 : Memref sig .tc .vmem S512x1 .f32} {harg10 : arg10.IsWhole} {arg11 : Memref sig .tc .vmem S512x1024 .f32} {harg11 : arg11.IsWhole} {arg12 : Memref sig .tc .vmem S512x1024 .bf16} {harg12 : arg12.IsWhole} {arg13 : Memref sig .tc .vmem S512x1024 .bf16} {harg13 : arg13.IsWhole} {hc0 : ¬cond0_0 i} {hc1 : ¬cond0_1 i} {x0 : Vec F S512x1024 .f32} {x1 : Vec F S1024x1024 .bf16} {x2 : Vec F S1x1024 .f32} {x3 : Vec F S1024x1024 .bf16} {x4 : Vec F S1x1024 .f32} {x5 : Vec F S1x1024 .f32} {xs0 : Vec F S512x1 .f32} {xs1 : Vec F S512x1 .f32} {xs2 : Vec F S512x1024 .f32} {xs3 : Vec F S512x1024 .bf16} {xs4 : Vec F S512x1024 .bf16}
    (e : o = (out0_B_6 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 xs0 xs1 xs2 xs3 xs4, sout0_B_0 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 xs0 xs1 xs2 xs3 xs4, sout0_B_1 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 xs0 xs1 xs2 xs3 xs4, sout0_B_2 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 xs0 xs1 xs2 xs3 xs4, sout0_B_3 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 xs0 xs1 xs2 xs3 xs4, sout0_B_4 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 xs0 xs1 xs2 xs3 xs4)) :
    o.2.1 = k0_pay2 (k0_pay11 xs3 xs4 x1 x2 xs0)
    ∧ o.2.2.1 = k0_pay14 xs3 xs4 x1 x2 xs0 xs1
    ∧ o.2.2.2.1 = k0_pay1 (k0_pay9 x1) (k0_pay12 xs3 xs4 x1 x2 xs0) (k0_pay13 xs3 xs4 x1 x2 xs0) xs2
    ∧ o.2.2.2.2.1 = xs3
    ∧ o.2.2.2.2.2 = xs4 := by
  subst e
  dsimp only
  exact ⟨Pieces.sout0_B_0_eq c i arg2 harg2 arg3 harg3 arg4 harg4 arg5 harg5 arg6 harg6 arg7 harg7 arg8 harg8 arg9 harg9 arg10 harg10 arg11 harg11 arg12 harg12 arg13 harg13 hc0 hc1 x0 x1 x2 x3 x4 x5 xs0 xs1 xs2 xs3 xs4, Pieces.sout0_B_1_eq c i arg2 harg2 arg3 harg3 arg4 harg4 arg5 harg5 arg6 harg6 arg7 harg7 arg8 harg8 arg9 harg9 arg10 harg10 arg11 harg11 arg12 harg12 arg13 harg13 hc0 hc1 x0 x1 x2 x3 x4 x5 xs0 xs1 xs2 xs3 xs4, Pieces.sout0_B_2_eq c i arg2 harg2 arg3 harg3 arg4 harg4 arg5 harg5 arg6 harg6 arg7 harg7 arg8 harg8 arg9 harg9 arg10 harg10 arg11 harg11 arg12 harg12 arg13 harg13 hc0 hc1 x0 x1 x2 x3 x4 x5 xs0 xs1 xs2 xs3 xs4, rfl, rfl⟩

/-- The same at the last point of a row tile, where the output block is also stored: the body's final expression of
    the two sums just updated. -/
private theorem p_later_C {o : Vec F S512x1024 .f32 × Vec F S512x1 .f32 × Vec F S512x1 .f32 × Vec F S512x1024 .f32 × Vec F S512x1024 .bf16 × Vec F S512x1024 .bf16}
    {c : Dev nD} {i : grid0.Coords} {arg2 : Memref sig .tc .vmem S512x1024 .f32} {harg2 : arg2.IsWhole} {arg3 : Memref sig .tc .vmem S1024x1024 .bf16} {harg3 : arg3.IsWhole} {arg4 : Memref sig .tc .vmem S1x1024 .f32} {harg4 : arg4.IsWhole} {arg5 : Memref sig .tc .vmem S1024x1024 .bf16} {harg5 : arg5.IsWhole} {arg6 : Memref sig .tc .vmem S1x1024 .f32} {harg6 : arg6.IsWhole} {arg7 : Memref sig .tc .vmem S1x1024 .f32} {harg7 : arg7.IsWhole} {arg8 : Memref sig .tc .vmem S512x1024 .f32} {harg8 : arg8.IsWhole} {arg9 : Memref sig .tc .vmem S512x1 .f32} {harg9 : arg9.IsWhole} {arg10 : Memref sig .tc .vmem S512x1 .f32} {harg10 : arg10.IsWhole} {arg11 : Memref sig .tc .vmem S512x1024 .f32} {harg11 : arg11.IsWhole} {arg12 : Memref sig .tc .vmem S512x1024 .bf16} {harg12 : arg12.IsWhole} {arg13 : Memref sig .tc .vmem S512x1024 .bf16} {harg13 : arg13.IsWhole} {hc0 : ¬cond0_0 i} {hc1 : cond0_1 i} {x0 : Vec F S512x1024 .f32} {x1 : Vec F S1024x1024 .bf16} {x2 : Vec F S1x1024 .f32} {x3 : Vec F S1024x1024 .bf16} {x4 : Vec F S1x1024 .f32} {x5 : Vec F S1x1024 .f32} {xs0 : Vec F S512x1 .f32} {xs1 : Vec F S512x1 .f32} {xs2 : Vec F S512x1024 .f32} {xs3 : Vec F S512x1024 .bf16} {xs4 : Vec F S512x1024 .bf16}
    (e : o = (out0_C_6 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 xs0 xs1 xs2 xs3 xs4, sout0_C_0 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 xs0 xs1 xs2 xs3 xs4, sout0_C_1 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 xs0 xs1 xs2 xs3 xs4, sout0_C_2 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 xs0 xs1 xs2 xs3 xs4, sout0_C_3 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 xs0 xs1 xs2 xs3 xs4, sout0_C_4 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 xs0 xs1 xs2 xs3 xs4)) :
    o.2.1 = k0_pay2 (k0_pay11 xs3 xs4 x1 x2 xs0)
    ∧ o.2.2.1 = k0_pay14 xs3 xs4 x1 x2 xs0 xs1
    ∧ o.2.2.2.1 = k0_pay1 (k0_pay9 x1) (k0_pay12 xs3 xs4 x1 x2 xs0) (k0_pay13 xs3 xs4 x1 x2 xs0) xs2
    ∧ o.2.2.2.2.1 = xs3
    ∧ o.2.2.2.2.2 = xs4
    ∧ o.1 = k0_pay3 o.2.2.2.1 o.2.2.1 x0 x5 x3 x4 := by
  subst e
  dsimp only
  exact ⟨Pieces.sout0_C_0_eq c i arg2 harg2 arg3 harg3 arg4 harg4 arg5 harg5 arg6 harg6 arg7 harg7 arg8 harg8 arg9 harg9 arg10 harg10 arg11 harg11 arg12 harg12 arg13 harg13 hc0 hc1 x0 x1 x2 x3 x4 x5 xs0 xs1 xs2 xs3 xs4, Pieces.sout0_C_1_eq c i arg2 harg2 arg3 harg3 arg4 harg4 arg5 harg5 arg6 harg6 arg7 harg7 arg8 harg8 arg9 harg9 arg10 harg10 arg11 harg11 arg12 harg12 arg13 harg13 hc0 hc1 x0 x1 x2 x3 x4 x5 xs0 xs1 xs2 xs3 xs4, Pieces.sout0_C_2_eq c i arg2 harg2 arg3 harg3 arg4 harg4 arg5 harg5 arg6 harg6 arg7 harg7 arg8 harg8 arg9 harg9 arg10 harg10 arg11 harg11 arg12 harg12 arg13 harg13 hc0 hc1 x0 x1 x2 x3 x4 x5 xs0 xs1 xs2 xs3 xs4, rfl, rfl,
    (Pieces.out0_C_6_eq c i arg2 harg2 arg3 harg3 arg4 harg4 arg5 harg5 arg6 harg6 arg7 harg7 arg8 harg8 arg9 harg9 arg10 harg10 arg11 harg11 arg12 harg12 arg13 harg13 hc0 hc1 x0 x1 x2 x3 x4 x5 xs0 xs1 xs2 xs3 xs4).trans (congrArg₂ (fun a b => k0_pay3 a b x0 x5 x3 x4) (Pieces.sout0_C_2_eq c i arg2 harg2 arg3 harg3 arg4 harg4 arg5 harg5 arg6 harg6 arg7 harg7 arg8 harg8 arg9 harg9 arg10 harg10 arg11 harg11 arg12 harg12 arg13 harg13 hc0 hc1 x0 x1 x2 x3 x4 x5 xs0 xs1 xs2 xs3 xs4).symm (Pieces.sout0_C_1_eq c i arg2 harg2 arg3 harg3 arg4 harg4 arg5 harg5 arg6 harg6 arg7 harg7 arg8 harg8 arg9 harg9 arg10 harg10 arg11 harg11 arg12 harg12 arg13 harg13 hc0 hc1 x0 x1 x2 x3 x4 x5 xs0 xs1 xs2 xs3 xs4).symm)⟩

/-- A point that starts a row tile: the running maximum, sum and weighted sum start from `-∞, 0, 0`. -/
theorem first_tile (n : ℕ) (hn : n < cfg0.N) (h0 : n % 8 = 0) :
    (outsAt0 m c n hn).2.1 = k0_pay2 (k0_pay11 (k0_pay7 (iblk m c 0 ⟨n, hn⟩)) (k0_pay8 (iblk m c 0 ⟨n, hn⟩)) (iblk m c 1 ⟨n, hn⟩) (iblk m c 2 ⟨n, hn⟩) (k0_pay4 (F := F)))
    ∧ (outsAt0 m c n hn).2.2.1 = k0_pay14 (k0_pay7 (iblk m c 0 ⟨n, hn⟩)) (k0_pay8 (iblk m c 0 ⟨n, hn⟩)) (iblk m c 1 ⟨n, hn⟩) (iblk m c 2 ⟨n, hn⟩) (k0_pay4 (F := F)) (k0_pay5 (F := F))
    ∧ (outsAt0 m c n hn).2.2.2.1 = k0_pay1 (k0_pay9 (iblk m c 1 ⟨n, hn⟩)) (k0_pay12 (k0_pay7 (iblk m c 0 ⟨n, hn⟩)) (k0_pay8 (iblk m c 0 ⟨n, hn⟩)) (iblk m c 1 ⟨n, hn⟩) (iblk m c 2 ⟨n, hn⟩) (k0_pay4 (F := F))) (k0_pay13 (k0_pay7 (iblk m c 0 ⟨n, hn⟩)) (k0_pay8 (iblk m c 0 ⟨n, hn⟩)) (iblk m c 1 ⟨n, hn⟩) (iblk m c 2 ⟨n, hn⟩) (k0_pay4 (F := F))) (k0_pay6 (F := F))
    ∧ (outsAt0 m c n hn).2.2.2.2.1 = k0_pay7 (iblk m c 0 ⟨n, hn⟩)
    ∧ (outsAt0 m c n hn).2.2.2.2.2 = k0_pay8 (iblk m c 0 ⟨n, hn⟩) := by
  have hN : n < 128 := lt_of_lt_of_eq hn (show cfg0.N = 128 from N_0)
  have h1 : ¬n % 8 = 7 := by omega
  exact p_first (outsAt0_A m c ⟨n, hn⟩ h0 h1)

/-- Any other point carries the three running quantities on from the point before and keeps the other two buffers. -/
theorem later_tile (n : ℕ) (hn : n < cfg0.N) (h0 : ¬n % 8 = 0) :
    (outsAt0 m c n hn).2.1 = k0_pay2 (k0_pay11 (outsAt0 m c (n - 1) (Nat.lt_of_le_of_lt (Nat.sub_le _ _) hn)).2.2.2.2.1 (outsAt0 m c (n - 1) (Nat.lt_of_le_of_lt (Nat.sub_le _ _) hn)).2.2.2.2.2 (iblk m c 1 ⟨n, hn⟩) (iblk m c 2 ⟨n, hn⟩) (outsAt0 m c (n - 1) (Nat.lt_of_le_of_lt (Nat.sub_le _ _) hn)).2.1)
    ∧ (outsAt0 m c n hn).2.2.1 = k0_pay14 (outsAt0 m c (n - 1) (Nat.lt_of_le_of_lt (Nat.sub_le _ _) hn)).2.2.2.2.1 (outsAt0 m c (n - 1) (Nat.lt_of_le_of_lt (Nat.sub_le _ _) hn)).2.2.2.2.2 (iblk m c 1 ⟨n, hn⟩) (iblk m c 2 ⟨n, hn⟩) (outsAt0 m c (n - 1) (Nat.lt_of_le_of_lt (Nat.sub_le _ _) hn)).2.1 (outsAt0 m c (n - 1) (Nat.lt_of_le_of_lt (Nat.sub_le _ _) hn)).2.2.1
    ∧ (outsAt0 m c n hn).2.2.2.1 = k0_pay1 (k0_pay9 (iblk m c 1 ⟨n, hn⟩)) (k0_pay12 (outsAt0 m c (n - 1) (Nat.lt_of_le_of_lt (Nat.sub_le _ _) hn)).2.2.2.2.1 (outsAt0 m c (n - 1) (Nat.lt_of_le_of_lt (Nat.sub_le _ _) hn)).2.2.2.2.2 (iblk m c 1 ⟨n, hn⟩) (iblk m c 2 ⟨n, hn⟩) (outsAt0 m c (n - 1) (Nat.lt_of_le_of_lt (Nat.sub_le _ _) hn)).2.1) (k0_pay13 (outsAt0 m c (n - 1) (Nat.lt_of_le_of_lt (Nat.sub_le _ _) hn)).2.2.2.2.1 (outsAt0 m c (n - 1) (Nat.lt_of_le_of_lt (Nat.sub_le _ _) hn)).2.2.2.2.2 (iblk m c 1 ⟨n, hn⟩) (iblk m c 2 ⟨n, hn⟩) (outsAt0 m c (n - 1) (Nat.lt_of_le_of_lt (Nat.sub_le _ _) hn)).2.1) (outsAt0 m c (n - 1) (Nat.lt_of_le_of_lt (Nat.sub_le _ _) hn)).2.2.2.1
    ∧ (outsAt0 m c n hn).2.2.2.2.1 = (outsAt0 m c (n - 1) (Nat.lt_of_le_of_lt (Nat.sub_le _ _) hn)).2.2.2.2.1
    ∧ (outsAt0 m c n hn).2.2.2.2.2 = (outsAt0 m c (n - 1) (Nat.lt_of_le_of_lt (Nat.sub_le _ _) hn)).2.2.2.2.2 := by
  by_cases h1 : n % 8 = 7
  · have p := p_later_C (outsAt0_C m c ⟨n, hn⟩ h0 h1)
    exact ⟨p.1, p.2.1, p.2.2.1, p.2.2.2.1, p.2.2.2.2.1⟩
  · exact p_later_B (outsAt0_B m c ⟨n, hn⟩ h0 h1)

/-- At the last codebook tile the output block is the body's final expression of the two sums just updated. -/
theorem last_tile_out (n : ℕ) (hn : n < cfg0.N) (h1 : n % 8 = 7) :
    (outsAt0 m c n hn).1 = k0_pay3 (outsAt0 m c n hn).2.2.2.1 (outsAt0 m c n hn).2.2.1 (iblk m c 0 ⟨n, hn⟩) (iblk m c 5 ⟨n, hn⟩) (iblk m c 3 ⟨n, hn⟩) (iblk m c 4 ⟨n, hn⟩) := by
  have h0 : ¬n % 8 = 0 := by omega
  exact (p_later_C (outsAt0_C m c ⟨n, hn⟩ h0 h1)).2.2.2.2.2

end Cert.KernelIdeal.Steps

end
-- ==== Proof.PayloadSem.lean ====
/-
  The kernel's running softmax, one codebook tile at a time, on real data: the first tile starts the three running
  quantities of a row from `-∞, 0, 0` (`good_first`) and a later tile carries them on (`good_step`); throughout, for one
  real reference point `m` per row, they are `m`, `∑ e^{score − m}` and `∑ e^{score − m} · C` over the tiles seen.
-/
import proofs.«109600_j80247168959070_2_alg».proof.Proof.Gen.KernelIdeal.Skeleton
import proofs.«109600_j80247168959070_2_alg».proof.Proof.Spec
import proofs.«109600_j80247168959070_2_alg».proof.Proof.RealMath
import proofs.«109600_j80247168959070_2_alg».proof.Proof.SemDefs
import Idealize.ShloMosaic.Lib.ValueLayout
import Idealize.ShloMosaic.PureOps.Ideal.Laws

noncomputable section

namespace Cert.VQ

open Idealize.ShloMosaic Idealize.ShloMosaic.ValueIdx Cert.KernelIdeal Cert.KernelIdeal.Gen

/-! ## Layout operations of the column forms read at an index -/

/-- A `[a]` array cast to `[a, 1]` reads, at `(i, u)`, the operand at `i`, whatever the unit coordinate `u`. -/
private theorem k_shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(p, c)`, the operand's one column at `p`. -/
private theorem k_broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The source index of a row reduction of a `[512, 1024]` array over result index `p` with coordinate `k` on the
    dropped axis is `(p, k)`. -/
private theorem k_lift_eq (p : Fin 512) (k : Fin 1024) :
    reduces_S512x1024_S512.lift (ix1 p) k = ix2 p k := by
  funext c
  refine Fin.ext ?_
  match c with
  | ⟨0, _⟩ => rfl
  | ⟨1, _⟩ => rfl

/-! ## The matrix product accumulated onto zero, read at an index -/

private theorem k_lhs_0 (j : S512x1024.Idx) (q : dot_S512x1024_S1024x1024_S512x1024_1_0_0_1_n_n.contr.Idx) :
    (dot_S512x1024_S1024x1024_S512x1024_1_0_0_1_n_n.lhsIdx j q 0).val = (j 0).val := by
  unfold DotDims.lhsIdx
  rw [dif_neg (show ¬(0 : Fin S512x1024.rank) ∈ dot_S512x1024_S1024x1024_S512x1024_1_0_0_1_n_n.lhsBatch by decide),
    dif_pos (show (0 : Fin S512x1024.rank) ∈ dot_S512x1024_S1024x1024_S512x1024_1_0_0_1_n_n.lhsNonContracting by decide)]
  rfl
private theorem k_lhs_1 (j : S512x1024.Idx) (q : dot_S512x1024_S1024x1024_S512x1024_1_0_0_1_n_n.contr.Idx) :
    (dot_S512x1024_S1024x1024_S512x1024_1_0_0_1_n_n.lhsIdx j q 1).val = (q ⟨0, by decide⟩).val :=
  dot_S512x1024_S1024x1024_S512x1024_1_0_0_1_n_n.lhsIdx_val_of_single rfl j q
private theorem k_rhs_0 (j : S512x1024.Idx) (q : dot_S512x1024_S1024x1024_S512x1024_1_0_0_1_n_n.contr.Idx) :
    (dot_S512x1024_S1024x1024_S512x1024_1_0_0_1_n_n.rhsIdx j q 0).val = (q ⟨0, by decide⟩).val :=
  dot_S512x1024_S1024x1024_S512x1024_1_0_0_1_n_n.rhsIdx_val_of_single rfl j q
private theorem k_rhs_1 (j : S512x1024.Idx) (q : dot_S512x1024_S1024x1024_S512x1024_1_0_0_1_n_n.contr.Idx) :
    (dot_S512x1024_S1024x1024_S512x1024_1_0_0_1_n_n.rhsIdx j q 1).val = (j 1).val := by
  unfold DotDims.rhsIdx
  rw [dif_neg (show ¬(1 : Fin S1024x1024.rank) ∈ dot_S512x1024_S1024x1024_S512x1024_1_0_0_1_n_n.rhsBatch by decide),
    dif_pos (show (1 : Fin S1024x1024.rank) ∈ dot_S512x1024_S1024x1024_S512x1024_1_0_0_1_n_n.rhsNonContracting by decide)]
  rfl

/-- The product of a `[512, 1024]` by a `[1024, 1024]` operand accumulated onto zero, at `(p, q)`: the sum over the
    contracted coordinate `k` of the left operand at `(p, k)` times the right at `(k, q)`. -/
private theorem k_dot_apply {φ₁ φ₂ : FTy} (lhs : FVec Ideal S512x1024 φ₁) (rhs : FVec Ideal S1024x1024 φ₂)
    (p : Fin 512) (q : Fin 1024) :
    matmul dot_S512x1024_S1024x1024_S512x1024_1_0_0_1_n_n none lhs rhs (constant S512x1024 .f32 0x00000000#32) (ix2 p q)
      = ∑ k : Fin 1024, lhs (ix2 p k) * rhs (ix2 k q) := by
  refine (Ideal.matmul_constant_zero_apply _ none lhs rhs (ix2 p q)).trans ?_
  rw [← Equiv.sum_comp (ValueIdx.contrEquiv1 dot_S512x1024_S1024x1024_S512x1024_1_0_0_1_n_n 1024 rfl rfl).symm]
  refine Finset.sum_congr rfl fun k _ => ?_
  have hk := ValueIdx.contrEquiv1_symm_val dot_S512x1024_S1024x1024_S512x1024_1_0_0_1_n_n 1024 rfl rfl k
  have el : dot_S512x1024_S1024x1024_S512x1024_1_0_0_1_n_n.lhsIdx (ix2 p q)
      ((ValueIdx.contrEquiv1 dot_S512x1024_S1024x1024_S512x1024_1_0_0_1_n_n 1024 rfl rfl).symm k) = ix2 p k :=
    funext fun a => Fin.ext (by
      match a with
      | ⟨0, _⟩ => exact k_lhs_0 _ _
      | ⟨1, _⟩ => exact (k_lhs_1 _ _).trans hk)
  have er : dot_S512x1024_S1024x1024_S512x1024_1_0_0_1_n_n.rhsIdx (ix2 p q)
      ((ValueIdx.contrEquiv1 dot_S512x1024_S1024x1024_S512x1024_1_0_0_1_n_n 1024 rfl rfl).symm k) = ix2 k q :=
    funext fun a => Fin.ext (by
      match a with
      | ⟨0, _⟩ => exact (k_rhs_0 _ _).trans hk
      | ⟨1, _⟩ => exact k_rhs_1 _ _)
  rw [el, er]

/-! ## The payloads read at an index, on arbitrary extended-real operands -/

/-- A cast to the same shape changes nothing. -/
private theorem k_pay9_eq (v5 : Vec Ideal S1024x1024 .bf16) : k0_pay9 v5 = v5 := shapeCast_self v5 _
private theorem k_pay2_eq (v : FVec Ideal S512x1 .f32) : k0_pay2 v = v := shapeCast_self v _

/-- The stored copy of the input: a format change is the identity on extended reals. -/
private theorem k_pay7_apply (x0 : Vec Ideal S512x1024 .f32) (i : S512x1024.Idx) :
    (k0_pay7 x0 i : EReal) = x0 i :=
  congrFun (shapeCast_self (truncf (F := Ideal) (φ := .f32) .bf16 x0 bitsLt_bf16_f32) shapeCasts_S512x1024_S512x1024) i

/-- The stored remainder: the input minus itself. -/
private theorem k_pay8_apply (x0 : Vec Ideal S512x1024 .f32) (i : S512x1024.Idx) :
    (k0_pay8 x0 i : EReal) = x0 i - x0 i :=
  congrFun (shapeCast_self (truncf (F := Ideal) (φ := .f32) .bf16 (subf (F := Ideal) (φ := .f32) x0 x0) bitsLt_bf16_f32)
    shapeCasts_S512x1024_S512x1024) i

/-- The score block at `(p, q)`: twice the two inner products with row `q` of the codebook tile, minus its squared norm. -/
private theorem k_pay10_apply (v3 v4 : Vec Ideal S512x1024 .bf16) (v5 : Vec Ideal S1024x1024 .bf16)
    (v7 : Vec Ideal S1x1024 .f32) (p : Fin 512) (q : Fin 1024) :
    (k0_pay10 v3 v4 v5 v7 (ix2 p q) : EReal)
      = Ideal.ofBits .f32 0x40000000#32
          * ((∑ k : Fin 1024, (v3 (ix2 p k) : EReal) * v5 (ix2 q k)) + ∑ k : Fin 1024, (v4 (ix2 p k) : EReal) * v5 (ix2 q k))
        - v7 (ix2 (0 : Fin 1) q) := by
  have hT : ∀ (k : Fin 1024),
      transpose S1024x1024 [1, 0] (k0_pay9 v5) transposes_S1024x1024_p1_0_S1024x1024 (ix2 k q) = v5 (ix2 q k) := fun k => by
    refine (transpose_ix2_apply (k0_pay9 v5) transposes_S1024x1024_p1_0_S1024x1024 k q).trans ?_
    rw [k_pay9_eq]
  have hD : ∀ (v : Vec Ideal S512x1024 .bf16),
      matmul dot_S512x1024_S1024x1024_S512x1024_1_0_0_1_n_n none v
          (transpose S1024x1024 [1, 0] (k0_pay9 v5) transposes_S1024x1024_p1_0_S1024x1024)
          (constant S512x1024 .f32 0x00000000#32) (ix2 p q)
        = ∑ k : Fin 1024, (v (ix2 p k) : EReal) * v5 (ix2 q k) := fun v => by
    refine (k_dot_apply (φ₁ := .bf16) (φ₂ := .bf16) v _ p q).trans ?_
    exact Finset.sum_congr rfl fun k _ => congrArg (fun t : EReal => (v (ix2 p k) : EReal) * t) (hT k)
  have hB : broadcastTo S512x1024 (shapeCast S1x1024 v7 shapeCasts_S1x1024_S1x1024) broadcasts_S1x1024_S512x1024 (ix2 p q)
      = v7 (ix2 (0 : Fin 1) q) := by
    refine (broadcastTo_1b_ab_apply _ broadcasts_S1x1024_S512x1024 p q).trans ?_
    rw [shapeCast_self]
  show (Ideal.ofBits .f32 0x40000000#32
        * (matmul dot_S512x1024_S1024x1024_S512x1024_1_0_0_1_n_n none v3
              (transpose S1024x1024 [1, 0] (k0_pay9 v5) transposes_S1024x1024_p1_0_S1024x1024)
              (constant S512x1024 .f32 0x00000000#32) (ix2 p q)
            + matmul dot_S512x1024_S1024x1024_S512x1024_1_0_0_1_n_n none v4
              (transpose S1024x1024 [1, 0] (k0_pay9 v5) transposes_S1024x1024_p1_0_S1024x1024)
              (constant S512x1024 .f32 0x00000000#32) (ix2 p q))
        - broadcastTo S512x1024 (shapeCast S1x1024 v7 shapeCasts_S1x1024_S1x1024) broadcasts_S1x1024_S512x1024 (ix2 p q) : EReal) = _
  rw [hD v3, hD v4, hB]

/-- The maximum along the rows of a `[512, 1024]` array, kept as a column: the fold of `max` from `-∞` over the row. -/
private theorem k_rowmax_apply (src : FVec Ideal S512x1024 .f32) (hφ : FKind.Formats .f32)
    (hacc : (0xFF800000#32 : BitVec 32) = FKind.maximumf.neutral .f32 hφ) (p : Fin 512) (u : Fin 1) :
    shapeCast S512x1 (multiReduction .maximumf [1] S512 src 0xFF800000#32 reduces_S512x1024_S512 hφ hacc)
        shapeCasts_S512_S512x1 (ix2 p u)
      = (Finset.univ : Finset (Fin 1024)).fold max (Ideal.ofBits .f32 0xFF800000#32) (fun k => src (ix2 p k)) := by
  refine (k_shapeCast_a_a1_apply _ shapeCasts_S512_S512x1 p u).trans ?_
  refine (Ideal.multiReduction_maximumf_single src _ reduces_S512x1024_S512 hφ hacc (ix1 p)).trans ?_
  refine congrArg (fun f : Fin 1024 → EReal => (Finset.univ : Finset (Fin 1024)).fold max (Ideal.ofBits .f32 0xFF800000#32) f) ?_
  funext k
  exact congrArg src (k_lift_eq p k)

/-- The sum along the rows of a `[512, 1024]` array, kept as a column. -/
private theorem k_rowsum_apply (src : FVec Ideal S512x1024 .f32) (hφ : FKind.Formats .f32)
    (hacc : (0x00000000#32 : BitVec 32) = FKind.add.neutral .f32 hφ) (p : Fin 512) (u : Fin 1) :
    shapeCast S512x1 (multiReduction .add [1] S512 src 0x00000000#32 reduces_S512x1024_S512 hφ hacc)
        shapeCasts_S512_S512x1 (ix2 p u)
      = ∑ k : Fin 1024, src (ix2 p k) := by
  refine (k_shapeCast_a_a1_apply _ shapeCasts_S512_S512x1 p u).trans ?_
  refine (Ideal.multiReduction_add_single src _ reduces_S512x1024_S512 hφ hacc (ix1 p)).trans ?_
  exact Finset.sum_congr rfl fun k _ => congrArg src (k_lift_eq p k)

/-- The new running maximum of row `p`: the larger of the old one and the row's largest score. -/
private theorem k_pay11_apply (v3 v4 : Vec Ideal S512x1024 .bf16) (v5 : Vec Ideal S1024x1024 .bf16)
    (v7 : Vec Ideal S1x1024 .f32) (v18 : Vec Ideal S512x1 .f32) (p : Fin 512) (u : Fin 1) :
    (k0_pay11 v3 v4 v5 v7 v18 (ix2 p u) : EReal)
      = max (v18 (ix2 p u))
          ((Finset.univ : Finset (Fin 1024)).fold max (Ideal.ofBits .f32 0xFF800000#32)
            (fun k => k0_pay10 v3 v4 v5 v7 (ix2 p k))) :=
  congrArg (max (v18 (ix2 p u) : EReal)) (k_rowmax_apply (k0_pay10 v3 v4 v5 v7) _ _ p u)

/-- The factor by which the old sums are rescaled: `e^{old maximum − new maximum}`. -/
private theorem k_pay12_apply (v3 v4 : Vec Ideal S512x1024 .bf16) (v5 : Vec Ideal S1024x1024 .bf16)
    (v7 : Vec Ideal S1x1024 .f32) (v18 : Vec Ideal S512x1 .f32) (i : S512x1.Idx) :
    (k0_pay12 v3 v4 v5 v7 v18 i : EReal) = Ideal.exp (v18 i - k0_pay11 v3 v4 v5 v7 v18 i) := rfl

/-- The tile's weights: `e^{score − new maximum}`. -/
private theorem k_pay13_apply (v3 v4 : Vec Ideal S512x1024 .bf16) (v5 : Vec Ideal S1024x1024 .bf16)
    (v7 : Vec Ideal S1x1024 .f32) (v18 : Vec Ideal S512x1 .f32) (p : Fin 512) (q : Fin 1024) :
    (k0_pay13 v3 v4 v5 v7 v18 (ix2 p q) : EReal)
      = Ideal.exp (k0_pay10 v3 v4 v5 v7 (ix2 p q) - k0_pay11 v3 v4 v5 v7 v18 (ix2 p (0 : Fin 1))) :=
  congrArg (fun t : EReal => Ideal.exp ((k0_pay10 v3 v4 v5 v7 (ix2 p q) : EReal) - t))
    (k_broadcastTo_a1_ab_apply (k0_pay11 v3 v4 v5 v7 v18) broadcasts_S512x1_S512x1024 p q)

/-- The new running sum of weights: the old one rescaled, plus the tile's weights. -/
private theorem k_pay14_apply (v3 v4 : Vec Ideal S512x1024 .bf16) (v5 : Vec Ideal S1024x1024 .bf16)
    (v7 : Vec Ideal S1x1024 .f32) (v18 v27 : Vec Ideal S512x1 .f32) (p : Fin 512) (u : Fin 1) :
    (k0_pay14 v3 v4 v5 v7 v18 v27 (ix2 p u) : EReal)
      = k0_pay12 v3 v4 v5 v7 v18 (ix2 p u) * v27 (ix2 p u) + ∑ k : Fin 1024, (k0_pay13 v3 v4 v5 v7 v18 (ix2 p k) : EReal) := by
  unfold k0_pay14
  refine (congrFun (shapeCast_self _ shapeCasts_S512x1_S512x1) (ix2 p u)).trans ?_
  exact congrArg (fun t : EReal => (k0_pay12 v3 v4 v5 v7 v18 (ix2 p u) : EReal) * v27 (ix2 p u) + t)
    (k_rowsum_apply (k0_pay13 v3 v4 v5 v7 v18) _ _ p u)

/-- The new running weighted sum of codebook rows: the old one rescaled, plus the tile's weights times its rows. -/
private theorem k_pay1_apply (v6 : FVec Ideal S1024x1024 .bf16) (v23 : FVec Ideal S512x1 .f32)
    (v26 : FVec Ideal S512x1024 .f32) (v36 : Vec Ideal S512x1024 .f32) (p : Fin 512) (d : Fin 1024) :
    (k0_pay1 v6 v23 v26 v36 (ix2 p d) : EReal)
      = v23 (ix2 p (0 : Fin 1)) * v36 (ix2 p d) + ∑ k : Fin 1024, (v26 (ix2 p k) : EReal) * v6 (ix2 k d) := by
  unfold k0_pay1
  refine (congrFun (shapeCast_self _ shapeCasts_S512x1024_S512x1024) (ix2 p d)).trans ?_
  exact congrArg₂ (fun a b : EReal => a * v36 (ix2 p d) + b)
    (k_broadcastTo_a1_ab_apply v23 broadcasts_S512x1_S512x1024 p d)
    (k_dot_apply (φ₁ := .bf16) (φ₂ := .bf16) (truncf (F := Ideal) (φ := .f32) .bf16 v26 bitsLt_bf16_f32) v6 p d)

/-- The three starting values: `-∞`, zero and zero. -/
private theorem k_pay4_apply (i : S512x1.Idx) : (k0_pay4 (F := Ideal) i : EReal) = ⊥ := by
  unfold k0_pay4
  refine (congrFun (shapeCast_self _ shapeCasts_S512x1_S512x1) i).trans ?_
  exact lit_neg_inf
private theorem k_pay5_apply (i : S512x1.Idx) : (k0_pay5 (F := Ideal) i : EReal) = ((0 : ℝ) : EReal) := by
  unfold k0_pay5
  refine (congrFun (shapeCast_self _ shapeCasts_S512x1_S512x1) i).trans ?_
  exact lit_zero
private theorem k_pay6_apply (i : S512x1024.Idx) : (k0_pay6 (F := Ideal) i : EReal) = ((0 : ℝ) : EReal) := by
  unfold k0_pay6
  refine (congrFun (shapeCast_self _ shapeCasts_S512x1024_S512x1024) i).trans ?_
  exact lit_zero

/-! ## One row of one codebook tile, on real data -/

/-- On real data the score block holds the scores of row `p` against the codebook rows of tile `k`: the remainder
    operand is zero, so its inner products vanish. -/
private theorem k_score (H C : Fin 8192 → Fin 1024 → ℝ) (i : Fin 16) (k : Fin 8)
    (v3 v4 : Vec Ideal S512x1024 .bf16) (v5 : Vec Ideal S1024x1024 .bf16) (v7 : Vec Ideal S1x1024 .f32) (p : Fin 512)
    (h3 : ∀ d : Fin 1024, (v3 (ix2 p d) : EReal) = ((H (row i p) d : ℝ) : EReal))
    (h4 : ∀ d : Fin 1024, (v4 (ix2 p d) : EReal) = 0)
    (h5 : IsC C k v5) (h7 : IsCsq C k v7) (q : Fin 1024) :
    (k0_pay10 v3 v4 v5 v7 (ix2 p q) : EReal) = ((score H C (row i p) (crow k q) : ℝ) : EReal) := by
  have e1 : ∑ d : Fin 1024, (v3 (ix2 p d) : EReal) * v5 (ix2 q d)
      = ((∑ d : Fin 1024, H (row i p) d * C (crow k q) d : ℝ) : EReal) := by
    rw [← coe_sum]
    exact Finset.sum_congr rfl fun d _ => by rw [h3 d, h5 q d, EReal.coe_mul]
  have e2 : ∑ d : Fin 1024, (v4 (ix2 p d) : EReal) * v5 (ix2 q d) = 0 :=
    Finset.sum_eq_zero fun d _ => by rw [h4 d, zero_mul]
  rw [k_pay10_apply, lit_two, h7 q, e1, e2, add_zero, ← EReal.coe_mul, ← EReal.coe_sub]
  rfl

/-- The largest of a row's 1024 real scores, folded from `-∞`, is a real number. -/
private theorem k_fold_real (s : Fin 1024 → ℝ) (f : Fin 1024 → EReal) (hf : ∀ q, f q = ((s q : ℝ) : EReal)) :
    ∃ x : ℝ, (Finset.univ : Finset (Fin 1024)).fold max (Ideal.ofBits .f32 0xFF800000#32) f = ((x : ℝ) : EReal) := by
  obtain ⟨x, hx⟩ := fold_max_coe 1024 (by norm_num) s
  refine ⟨x, ?_⟩
  rw [lit_neg_inf, show f = fun q => ((s q : ℝ) : EReal) from funext hf]
  exact hx

/-- One row's new sums, once its new reference point `m'` and rescaling factor `a` are known to be real: the old sums
    `l` and `acc` are multiplied by `a`, and the tile adds `∑ e^{s − m'}` and `∑ e^{s − m'} · c`. -/
private theorem k_row (v3 v4 : Vec Ideal S512x1024 .bf16) (v5 : Vec Ideal S1024x1024 .bf16) (v7 : Vec Ideal S1x1024 .f32)
    (v18 v27 : Vec Ideal S512x1 .f32) (v36 : Vec Ideal S512x1024 .f32) (p : Fin 512)
    (s : Fin 1024 → ℝ) (c : Fin 1024 → Fin 1024 → ℝ) (m' a l : ℝ) (acc : Fin 1024 → ℝ)
    (hs : ∀ q, (k0_pay10 v3 v4 v5 v7 (ix2 p q) : EReal) = ((s q : ℝ) : EReal))
    (hc : ∀ q d, (v5 (ix2 q d) : EReal) = ((c q d : ℝ) : EReal))
    (h11 : (k0_pay11 v3 v4 v5 v7 v18 (ix2 p (0 : Fin 1)) : EReal) = ((m' : ℝ) : EReal))
    (h12 : (k0_pay12 v3 v4 v5 v7 v18 (ix2 p (0 : Fin 1)) : EReal) = ((a : ℝ) : EReal))
    (h27 : (v27 (ix2 p (0 : Fin 1)) : EReal) = ((l : ℝ) : EReal))
    (h36 : ∀ d, (v36 (ix2 p d) : EReal) = ((acc d : ℝ) : EReal)) :
    (k0_pay14 v3 v4 v5 v7 v18 v27 (ix2 p (0 : Fin 1)) : EReal)
        = ((a * l + ∑ q, Real.exp (s q - m') : ℝ) : EReal)
    ∧ ∀ d, (k0_pay1 (k0_pay9 v5) (k0_pay12 v3 v4 v5 v7 v18) (k0_pay13 v3 v4 v5 v7 v18) v36 (ix2 p d) : EReal)
        = ((a * acc d + ∑ q, Real.exp (s q - m') * c q d : ℝ) : EReal) := by
  have h13 : ∀ q, (k0_pay13 v3 v4 v5 v7 v18 (ix2 p q) : EReal) = ((Real.exp (s q - m') : ℝ) : EReal) := fun q => by
    rw [k_pay13_apply, hs q, h11, ← EReal.coe_sub, Ideal.exp_coe]
  constructor
  · have e : ∑ q : Fin 1024, (k0_pay13 v3 v4 v5 v7 v18 (ix2 p q) : EReal)
        = ((∑ q, Real.exp (s q - m') : ℝ) : EReal) := by
      rw [← coe_sum]
      exact Finset.sum_congr rfl fun q _ => h13 q
    rw [k_pay14_apply, h12, h27, e, ← EReal.coe_mul, ← EReal.coe_add]
  · intro d
    have e : ∑ q : Fin 1024, (k0_pay13 v3 v4 v5 v7 v18 (ix2 p q) : EReal) * k0_pay9 v5 (ix2 q d)
        = ((∑ q, Real.exp (s q - m') * c q d : ℝ) : EReal) := by
      rw [← coe_sum]
      exact Finset.sum_congr rfl fun q _ => by rw [h13 q, k_pay9_eq, hc q d, EReal.coe_mul]
    rw [k_pay1_apply, h12, h36 d, e, ← EReal.coe_mul, ← EReal.coe_add]

/-- The first codebook tile: the running maximum starts at `-∞`, the two sums at zero. -/
theorem good_first (H C : Fin 8192 → Fin 1024 → ℝ) (i : Fin 16)
    (x0 : Vec Ideal S512x1024 .f32) (x1 : Vec Ideal S1024x1024 .bf16) (x2 : Vec Ideal S1x1024 .f32)
    (h0 : IsH H i x0) (h1 : IsC C 0 x1) (h2 : IsCsq C 0 x2) :
    Good H C i 1
      (k0_pay2 (k0_pay11 (k0_pay7 x0) (k0_pay8 x0) x1 x2 (k0_pay4 (F := Ideal))))
      (k0_pay14 (k0_pay7 x0) (k0_pay8 x0) x1 x2 (k0_pay4 (F := Ideal)) (k0_pay5 (F := Ideal)))
      (k0_pay1 (k0_pay9 x1) (k0_pay12 (k0_pay7 x0) (k0_pay8 x0) x1 x2 (k0_pay4 (F := Ideal)))
        (k0_pay13 (k0_pay7 x0) (k0_pay8 x0) x1 x2 (k0_pay4 (F := Ideal))) (k0_pay6 (F := Ideal)))
      (k0_pay7 x0) (k0_pay8 x0) := by
  intro p
  have h3 : ∀ d : Fin 1024, (k0_pay7 x0 (ix2 p d) : EReal) = ((H (row i p) d : ℝ) : EReal) := fun d =>
    (k_pay7_apply x0 _).trans (h0 p d)
  have h4 : ∀ d : Fin 1024, (k0_pay8 x0 (ix2 p d) : EReal) = 0 := fun d => by
    rw [k_pay8_apply, h0 p d, ← EReal.coe_sub, sub_self, EReal.coe_zero]
  have hs := k_score H C i 0 (k0_pay7 x0) (k0_pay8 x0) x1 x2 p h3 h4 h1 h2
  obtain ⟨x, hx⟩ := k_fold_real (fun q => score H C (row i p) (crow 0 q))
    (fun q => k0_pay10 (k0_pay7 x0) (k0_pay8 x0) x1 x2 (ix2 p q)) hs
  have h11 : (k0_pay11 (k0_pay7 x0) (k0_pay8 x0) x1 x2 (k0_pay4 (F := Ideal)) (ix2 p (0 : Fin 1)) : EReal)
      = ((x : ℝ) : EReal) := by
    rw [k_pay11_apply, hx, k_pay4_apply]
    exact max_eq_right bot_le
  have h12 : (k0_pay12 (k0_pay7 x0) (k0_pay8 x0) x1 x2 (k0_pay4 (F := Ideal)) (ix2 p (0 : Fin 1)) : EReal)
      = ((0 : ℝ) : EReal) := by
    rw [k_pay12_apply, k_pay4_apply, EReal.bot_sub, Ideal.exp_bot, EReal.coe_zero]
  obtain ⟨e14, e1⟩ := k_row (k0_pay7 x0) (k0_pay8 x0) x1 x2 (k0_pay4 (F := Ideal)) (k0_pay5 (F := Ideal))
    (k0_pay6 (F := Ideal)) p (fun q => score H C (row i p) (crow 0 q)) (fun q d => C (crow 0 q) d) x 0 0 (fun _ => 0)
    hs h1 h11 h12 (k_pay5_apply _) (fun d => k_pay6_apply _)
  refine ⟨x, ?_, ?_, ?_, h3, h4⟩
  · rw [k_pay2_eq]
    exact h11
  · have hp : part (fun j => Real.exp (score H C (row i p) j - x)) 1
        = part (fun j => Real.exp (score H C (row i p) j - x)) 0
          + ∑ q : Fin 1024, Real.exp (score H C (row i p) (crow 0 q) - x) :=
      part_succ (fun j => Real.exp (score H C (row i p) j - x)) (0 : Fin 8)
    rw [e14, hp, part_zero, zero_mul]
  · intro d
    have hp : part (fun j => Real.exp (score H C (row i p) j - x) * C j d) 1
        = part (fun j => Real.exp (score H C (row i p) j - x) * C j d) 0
          + ∑ q : Fin 1024, Real.exp (score H C (row i p) (crow 0 q) - x) * C (crow 0 q) d :=
      part_succ (fun j => Real.exp (score H C (row i p) j - x) * C j d) (0 : Fin 8)
    rw [e1 d, hp, part_zero, zero_mul]

/-- A later codebook tile carries the three running quantities on. -/
theorem good_step (H C : Fin 8192 → Fin 1024 → ℝ) (i : Fin 16) (k : Fin 8)
    (xs0 xs1 : Vec Ideal S512x1 .f32) (xs2 : Vec Ideal S512x1024 .f32) (xs3 xs4 : Vec Ideal S512x1024 .bf16)
    (x1 : Vec Ideal S1024x1024 .bf16) (x2 : Vec Ideal S1x1024 .f32)
    (hg : Good H C i k.val xs0 xs1 xs2 xs3 xs4) (h1 : IsC C k x1) (h2 : IsCsq C k x2) :
    Good H C i (k.val + 1)
      (k0_pay2 (k0_pay11 xs3 xs4 x1 x2 xs0))
      (k0_pay14 xs3 xs4 x1 x2 xs0 xs1)
      (k0_pay1 (k0_pay9 x1) (k0_pay12 xs3 xs4 x1 x2 xs0) (k0_pay13 xs3 xs4 x1 x2 xs0) xs2)
      xs3 xs4 := by
  intro p
  obtain ⟨m, h0, hl, hacc, h3, h4⟩ := hg p
  have hs := k_score H C i k xs3 xs4 x1 x2 p h3 h4 h1 h2
  obtain ⟨x, hx⟩ := k_fold_real (fun q => score H C (row i p) (crow k q))
    (fun q => k0_pay10 xs3 xs4 x1 x2 (ix2 p q)) hs
  have h11 : (k0_pay11 xs3 xs4 x1 x2 xs0 (ix2 p (0 : Fin 1)) : EReal) = ((max m x : ℝ) : EReal) := by
    rw [k_pay11_apply, hx, h0]
    exact (EReal.coe_strictMono.monotone.map_max).symm
  have h12 : (k0_pay12 xs3 xs4 x1 x2 xs0 (ix2 p (0 : Fin 1)) : EReal)
      = ((Real.exp (m - max m x) : ℝ) : EReal) := by
    rw [k_pay12_apply, h11, h0, ← EReal.coe_sub, Ideal.exp_coe]
  obtain ⟨e14, e1⟩ := k_row xs3 xs4 x1 x2 xs0 xs1 xs2 p (fun q => score H C (row i p) (crow k q))
    (fun q d => C (crow k q) d) (max m x) (Real.exp (m - max m x))
    (part (fun j => Real.exp (score H C (row i p) j - m)) k.val)
    (fun d => part (fun j => Real.exp (score H C (row i p) j - m) * C j d) k.val)
    hs h1 h11 h12 hl hacc
  refine ⟨max m x, ?_, ?_, ?_, h3, h4⟩
  · rw [k_pay2_eq]
    exact h11
  · rw [e14, part_rescale_one (fun j => score H C (row i p) j) m (max m x) k.val, part_succ]
  · intro d
    rw [e1 d, part_rescale (fun j => score H C (row i p) j) (fun j => C j d) m (max m x) k.val, part_succ]

end Cert.VQ

end
-- ==== Proof.OutSem.lean ====
/-
  After the eighth codebook tile the value the kernel stores to its output block is the layer's output: the weighted
  sum over the running sum is the soft assignment whatever the reference point, and the rest of the body is the
  residual's normalisation, the linear layer and the bias, entry by entry.
-/
import proofs.«109600_j80247168959070_2_alg».proof.Proof.Gen.KernelIdeal.Skeleton
import proofs.«109600_j80247168959070_2_alg».proof.Proof.Spec
import proofs.«109600_j80247168959070_2_alg».proof.Proof.RealMath
import proofs.«109600_j80247168959070_2_alg».proof.Proof.SemDefs
import Idealize.ShloMosaic.Lib.ValueLayout
import Idealize.ShloMosaic.PureOps.Ideal.Laws

noncomputable section

namespace Cert.VQ

open Idealize.ShloMosaic Idealize.ShloMosaic.ValueIdx Cert.KernelIdeal Cert.KernelIdeal.Gen

/-- A column `[a, 1]` broadcast to `[a, b]` reads, at `(p, c)`, the column's entry of row `p`. -/
private theorem o_broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A vector `[a]` cast to the column `[a, 1]` reads, at `(i, u)`, the vector at `i`. -/
private theorem o_shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- The sum along a row of a `[512, 1024]` block. -/
private theorem o_rowsum_apply (src : FVec Ideal S512x1024 .f32) (hφ : FKind.Formats .f32)
    (hacc : (0x00000000#32 : BitVec 32) = 0x00000000#32) (p : Fin 512) :
    multiReduction .add [1] S512 src 0x00000000#32 reduces_S512x1024_S512 hφ hacc (ix1 p)
      = ∑ d : Fin 1024, src (ix2 p d) := by
  refine (Ideal.multiReduction_add_single src 0x00000000#32 reduces_S512x1024_S512 hφ hacc (ix1 p)).trans ?_
  refine Finset.sum_congr rfl fun d _ => congrArg src (funext fun a => ?_)
  match a with
  | ⟨0, _⟩ => rfl
  | ⟨1, _⟩ => rfl

private theorem o_dot_lhs0 (i : S512x1024.Idx) (q : dot_S512x1024_S1024x1024_S512x1024_1_0_0_1_n_n.contr.Idx) :
    (dot_S512x1024_S1024x1024_S512x1024_1_0_0_1_n_n.lhsIdx i q 0).val = (i 0).val := by
  unfold DotDims.lhsIdx
  rw [dif_neg (show ¬(0 : Fin S512x1024.rank) ∈ dot_S512x1024_S1024x1024_S512x1024_1_0_0_1_n_n.lhsBatch by decide),
    dif_pos (show (0 : Fin S512x1024.rank) ∈ dot_S512x1024_S1024x1024_S512x1024_1_0_0_1_n_n.lhsNonContracting by decide)]
  rfl
private theorem o_dot_lhs1 (i : S512x1024.Idx) (q : dot_S512x1024_S1024x1024_S512x1024_1_0_0_1_n_n.contr.Idx) :
    (dot_S512x1024_S1024x1024_S512x1024_1_0_0_1_n_n.lhsIdx i q 1).val = (q ⟨0, by decide⟩).val :=
  dot_S512x1024_S1024x1024_S512x1024_1_0_0_1_n_n.lhsIdx_val_of_single rfl i q
private theorem o_dot_rhs0 (i : S512x1024.Idx) (q : dot_S512x1024_S1024x1024_S512x1024_1_0_0_1_n_n.contr.Idx) :
    (dot_S512x1024_S1024x1024_S512x1024_1_0_0_1_n_n.rhsIdx i q 0).val = (q ⟨0, by decide⟩).val :=
  dot_S512x1024_S1024x1024_S512x1024_1_0_0_1_n_n.rhsIdx_val_of_single rfl i q
private theorem o_dot_rhs1 (i : S512x1024.Idx) (q : dot_S512x1024_S1024x1024_S512x1024_1_0_0_1_n_n.contr.Idx) :
    (dot_S512x1024_S1024x1024_S512x1024_1_0_0_1_n_n.rhsIdx i q 1).val = (i 1).val := by
  unfold DotDims.rhsIdx
  rw [dif_neg (show ¬(1 : Fin S1024x1024.rank) ∈ dot_S512x1024_S1024x1024_S512x1024_1_0_0_1_n_n.rhsBatch by decide),
    dif_pos (show (1 : Fin S1024x1024.rank) ∈ dot_S512x1024_S1024x1024_S512x1024_1_0_0_1_n_n.rhsNonContracting by decide)]
  rfl

/-- The contraction of a `[512, 1024]` block with a `[1024, 1024]` one along the shared axis, into the zero splat:
    entry `(p, n)` is the sum over `d` of the products. -/
private theorem o_matmul_apply (x : FVec Ideal S512x1024 .bf16) (w : FVec Ideal S1024x1024 .bf16) (p : Fin 512) (n : Fin 1024) :
    matmul dot_S512x1024_S1024x1024_S512x1024_1_0_0_1_n_n none x w (constant (F := Ideal) S512x1024 .f32 0x00000000#32) (ix2 p n)
      = ∑ d : Fin 1024, x (ix2 p d) * w (ix2 d n) := by
  simp only [matmul]
  rw [Ideal.matmul_constant_zero_apply,
    ← Equiv.sum_comp (contrEquiv1 dot_S512x1024_S1024x1024_S512x1024_1_0_0_1_n_n 1024 rfl rfl).symm]
  refine Finset.sum_congr rfl fun k _ => ?_
  have hk := contrEquiv1_symm_val dot_S512x1024_S1024x1024_S512x1024_1_0_0_1_n_n 1024 rfl rfl k
  have el : dot_S512x1024_S1024x1024_S512x1024_1_0_0_1_n_n.lhsIdx (ix2 p n)
      ((contrEquiv1 dot_S512x1024_S1024x1024_S512x1024_1_0_0_1_n_n 1024 rfl rfl).symm k) = ix2 p k :=
    funext fun a => Fin.ext (by
      match a with
      | ⟨0, _⟩ => exact o_dot_lhs0 _ _
      | ⟨1, _⟩ => exact (o_dot_lhs1 _ _).trans hk)
  have er : dot_S512x1024_S1024x1024_S512x1024_1_0_0_1_n_n.rhsIdx (ix2 p n)
      ((contrEquiv1 dot_S512x1024_S1024x1024_S512x1024_1_0_0_1_n_n 1024 rfl rfl).symm k) = ix2 k n :=
    funext fun a => Fin.ext (by
      match a with
      | ⟨0, _⟩ => exact (o_dot_rhs0 _ _).trans hk
      | ⟨1, _⟩ => exact o_dot_rhs1 _ _)
  rw [el, er]

/-! ## The stored value read at an entry, on arbitrary extended-real operands -/

section Read

variable (v50 : FVec Ideal S512x1024 .f32) (v51 : FVec Ideal S512x1 .f32) (v54 : FVec Ideal S512x1024 .f32)
  (v66 : FVec Ideal S1x1024 .f32) (v71 : FVec Ideal S1024x1024 .bf16) (v76 : FVec Ideal S1x1024 .f32)

/-- The weighted sum over the running sum, the running sum's column broadcast along each row. -/
private def o_z : FVec Ideal S512x1024 .f32 :=
  divf v50 (broadcastTo S512x1024 v51 broadcasts_S512x1_S512x1024)

/-- The residual: the input block minus that quotient. -/
private def o_r : FVec Ideal S512x1024 .f32 := subf v54 (o_z v50 v51)

/-- The root mean square of each row of the residual, plus `ε`, as a column. -/
private def o_den : FVec Ideal S512x1 .f32 :=
  addf (sqrt (divf (shapeCast S512x1 (multiReduction .add [1] S512 (mulf (o_r v50 v51 v54) (o_r v50 v51 v54)) 0x00000000#32
      reduces_S512x1024_S512 (.inl rfl) rfl) shapeCasts_S512_S512x1) (broadcast S512x1 (Scalar.ofBits (F := Ideal) .f32 0x44800000#32))))
    (broadcast S512x1 (Scalar.ofBits (F := Ideal) .f32 0x322BCC77#32))

/-- The normalised residual times the scale row. -/
private def o_x : FVec Ideal S512x1024 .f32 :=
  mulf (divf (o_r v50 v51 v54) (broadcastTo S512x1024 (o_den v50 v51 v54) broadcasts_S512x1_S512x1024))
    (broadcastTo S512x1024 (shapeCast S1x1024 v66 shapeCasts_S1x1024_S1x1024) broadcasts_S1x1024_S512x1024)

/-- The stored value is the quotient plus the linear layer of the normalised residual plus the bias row. -/
private theorem o_pay3_eq : k0_pay3 v50 v51 v54 v66 v71 v76
    = addf (addf (o_z v50 v51)
        (matmul dot_S512x1024_S1024x1024_S512x1024_1_0_0_1_n_n none (truncf .bf16 (o_x v50 v51 v54 v66) bitsLt_bf16_f32)
          (transpose S1024x1024 [1, 0] (shapeCast S1024x1024 v71 shapeCasts_S1024x1024_S1024x1024) transposes_S1024x1024_p1_0_S1024x1024)
          (constant (F := Ideal) S512x1024 .f32 0x00000000#32)))
      (broadcastTo S512x1024 (shapeCast S1x1024 v76 shapeCasts_S1x1024_S1x1024) broadcasts_S1x1024_S512x1024) := rfl

private theorem o_z_apply (p : Fin 512) (d : Fin 1024) :
    o_z v50 v51 (ix2 p d) = Ideal.div (v50 (ix2 p d)) (v51 (ix2 p 0)) :=
  congrArg (Ideal.div (v50 (ix2 p d))) (o_broadcastTo_a1_ab_apply v51 broadcasts_S512x1_S512x1024 p d)

private theorem o_r_apply (p : Fin 512) (d : Fin 1024) :
    o_r v50 v51 v54 (ix2 p d) = v54 (ix2 p d) - o_z v50 v51 (ix2 p d) := rfl

private theorem o_den_apply (p : Fin 512) :
    o_den v50 v51 v54 (ix2 p 0)
      = Ideal.sqrt (Ideal.div (∑ e : Fin 1024, o_r v50 v51 v54 (ix2 p e) * o_r v50 v51 v54 (ix2 p e)) (Ideal.ofBits .f32 0x44800000#32))
        + Ideal.ofBits .f32 0x322BCC77#32 := by
  have h1 := o_shapeCast_a_a1_apply (multiReduction .add [1] S512 (mulf (o_r v50 v51 v54) (o_r v50 v51 v54)) 0x00000000#32
      reduces_S512x1024_S512 (.inl rfl) rfl) shapeCasts_S512_S512x1 p (0 : Fin 1)
  have h2 := o_rowsum_apply (mulf (o_r v50 v51 v54) (o_r v50 v51 v54)) (.inl rfl) rfl p
  show Ideal.sqrt (Ideal.div (shapeCast S512x1 _ shapeCasts_S512_S512x1 (ix2 p 0)) (Ideal.ofBits .f32 0x44800000#32))
      + Ideal.ofBits .f32 0x322BCC77#32 = _
  rw [h1, h2]
  rfl

private theorem o_x_apply (p : Fin 512) (d : Fin 1024) :
    o_x v50 v51 v54 v66 (ix2 p d)
      = Ideal.div (o_r v50 v51 v54 (ix2 p d)) (o_den v50 v51 v54 (ix2 p 0)) * v66 (ix2 0 d) := by
  have h1 := o_broadcastTo_a1_ab_apply (o_den v50 v51 v54) broadcasts_S512x1_S512x1024 p d
  have h2 := broadcastTo_1b_ab_apply (shapeCast S1x1024 v66 shapeCasts_S1x1024_S1x1024) broadcasts_S1x1024_S512x1024 p d
  show Ideal.div (o_r v50 v51 v54 (ix2 p d)) (broadcastTo S512x1024 (o_den v50 v51 v54) broadcasts_S512x1_S512x1024 (ix2 p d))
      * broadcastTo S512x1024 (shapeCast S1x1024 v66 shapeCasts_S1x1024_S1x1024) broadcasts_S1x1024_S512x1024 (ix2 p d) = _
  rw [h1, h2, shapeCast_self]

/-- The stored value at `(p, n)`. -/
private theorem o_pay3_apply (p : Fin 512) (n : Fin 1024) :
    k0_pay3 v50 v51 v54 v66 v71 v76 (ix2 p n)
      = o_z v50 v51 (ix2 p n) + (∑ d : Fin 1024, o_x v50 v51 v54 v66 (ix2 p d) * v71 (ix2 n d)) + v76 (ix2 0 n) := by
  rw [o_pay3_eq]
  have h1 := o_matmul_apply (truncf .bf16 (o_x v50 v51 v54 v66) bitsLt_bf16_f32)
    (transpose S1024x1024 [1, 0] (shapeCast S1024x1024 v71 shapeCasts_S1024x1024_S1024x1024) transposes_S1024x1024_p1_0_S1024x1024) p n
  have h2 := broadcastTo_1b_ab_apply (shapeCast S1x1024 v76 shapeCasts_S1x1024_S1x1024) broadcasts_S1x1024_S512x1024 p n
  rw [addf_apply, addf_apply, h1, h2, shapeCast_self v76]
  refine congrArg (fun s => o_z v50 v51 (ix2 p n) + s + v76 (ix2 0 n)) (Finset.sum_congr rfl fun d _ => ?_)
  rw [truncf_apply, transpose_ix2_apply, shapeCast_self]

end Read

/-! ## On real data -/

/-- After the eighth tile the stored output is the layer's output. -/
theorem out_last (H C : Fin 8192 → Fin 1024 → ℝ) (Sc Bv : Fin 1024 → ℝ) (Wt : Fin 1024 → Fin 1024 → ℝ) (i : Fin 16)
    (ys0 ys1 : Vec Ideal S512x1 .f32) (ys2 : Vec Ideal S512x1024 .f32) (ys3 ys4 : Vec Ideal S512x1024 .bf16)
    (x0 : Vec Ideal S512x1024 .f32) (x3 : Vec Ideal S1024x1024 .bf16) (x4 x5 : Vec Ideal S1x1024 .f32)
    (hg : Good H C i 8 ys0 ys1 ys2 ys3 ys4) (h0 : IsH H i x0) (h3 : IsW Wt x3) (h4 : IsB Bv x4) (h5 : IsSc Sc x5)
    (p : Fin 512) (n : Fin 1024) :
    k0_pay3 ys2 ys1 x0 x5 x3 x4 (ix2 p n) = ((outR H C Sc Bv Wt (row i p) n : ℝ) : EReal) := by
  obtain ⟨m, -, hl, hacc, -, -⟩ := hg p
  -- the running sum is the full sum of exponentials, which is positive
  have hL : part (fun j => Real.exp (score H C (row i p) j - m)) 8 ≠ 0 := by
    rw [part_eight]
    exact ne_of_gt (sum_exp_pos fun j => score H C (row i p) j - m)
  -- the quotient is the soft assignment, whatever the reference point
  have hz : ∀ d : Fin 1024, o_z ys2 ys1 (ix2 p d) = ((zE H C (row i p) d : ℝ) : EReal) := fun d => by
    rw [o_z_apply, hacc d, hl, div_coe_coe _ _ hL, part_eight, part_eight]
    exact congrArg _ (softmax_shift (score H C (row i p)) (fun j => C j d) m)
  have hr : ∀ d : Fin 1024, o_r ys2 ys1 x0 (ix2 p d) = ((resid H C (row i p) d : ℝ) : EReal) := fun d => by
    rw [o_r_apply, hz d, h0 p d, ← EReal.coe_sub]
    rfl
  have hms : 0 ≤ (∑ d : Fin 1024, resid H C (row i p) d * resid H C (row i p) d) / 1024 :=
    div_nonneg (Finset.sum_nonneg fun d _ => mul_self_nonneg _) (by norm_num)
  have hden : o_den ys2 ys1 x0 (ix2 p 0) = ((rms H C (row i p) + epsR : ℝ) : EReal) := by
    rw [o_den_apply]
    simp only [hr, ← EReal.coe_mul]
    rw [coe_sum, lit_1024, div_coe_coe _ _ (by norm_num), sqrt_coe_nonneg _ hms, lit_eps, ← EReal.coe_add]
    rfl
  have hpos : rms H C (row i p) + epsR ≠ 0 :=
    ne_of_gt (add_pos_of_nonneg_of_pos (Real.sqrt_nonneg _) epsR_pos)
  have hx : ∀ d : Fin 1024, o_x ys2 ys1 x0 x5 (ix2 p d) = ((xn H C Sc (row i p) d : ℝ) : EReal) := fun d => by
    rw [o_x_apply, hr d, hden, h5 d, div_coe_coe _ _ hpos, ← EReal.coe_mul]
    rfl
  refine (o_pay3_apply ys2 ys1 x0 x5 x3 x4 p n).trans ?_
  rw [hz n, h4 n]
  simp only [hx, h3 n, ← EReal.coe_mul]
  rw [coe_sum, ← EReal.coe_add, ← EReal.coe_add]
  rfl

end Cert.VQ

end
-- ==== Proof.KernelValue.lean ====
/-
  The kernel's result array on real data. By induction over the grid points, after point `8·i + k` the five buffers
  the kernel carries hold, row by row of row tile `i`, a real reference point, the sums of `e^{score − m}` and of
  `e^{score − m}·C` over the codebook tiles `0 … k`, the input's rows and zero; so the block written back at the last
  tile of each row tile is the layer's output on those rows; these sixteen blocks tile the result array.
-/
import proofs.«109600_j80247168959070_2_alg».proof.Proof.Gen.KernelIdeal.Value
import proofs.«109600_j80247168959070_2_alg».proof.Proof.Blocks
import proofs.«109600_j80247168959070_2_alg».proof.Proof.Steps
import proofs.«109600_j80247168959070_2_alg».proof.Proof.PayloadSem
import proofs.«109600_j80247168959070_2_alg».proof.Proof.OutSem
import Idealize.ShloMosaic.Lib.Pipeline.Value

noncomputable section

namespace Cert.VQ

open Idealize.ShloMosaic Idealize.ShloMosaic.TcCoe Idealize.SL.Sem Idealize.ShloMosaic.ValueIdx
open Idealize.ShloMosaic.Pipeline (Dat)
open Cert.KernelIdeal Cert.KernelIdeal.Gen

variable (m : (ℓ : Loc nD τ sig) → Buf (Elt Ideal) ℓ) (c : Dev nD)
variable (H C : Fin 8192 → Fin 1024 → ℝ) (Sc Bv : Fin 1024 → ℝ) (Wt : Fin 1024 → Fin 1024 → ℝ)

/-- The five argument arrays of core `c` hold the real data. -/
structure RealArgs : Prop where
  h0 : ∀ (r : Fin 8192) (d : Fin 1024), m ((c : Thread nD τ).loc main_arg0) (ix2 r d) = ((H r d : ℝ) : EReal)
  h1 : ∀ (j : Fin 8192) (d : Fin 1024), m ((c : Thread nD τ).loc main_arg1) (ix2 j d) = ((C j d : ℝ) : EReal)
  h2 : ∀ d : Fin 1024, m ((c : Thread nD τ).loc main_arg2) (ix1 d) = ((Sc d : ℝ) : EReal)
  h3 : ∀ n d : Fin 1024, m ((c : Thread nD τ).loc main_arg3) (ix2 n d) = ((Wt n d : ℝ) : EReal)
  h4 : ∀ n : Fin 1024, m ((c : Thread nD τ).loc main_arg4) (ix1 n) = ((Bv n : ℝ) : EReal)

/-- After point `n` the carried buffers hold the running softmax of row tile `n / 8` over the codebook tiles `0 … n % 8`. -/
theorem good_at (ha : RealArgs m c H C Sc Bv Wt) :
    ∀ (n : ℕ) (hn : n < cfg0.N) (i : Fin 16), i.val = n / 8 →
      Good H C i (n % 8 + 1) (outsAt0 m c n hn).2.1 (outsAt0 m c n hn).2.2.1 (outsAt0 m c n hn).2.2.2.1
        (outsAt0 m c n hn).2.2.2.2.1 (outsAt0 m c n hn).2.2.2.2.2 := by
  intro n
  induction n using Nat.strong_induction_on with
  | _ n ih =>
    intro hn i hi
    have hN : n < 128 := lt_of_lt_of_eq hn N_0
    by_cases h0 : n % 8 = 0
    · obtain ⟨e0, e1, e2, e3, e4⟩ := Steps.first_tile m c n hn h0
      rw [e0, e1, e2, e3, e4, h0]
      exact good_first H C i _ _ _ (isH_iblk m c H ha.h0 ⟨n, hn⟩ i hi)
        (isC_iblk m c C ha.h1 ⟨n, hn⟩ 0 h0.symm) (isCsq_iblk m c C ha.h1 ⟨n, hn⟩ 0 h0.symm)
    · obtain ⟨e0, e1, e2, e3, e4⟩ := Steps.later_tile m c n hn h0
      rw [e0, e1, e2, e3, e4]
      have hprev := ih (n - 1) (by omega) (Nat.lt_of_le_of_lt (Nat.sub_le _ _) hn) i (by omega)
      have hk : (n - 1) % 8 + 1 = n % 8 := by omega
      rw [hk] at hprev
      exact good_step H C i ⟨n % 8, by omega⟩ _ _ _ _ _ _ _ hprev
        (isC_iblk m c C ha.h1 ⟨n, hn⟩ ⟨n % 8, by omega⟩ rfl) (isCsq_iblk m c C ha.h1 ⟨n, hn⟩ ⟨n % 8, by omega⟩ rfl)

/-- At the last codebook tile of row tile `n / 8` the output block holds the layer's output on the tile's rows. -/
theorem out_at (ha : RealArgs m c H C Sc Bv Wt) (n : ℕ) (hn : n < cfg0.N) (h1 : n % 8 = 7) (i : Fin 16) (hi : i.val = n / 8)
    (p : Fin 512) (d : Fin 1024) :
    (outsAt0 m c n hn).1 (ix2 p d) = ((outR H C Sc Bv Wt (row i p) d : ℝ) : EReal) := by
  rw [Steps.last_tile_out m c n hn h1]
  have hg := good_at m c H C Sc Bv Wt ha n hn i hi
  have h8 : n % 8 + 1 = 8 := by omega
  rw [h8] at hg
  exact out_last H C Sc Bv Wt i _ _ _ _ _ _ _ _ _ hg (isH_iblk m c H ha.h0 ⟨n, hn⟩ i hi) (isW_iblk m c Wt ha.h3 ⟨n, hn⟩)
    (isB_iblk m c Bv ha.h4 ⟨n, hn⟩) (isSc_iblk m c Sc ha.h2 ⟨n, hn⟩) p d

/-- The layer's output as an array over the result's index type. -/
def outArr : S8192x1024.Idx → EReal :=
  fun idx => ((outR H C Sc Bv Wt ⟨(idx 0).val, (idx 0).isLt⟩ ⟨(idx 1).val, (idx 1).isLt⟩ : ℝ) : EReal)

/-- What a writing-back point writes is its block of the layer's output. -/
theorem flushed_eq (ha : RealArgs m c H C Sc Bv Wt) (t : Fin cfg0.N) (hf : (cfg0.win 6).flush t = true) :
    (dats m 0 c).flushed 6 t = ((cfg0.win 6).blk t).view.read (Elt Ideal) (outArr H C Sc Bv Wt) := by
  have h7 : t.val % 8 = 7 := (flush0_6 t).mp hf
  have hN : t.val < 128 := lt_of_lt_of_eq t.isLt N_0
  rw [Value.flushed6]
  funext j
  obtain ⟨p, d, rfl⟩ : ∃ (p : Fin 512) (d : Fin 1024), j = ix2 p d := ⟨j 0, j 1, eq_ix2 j⟩
  show (outsAt0 m c t.val t.isLt).1 (ix2 p d) = outArr H C Sc Bv Wt (((cfg0.win 6).blk t).view.emb (ix2 p d))
  rw [out_at m c H C Sc Bv Wt ha t.val t.isLt h7 ⟨t.val / 8, by omega⟩ rfl p d]
  obtain ⟨-, -, -, -, -, -, -, -, -, -, -, -, e0, e1⟩ := idx_facts t
  have he : ((cfg0.win 6).blk t).view.emb (ix2 p d) = ix2 (row ⟨t.val / 8, by omega⟩ p) d := by
    funext a; apply Fin.ext
    match a with
    | ⟨0, _⟩ => show win0_6.index t (0 : Fin 2) * 512 + 1 * p.val = 512 * (t.val / 8) + p.val; omega
    | ⟨1, _⟩ => show win0_6.index t (1 : Fin 2) * 1024 + 1 * d.val = d.val; omega
  rw [he]; rfl

/-- An index of the result array is in point `t`'s block iff each coordinate is in the block's range on its axis. -/
theorem mem_blk6 (t : Fin cfg0.N) (i : S8192x1024.Idx) :
    i ∈ ((cfg0.win 6).blk t).view.set ↔ ∀ a : Fin 2, win0_6.index t a * S512x1024.size a ≤ (i a).val ∧ (i a).val < win0_6.index t a * S512x1024.size a + S512x1024.size a := by
  show i ∈ ((View.whole main_v7).slice (win0_6.rect t)).set ↔ _
  rw [View.set_slice_whole, Rect.mem_set_unit]
  exact Iff.rfl

/-- Every index of the result array is in the block of the last point of its row tile. -/
theorem cover6 (i : S8192x1024.Idx) :
    ∃ t : Fin cfg0.N, (cfg0.win 6).flush t = true ∧ i ∈ ((cfg0.win 6).blk t).view.set := by
  have hi0 : (i 0).val < 8192 := (i 0).isLt
  have hi1 : (i 1).val < 1024 := (i 1).isLt
  have hlt : 8 * ((i 0).val / 512) + 7 < cfg0.N := lt_of_lt_of_eq (by omega : 8 * ((i 0).val / 512) + 7 < 128) N_0.symm
  refine ⟨⟨8 * ((i 0).val / 512) + 7, hlt⟩, (flush0_6 _).mpr (by show (8 * ((i 0).val / 512) + 7) % 8 = 7; omega), ?_⟩
  rw [mem_blk6]
  obtain ⟨-, -, -, -, -, -, -, -, -, -, -, -, e0, e1⟩ := idx_facts ⟨8 * ((i 0).val / 512) + 7, hlt⟩
  have e0' : win0_6.index ⟨8 * ((i 0).val / 512) + 7, hlt⟩ (0 : Fin 2) = (8 * ((i 0).val / 512) + 7) / 8 := e0
  intro a
  match a with
  | ⟨0, _⟩ =>
    show win0_6.index ⟨8 * ((i 0).val / 512) + 7, hlt⟩ (0 : Fin 2) * 512 ≤ (i 0).val ∧ (i 0).val < win0_6.index ⟨8 * ((i 0).val / 512) + 7, hlt⟩ (0 : Fin 2) * 512 + 512
    omega
  | ⟨1, _⟩ =>
    show win0_6.index ⟨8 * ((i 0).val / 512) + 7, hlt⟩ (1 : Fin 2) * 1024 ≤ (i 1).val ∧ (i 1).val < win0_6.index ⟨8 * ((i 0).val / 512) + 7, hlt⟩ (1 : Fin 2) * 1024 + 1024
    omega

/-- The result array after the run is the layer's output. -/
theorem final6 (ha : RealArgs m c H C Sc Bv Wt) : (dats m 0 c).arrAt 6 cfg0.N = outArr H C Sc Bv Wt :=
  (dats m 0 c).arrAt_eq_of_cover 6 (outArr H C Sc Bv Wt) (fun t hf => flushed_eq m c H C Sc Bv Wt ha t hf) cover6

end Cert.VQ

end
-- ==== Proof.RefValue.lean ====
/-
  The reference's result, read at one entry, is the layer's output on real data.
-/
import proofs.«109600_j80247168959070_2_alg».proof.Proof.Gen.ReferenceIdeal.Read
import proofs.«109600_j80247168959070_2_alg».proof.Proof.Spec
import proofs.«109600_j80247168959070_2_alg».proof.Proof.RealMath

noncomputable section

namespace Cert.VQ

open Idealize.ShloMosaic Idealize.ShloMosaic.ValueIdx Cert.ReferenceIdeal

section stages
open Cert.ReferenceIdeal.Read

/-! ### The generated index functions at an index built from coordinates -/

private theorem r_idx_v1 (r : Fin 8192) (k : Fin 1024) : idx_main_v1 (ix1 r) k = ix2 r k :=
  funext fun a => Fin.ext (by match a with | ⟨0, _⟩ => rfl | ⟨1, _⟩ => rfl)
private theorem r_idx_v4 (j : Fin 8192) (k : Fin 1024) : idx_main_v4 (ix1 j) k = ix2 j k :=
  funext fun a => Fin.ext (by match a with | ⟨0, _⟩ => rfl | ⟨1, _⟩ => rfl)
private theorem r_lidx_v10 (r j : Fin 8192) (k : Fin 1024) : lidx_main_v10 (ix2 r j) k = ix2 r k :=
  funext fun a => Fin.ext (by match a with | ⟨0, _⟩ => rfl | ⟨1, _⟩ => rfl)
private theorem r_ridx_v10 (r j : Fin 8192) (k : Fin 1024) : ridx_main_v10 (ix2 r j) k = ix2 k j :=
  funext fun a => Fin.ext (by match a with | ⟨0, _⟩ => rfl | ⟨1, _⟩ => rfl)
private theorem r_idx_v9 (k : Fin 1024) (j : Fin 8192) : idx_main_v9 (ix2 k j) = ix2 j k :=
  funext fun a => Fin.ext (by match a with | ⟨0, _⟩ => rfl | ⟨1, _⟩ => rfl)
private theorem r_idx_v6 (r j : Fin 8192) : idx_main_v2 (idx_main_v6 (ix2 r j)) = ix1 r :=
  funext fun a => Fin.ext (by match a with | ⟨0, _⟩ => rfl)
private theorem r_idx_v7 (r j : Fin 8192) : idx_main_v5 (idx_main_v7 (ix2 r j)) = ix1 j :=
  funext fun a => Fin.ext (by match a with | ⟨0, _⟩ => rfl)
private theorem r_idx_v21 (r j : Fin 8192) : idx_main_v20 (idx_main_v21 (ix2 r j)) = ix1 r :=
  funext fun a => Fin.ext (by match a with | ⟨0, _⟩ => rfl)
private theorem r_idx_v24 (r k : Fin 8192) : idx_main_v24 (ix1 r) k = ix2 r k :=
  funext fun a => Fin.ext (by match a with | ⟨0, _⟩ => rfl | ⟨1, _⟩ => rfl)
private theorem r_idx_v26 (r j : Fin 8192) : idx_main_v25 (idx_main_v26 (ix2 r j)) = ix1 r :=
  funext fun a => Fin.ext (by match a with | ⟨0, _⟩ => rfl)
private theorem r_lidx_v28 (r : Fin 8192) (d : Fin 1024) (k : Fin 8192) : lidx_main_v28 (ix2 r d) k = ix2 r k :=
  funext fun a => Fin.ext (by match a with | ⟨0, _⟩ => rfl | ⟨1, _⟩ => rfl)
private theorem r_ridx_v28 (r : Fin 8192) (d : Fin 1024) (k : Fin 8192) : ridx_main_v28 (ix2 r d) k = ix2 k d :=
  funext fun a => Fin.ext (by match a with | ⟨0, _⟩ => rfl | ⟨1, _⟩ => rfl)
private theorem r_idx_v31 (r : Fin 8192) (k : Fin 1024) : idx_main_v31 (ix1 r) k = ix2 r k :=
  funext fun a => Fin.ext (by match a with | ⟨0, _⟩ => rfl | ⟨1, _⟩ => rfl)
private theorem r_idx_v38 (r : Fin 8192) (d : Fin 1024) : idx_main_v32 (idx_main_v38 (ix2 r d)) = ix1 r :=
  funext fun a => Fin.ext (by match a with | ⟨0, _⟩ => rfl)
private theorem r_idx_v41 (r : Fin 8192) (d : Fin 1024) : idx_main_v40 (idx_main_v41 (ix2 r d)) = ix1 d :=
  funext fun a => Fin.ext (by match a with | ⟨0, _⟩ => rfl)
private theorem r_lidx_v44 (r : Fin 8192) (n k : Fin 1024) : lidx_main_v44 (ix2 r n) k = ix2 r k :=
  funext fun a => Fin.ext (by match a with | ⟨0, _⟩ => rfl | ⟨1, _⟩ => rfl)
private theorem r_ridx_v44 (r : Fin 8192) (n k : Fin 1024) : ridx_main_v44 (ix2 r n) k = ix2 k n :=
  funext fun a => Fin.ext (by match a with | ⟨0, _⟩ => rfl | ⟨1, _⟩ => rfl)
private theorem r_idx_v43 (k n : Fin 1024) : idx_main_v43 (ix2 k n) = ix2 n k :=
  funext fun a => Fin.ext (by match a with | ⟨0, _⟩ => rfl | ⟨1, _⟩ => rfl)
private theorem r_idx_v47 (r : Fin 8192) (n : Fin 1024) : idx_main_v46 (idx_main_v47 (ix2 r n)) = ix1 n :=
  funext fun a => Fin.ext (by match a with | ⟨0, _⟩ => rfl)

/-! ### The squared distances -/

/-- The squared norm of row `r` of the input. -/
private theorem r_v1 (H : Fin 8192 → Fin 1024 → ℝ)
    (x0 : (⟨S8192x1024, .f32⟩ : BufTy).Contents (Elt Ideal))
    (h0 : ∀ (r : Fin 8192) (d : Fin 1024), x0 (ix2 r d) = ((H r d : ℝ) : EReal)) (r : Fin 8192) :
    val_main_v1 (F := Ideal) x0 (ix1 r) = ((∑ d : Fin 1024, H r d * H r d : ℝ) : EReal) := by
  rw [val_main_v1_apply, val_main_cst_apply, Ideal.ofBits_def, lit_zero]
  have e : ∀ k : Fin 1024, val_main_v0 (F := Ideal) x0 (idx_main_v1 (ix1 r) k) = ((H r k * H r k : ℝ) : EReal) := by
    intro k
    rw [r_idx_v1, val_main_v0_apply, Ideal.mulf_def, h0, ← EReal.coe_mul]
  rw [Finset.sum_congr rfl (fun k _ => e k), coe_sum, ← EReal.coe_add, zero_add]

/-- The squared norm of codebook row `j`. -/
private theorem r_v4 (C : Fin 8192 → Fin 1024 → ℝ)
    (x1 : (⟨S8192x1024, .f32⟩ : BufTy).Contents (Elt Ideal))
    (h1 : ∀ (j : Fin 8192) (d : Fin 1024), x1 (ix2 j d) = ((C j d : ℝ) : EReal)) (j : Fin 8192) :
    val_main_v4 (F := Ideal) x1 (ix1 j) = ((csq C j : ℝ) : EReal) := by
  unfold csq
  rw [val_main_v4_apply, val_main_cst_0_apply, Ideal.ofBits_def, lit_zero]
  have e : ∀ k : Fin 1024, val_main_v3 (F := Ideal) x1 (idx_main_v4 (ix1 j) k) = ((C j k * C j k : ℝ) : EReal) := by
    intro k
    rw [r_idx_v4, val_main_v3_apply, Ideal.mulf_def, h1, ← EReal.coe_mul]
  rw [Finset.sum_congr rfl (fun k _ => e k), coe_sum, ← EReal.coe_add, zero_add]

/-- The inner product of input row `r` with codebook row `j`. -/
private theorem r_v10 (H C : Fin 8192 → Fin 1024 → ℝ)
    (x0 x1 : (⟨S8192x1024, .f32⟩ : BufTy).Contents (Elt Ideal))
    (h0 : ∀ (r : Fin 8192) (d : Fin 1024), x0 (ix2 r d) = ((H r d : ℝ) : EReal))
    (h1 : ∀ (j : Fin 8192) (d : Fin 1024), x1 (ix2 j d) = ((C j d : ℝ) : EReal)) (r j : Fin 8192) :
    val_main_v10 (F := Ideal) x0 x1 (ix2 r j) = ((∑ d : Fin 1024, H r d * C j d : ℝ) : EReal) := by
  rw [val_main_v10_apply]
  have e : ∀ k : Fin 1024, x0 (lidx_main_v10 (ix2 r j) k) * (val_main_v9 (F := Ideal) x1) (ridx_main_v10 (ix2 r j) k)
      = ((H r k * C j k : ℝ) : EReal) := by
    intro k
    rw [r_lidx_v10, r_ridx_v10, val_main_v9_apply, r_idx_v9, h0, h1, ← EReal.coe_mul]
  rw [Finset.sum_congr rfl (fun k _ => e k), coe_sum]

/-- The logit: minus the squared distance, which is the score less the row constant `‖H r‖²`. -/
private theorem r_v16 (H C : Fin 8192 → Fin 1024 → ℝ)
    (x0 x1 : (⟨S8192x1024, .f32⟩ : BufTy).Contents (Elt Ideal))
    (h0 : ∀ (r : Fin 8192) (d : Fin 1024), x0 (ix2 r d) = ((H r d : ℝ) : EReal))
    (h1 : ∀ (j : Fin 8192) (d : Fin 1024), x1 (ix2 j d) = ((C j d : ℝ) : EReal)) (r j : Fin 8192) :
    val_main_v16 (F := Ideal) x0 x1 (ix2 r j) = ((score H C r j - (∑ d : Fin 1024, H r d * H r d) : ℝ) : EReal) := by
  rw [val_main_v16_apply, val_main_v14_apply, val_main_v13_apply, val_main_v8_apply, val_main_v6_apply, val_main_v2_apply,
    r_idx_v6, r_v1 H x0 h0, val_main_v7_apply, val_main_v5_apply, r_idx_v7, r_v4 C x1 h1, val_main_v12_apply,
    val_main_v11_apply, val_main_cst_1_apply, r_v10 H C x0 x1 h0 h1, val_main_v15_apply, val_main_cst_2_apply]
  simp only [Ideal.hostDivf_def, Ideal.hostNegf_def, Ideal.negf_def, Ideal.subf_def, Ideal.addf_def, Ideal.mulf_def,
    Ideal.ofBits_def, lit_two, lit_one]
  rw [← EReal.coe_add, ← EReal.coe_mul, ← EReal.coe_sub, ← EReal.coe_neg, div_coe_coe _ _ one_ne_zero]
  refine congrArg _ ?_
  unfold score
  ring

/-! ### The row maximum: some real number -/

/-- A row index with the column `k` put back is `(r, k)`. -/
private theorem r_lift (h : S8192x8192.Reduces [1] S8192) (r : Fin 8192) (k : Fin (S8192x8192.size 1)) :
    h.lift (ix1 r) k = ix2 r (⟨k.val, k.isLt⟩ : Fin 8192) := by
  funext c; apply Fin.ext
  fin_cases c <;> rfl

/-- The maximum of row `r`'s logits, taken from `-∞`, is a real number. -/
private theorem r_v19 (H C : Fin 8192 → Fin 1024 → ℝ)
    (x0 x1 : (⟨S8192x1024, .f32⟩ : BufTy).Contents (Elt Ideal))
    (h0 : ∀ (r : Fin 8192) (d : Fin 1024), x0 (ix2 r d) = ((H r d : ℝ) : EReal))
    (h1 : ∀ (j : Fin 8192) (d : Fin 1024), x1 (ix2 j d) = ((C j d : ℝ) : EReal)) (r : Fin 8192) :
    ∃ M : ℝ, val_main_v19 (F := Ideal) x0 x1 (ix1 r) = ((M : ℝ) : EReal) := by
  have hR : S8192x8192.Reduces [1] S8192 := by decide
  obtain ⟨M, hM⟩ := fold_max_coe 8192 (by norm_num) (fun k => score H C r k - (∑ d : Fin 1024, H r d * H r d))
  refine ⟨M, ?_⟩
  have e17 : val_main_v17 (F := Ideal) x0 x1 (ix1 r) = ((M : ℝ) : EReal) := by
    have hy : ∀ k : Fin 8192, val_main_v16 (F := Ideal) x0 x1 (ix2 r k) = ((score H C r k - (∑ d : Fin 1024, H r d * H r d) : ℝ) : EReal) :=
      fun k => r_v16 H C x0 x1 h0 h1 r k
    unfold val_main_v17
    generalize val_main_v16 (F := Ideal) x0 x1 = y at hy ⊢
    refine (Host.reduce_eq_fold_single (α := Ideal .f32) (FloatOps.maximumf (F := Ideal) (φ := .f32)) y _
      Gen.reducesTo_S8192x8192_S8192_d1 hR Gen.h_S_ (ix1 r)).trans ?_
    rw [val_main_cst_3_apply, Ideal.ofBits_def, lit_neg_inf]
    refine Eq.trans ?_ hM
    have hf : (y ∘ hR.lift (ix1 r)) = fun k : Fin 8192 => ((score H C r k - (∑ d : Fin 1024, H r d * H r d) : ℝ) : EReal) :=
      funext fun k => (congrArg y (r_lift hR r k)).trans (hy _)
    exact congrArg (fun f => Finset.fold max (⊥ : EReal) f (Finset.univ : Finset (Fin 8192))) hf
  rw [val_main_v19_apply, val_main_v18_apply, val_main_cst_4_apply, e17, Ideal.maximumf_def, Ideal.ofBits_def, lit_neg_inf]
  exact max_eq_right bot_le

/-! ### The softmax weights and the soft assignment -/

/-- The exponential of a logit less the row maximum `M`. -/
private theorem r_v23 (H C : Fin 8192 → Fin 1024 → ℝ)
    (x0 x1 : (⟨S8192x1024, .f32⟩ : BufTy).Contents (Elt Ideal))
    (h0 : ∀ (r : Fin 8192) (d : Fin 1024), x0 (ix2 r d) = ((H r d : ℝ) : EReal))
    (h1 : ∀ (j : Fin 8192) (d : Fin 1024), x1 (ix2 j d) = ((C j d : ℝ) : EReal)) (r : Fin 8192)
    (M : ℝ) (hM : val_main_v19 (F := Ideal) x0 x1 (ix1 r) = ((M : ℝ) : EReal)) (j : Fin 8192) :
    val_main_v23 (F := Ideal) x0 x1 (ix2 r j) = ((Real.exp (score H C r j - (∑ d : Fin 1024, H r d * H r d) - M) : ℝ) : EReal) := by
  rw [val_main_v23_apply, val_main_v22_apply, val_main_v21_apply, val_main_v20_apply, r_idx_v21, hM, r_v16 H C x0 x1 h0 h1,
    Ideal.hostUnary_exp_def, Ideal.subf_def, ← EReal.coe_sub, Ideal.exp_coe]

/-- The row sum of the exponentials. -/
private theorem r_v24 (H C : Fin 8192 → Fin 1024 → ℝ)
    (x0 x1 : (⟨S8192x1024, .f32⟩ : BufTy).Contents (Elt Ideal))
    (h0 : ∀ (r : Fin 8192) (d : Fin 1024), x0 (ix2 r d) = ((H r d : ℝ) : EReal))
    (h1 : ∀ (j : Fin 8192) (d : Fin 1024), x1 (ix2 j d) = ((C j d : ℝ) : EReal)) (r : Fin 8192)
    (M : ℝ) (hM : val_main_v19 (F := Ideal) x0 x1 (ix1 r) = ((M : ℝ) : EReal)) :
    val_main_v24 (F := Ideal) x0 x1 (ix1 r) = ((∑ j : Fin 8192, Real.exp (score H C r j - (∑ d : Fin 1024, H r d * H r d) - M) : ℝ) : EReal) := by
  rw [val_main_v24_apply, val_main_cst_5_apply, Ideal.ofBits_def, lit_zero]
  have e : ∀ k : Fin 8192, val_main_v23 (F := Ideal) x0 x1 (idx_main_v24 (ix1 r) k) = ((Real.exp (score H C r k - (∑ d : Fin 1024, H r d * H r d) - M) : ℝ) : EReal) := by
    intro k
    rw [r_idx_v24]
    exact r_v23 H C x0 x1 h0 h1 r M hM k
  rw [Finset.sum_congr rfl (fun k _ => e k), coe_sum, ← EReal.coe_add, zero_add]

/-- The softmax weight of codebook row `j` for input row `r`. -/
private theorem r_v27 (H C : Fin 8192 → Fin 1024 → ℝ)
    (x0 x1 : (⟨S8192x1024, .f32⟩ : BufTy).Contents (Elt Ideal))
    (h0 : ∀ (r : Fin 8192) (d : Fin 1024), x0 (ix2 r d) = ((H r d : ℝ) : EReal))
    (h1 : ∀ (j : Fin 8192) (d : Fin 1024), x1 (ix2 j d) = ((C j d : ℝ) : EReal)) (r : Fin 8192)
    (M : ℝ) (hM : val_main_v19 (F := Ideal) x0 x1 (ix1 r) = ((M : ℝ) : EReal)) (j : Fin 8192) :
    val_main_v27 (F := Ideal) x0 x1 (ix2 r j)
      = ((Real.exp (score H C r j - (∑ d : Fin 1024, H r d * H r d) - M) / ∑ j' : Fin 8192, Real.exp (score H C r j' - (∑ d : Fin 1024, H r d * H r d) - M) : ℝ) : EReal) := by
  rw [val_main_v27_apply, val_main_v26_apply, val_main_v25_apply, r_idx_v26, r_v24 H C x0 x1 h0 h1 r M hM, r_v23 H C x0 x1 h0 h1 r M hM,
    Ideal.hostDivf_def]
  exact div_coe_coe _ _ (ne_of_gt (sum_exp_pos fun j' : Fin 8192 => score H C r j' - (∑ d : Fin 1024, H r d * H r d) - M))

/-- The weighted mean of the codebook's rows is the soft assignment: the row constant and the maximum cancel. -/
private theorem r_v28 (H C : Fin 8192 → Fin 1024 → ℝ)
    (x0 x1 : (⟨S8192x1024, .f32⟩ : BufTy).Contents (Elt Ideal))
    (h0 : ∀ (r : Fin 8192) (d : Fin 1024), x0 (ix2 r d) = ((H r d : ℝ) : EReal))
    (h1 : ∀ (j : Fin 8192) (d : Fin 1024), x1 (ix2 j d) = ((C j d : ℝ) : EReal)) (r : Fin 8192) (d : Fin 1024) :
    val_main_v28 (F := Ideal) x0 x1 (ix2 r d) = ((zE H C r d : ℝ) : EReal) := by
  obtain ⟨M, hM⟩ := r_v19 H C x0 x1 h0 h1 r
  rw [val_main_v28_apply]
  have e : ∀ k : Fin 8192, (val_main_v27 (F := Ideal) x0 x1) (lidx_main_v28 (ix2 r d) k) * x1 (ridx_main_v28 (ix2 r d) k)
      = (((Real.exp (score H C r k - (∑ d : Fin 1024, H r d * H r d) - M) / ∑ j' : Fin 8192, Real.exp (score H C r j' - (∑ d : Fin 1024, H r d * H r d) - M)) * C k d : ℝ) : EReal) := by
    intro k
    rw [r_lidx_v28, r_ridx_v28, r_v27 H C x0 x1 h0 h1 r M hM k, h1, ← EReal.coe_mul]
  rw [Finset.sum_congr rfl (fun k _ => e k), coe_sum]
  refine congrArg _ ?_
  exact softmax_two_pass (fun j => score H C r j) (fun j => C j d) (∑ d : Fin 1024, H r d * H r d) M

/-! ### The residual, its root mean square, and the normalised residual -/

private theorem r_v29 (H C : Fin 8192 → Fin 1024 → ℝ)
    (x0 x1 : (⟨S8192x1024, .f32⟩ : BufTy).Contents (Elt Ideal))
    (h0 : ∀ (r : Fin 8192) (d : Fin 1024), x0 (ix2 r d) = ((H r d : ℝ) : EReal))
    (h1 : ∀ (j : Fin 8192) (d : Fin 1024), x1 (ix2 j d) = ((C j d : ℝ) : EReal)) (r : Fin 8192) (d : Fin 1024) :
    val_main_v29 (F := Ideal) x0 x1 (ix2 r d) = ((resid H C r d : ℝ) : EReal) := by
  rw [val_main_v29_apply, h0, r_v28 H C x0 x1 h0 h1, Ideal.subf_def, ← EReal.coe_sub]
  rfl

private theorem r_v31 (H C : Fin 8192 → Fin 1024 → ℝ)
    (x0 x1 : (⟨S8192x1024, .f32⟩ : BufTy).Contents (Elt Ideal))
    (h0 : ∀ (r : Fin 8192) (d : Fin 1024), x0 (ix2 r d) = ((H r d : ℝ) : EReal))
    (h1 : ∀ (j : Fin 8192) (d : Fin 1024), x1 (ix2 j d) = ((C j d : ℝ) : EReal)) (r : Fin 8192) :
    val_main_v31 (F := Ideal) x0 x1 (ix1 r) = ((∑ d : Fin 1024, resid H C r d * resid H C r d : ℝ) : EReal) := by
  rw [val_main_v31_apply, val_main_cst_6_apply, Ideal.ofBits_def, lit_zero]
  have e : ∀ k : Fin 1024, val_main_v30 (F := Ideal) x0 x1 (idx_main_v31 (ix1 r) k)
      = ((resid H C r k * resid H C r k : ℝ) : EReal) := by
    intro k
    rw [r_idx_v31, val_main_v30_apply, r_v29 H C x0 x1 h0 h1, Ideal.mulf_def, ← EReal.coe_mul]
  rw [Finset.sum_congr rfl (fun k _ => e k), coe_sum, ← EReal.coe_add, zero_add]

private theorem r_rms_nonneg (H C : Fin 8192 → Fin 1024 → ℝ) (r : Fin 8192) : 0 ≤ rms H C r := by
  unfold rms
  exact Real.sqrt_nonneg _

/-- The divisor: the root mean square plus `ε`. -/
private theorem r_v38 (H C : Fin 8192 → Fin 1024 → ℝ)
    (x0 x1 : (⟨S8192x1024, .f32⟩ : BufTy).Contents (Elt Ideal))
    (h0 : ∀ (r : Fin 8192) (d : Fin 1024), x0 (ix2 r d) = ((H r d : ℝ) : EReal))
    (h1 : ∀ (j : Fin 8192) (d : Fin 1024), x1 (ix2 j d) = ((C j d : ℝ) : EReal)) (r : Fin 8192) (d : Fin 1024) :
    val_main_v38 (F := Ideal) x0 x1 (ix2 r d) = ((rms H C r + epsR : ℝ) : EReal) := by
  rw [val_main_v38_apply, val_main_v37_apply, val_main_v35_apply, val_main_v34_apply, val_main_v32_apply, r_idx_v38,
    r_v31 H C x0 x1 h0 h1, val_main_v33_apply, val_main_cst_7_apply, val_main_v36_apply, val_main_cst_8_apply]
  simp only [Ideal.hostUnary_sqrt_def, Ideal.hostDivf_def, Ideal.addf_def, Ideal.ofBits_def, lit_1024, lit_eps]
  rw [div_coe_coe _ _ (by norm_num),
    sqrt_coe_nonneg _ (div_nonneg (Finset.sum_nonneg fun d _ => mul_self_nonneg _) (by norm_num)), ← EReal.coe_add]
  rfl

private theorem r_v39 (H C : Fin 8192 → Fin 1024 → ℝ)
    (x0 x1 : (⟨S8192x1024, .f32⟩ : BufTy).Contents (Elt Ideal))
    (h0 : ∀ (r : Fin 8192) (d : Fin 1024), x0 (ix2 r d) = ((H r d : ℝ) : EReal))
    (h1 : ∀ (j : Fin 8192) (d : Fin 1024), x1 (ix2 j d) = ((C j d : ℝ) : EReal)) (r : Fin 8192) (d : Fin 1024) :
    val_main_v39 (F := Ideal) x0 x1 (ix2 r d) = ((resid H C r d / (rms H C r + epsR) : ℝ) : EReal) := by
  rw [val_main_v39_apply, r_v29 H C x0 x1 h0 h1, r_v38 H C x0 x1 h0 h1, Ideal.hostDivf_def]
  exact div_coe_coe _ _ (ne_of_gt (add_pos_of_nonneg_of_pos (r_rms_nonneg H C r) epsR_pos))

private theorem r_v42 (H C : Fin 8192 → Fin 1024 → ℝ)
    (x0 x1 : (⟨S8192x1024, .f32⟩ : BufTy).Contents (Elt Ideal))
    (h0 : ∀ (r : Fin 8192) (d : Fin 1024), x0 (ix2 r d) = ((H r d : ℝ) : EReal))
    (h1 : ∀ (j : Fin 8192) (d : Fin 1024), x1 (ix2 j d) = ((C j d : ℝ) : EReal)) (Sc : Fin 1024 → ℝ)
    (x2 : (⟨S1024, .f32⟩ : BufTy).Contents (Elt Ideal))
    (h2 : ∀ d : Fin 1024, x2 (ix1 d) = ((Sc d : ℝ) : EReal)) (r : Fin 8192) (d : Fin 1024) :
    val_main_v42 (F := Ideal) x0 x1 x2 (ix2 r d) = ((xn H C Sc r d : ℝ) : EReal) := by
  rw [val_main_v42_apply, r_v39 H C x0 x1 h0 h1, val_main_v41_apply, val_main_v40_apply, r_idx_v41, h2, Ideal.mulf_def, ← EReal.coe_mul]
  rfl

/-! ### The linear layer and the output -/

private theorem r_v44 (H C : Fin 8192 → Fin 1024 → ℝ)
    (x0 x1 : (⟨S8192x1024, .f32⟩ : BufTy).Contents (Elt Ideal))
    (h0 : ∀ (r : Fin 8192) (d : Fin 1024), x0 (ix2 r d) = ((H r d : ℝ) : EReal))
    (h1 : ∀ (j : Fin 8192) (d : Fin 1024), x1 (ix2 j d) = ((C j d : ℝ) : EReal)) (Sc : Fin 1024 → ℝ) (Wt : Fin 1024 → Fin 1024 → ℝ)
    (x2 : (⟨S1024, .f32⟩ : BufTy).Contents (Elt Ideal))
    (x3 : (⟨S1024x1024, .f32⟩ : BufTy).Contents (Elt Ideal))
    (h2 : ∀ d : Fin 1024, x2 (ix1 d) = ((Sc d : ℝ) : EReal))
    (h3 : ∀ n d : Fin 1024, x3 (ix2 n d) = ((Wt n d : ℝ) : EReal)) (r : Fin 8192) (n : Fin 1024) :
    val_main_v44 (F := Ideal) x0 x1 x2 x3 (ix2 r n) = ((∑ d : Fin 1024, xn H C Sc r d * Wt n d : ℝ) : EReal) := by
  rw [val_main_v44_apply]
  have e : ∀ k : Fin 1024, (val_main_v42 (F := Ideal) x0 x1 x2) (lidx_main_v44 (ix2 r n) k) * (val_main_v43 (F := Ideal) x3) (ridx_main_v44 (ix2 r n) k)
      = ((xn H C Sc r k * Wt n k : ℝ) : EReal) := by
    intro k
    rw [r_lidx_v44, r_ridx_v44, r_v42 H C x0 x1 h0 h1 Sc x2 h2, val_main_v43_apply, r_idx_v43, h3, ← EReal.coe_mul]
  rw [Finset.sum_congr rfl (fun k _ => e k), coe_sum]

private theorem r_v48 (H C : Fin 8192 → Fin 1024 → ℝ)
    (x0 x1 : (⟨S8192x1024, .f32⟩ : BufTy).Contents (Elt Ideal))
    (h0 : ∀ (r : Fin 8192) (d : Fin 1024), x0 (ix2 r d) = ((H r d : ℝ) : EReal))
    (h1 : ∀ (j : Fin 8192) (d : Fin 1024), x1 (ix2 j d) = ((C j d : ℝ) : EReal)) (Sc Bv : Fin 1024 → ℝ) (Wt : Fin 1024 → Fin 1024 → ℝ)
    (x2 : (⟨S1024, .f32⟩ : BufTy).Contents (Elt Ideal))
    (x3 : (⟨S1024x1024, .f32⟩ : BufTy).Contents (Elt Ideal))
    (x4 : (⟨S1024, .f32⟩ : BufTy).Contents (Elt Ideal))
    (h2 : ∀ d : Fin 1024, x2 (ix1 d) = ((Sc d : ℝ) : EReal))
    (h3 : ∀ n d : Fin 1024, x3 (ix2 n d) = ((Wt n d : ℝ) : EReal))
    (h4 : ∀ n : Fin 1024, x4 (ix1 n) = ((Bv n : ℝ) : EReal)) (r : Fin 8192) (n : Fin 1024) :
    val_main_v48 (F := Ideal) x0 x1 x2 x3 x4 (ix2 r n) = ((outR H C Sc Bv Wt r n : ℝ) : EReal) := by
  rw [val_main_v48_apply, val_main_v45_apply, r_v28 H C x0 x1 h0 h1, r_v44 H C x0 x1 h0 h1 Sc Wt x2 x3 h2 h3, val_main_v47_apply, val_main_v46_apply,
    r_idx_v47, h4]
  simp only [Ideal.addf_def]
  rw [← EReal.coe_add, ← EReal.coe_add]
  rfl

end stages

/-- On arguments holding real numbers the reference's composed term, read at row `r` and feature `n`, is `outR`. -/
theorem ref_value (H C : Fin 8192 → Fin 1024 → ℝ) (Sc Bv : Fin 1024 → ℝ) (Wt : Fin 1024 → Fin 1024 → ℝ)
    (x0 x1 : (⟨S8192x1024, .f32⟩ : BufTy).Contents (Elt Ideal)) (x2 : (⟨S1024, .f32⟩ : BufTy).Contents (Elt Ideal))
    (x3 : (⟨S1024x1024, .f32⟩ : BufTy).Contents (Elt Ideal)) (x4 : (⟨S1024, .f32⟩ : BufTy).Contents (Elt Ideal))
    (h0 : ∀ (r : Fin 8192) (d : Fin 1024), x0 (ix2 r d) = ((H r d : ℝ) : EReal))
    (h1 : ∀ (j : Fin 8192) (d : Fin 1024), x1 (ix2 j d) = ((C j d : ℝ) : EReal))
    (h2 : ∀ d : Fin 1024, x2 (ix1 d) = ((Sc d : ℝ) : EReal))
    (h3 : ∀ n d : Fin 1024, x3 (ix2 n d) = ((Wt n d : ℝ) : EReal))
    (h4 : ∀ n : Fin 1024, x4 (ix1 n) = ((Bv n : ℝ) : EReal))
    (r : Fin 8192) (n : Fin 1024) :
    Cert.ReferenceIdeal.Read.val_main_v48 (F := Ideal) x0 x1 x2 x3 x4 (ix2 r n) = ((outR H C Sc Bv Wt r n : ℝ) : EReal) :=
  r_v48 H C x0 x1 h0 h1 Sc Bv Wt x2 x3 x4 h2 h3 h4 r n

end Cert.VQ

end
-- ==== Proof.Finite.lean ====
/-
  Under the precondition every entry of the five argument arrays is a real number.
-/
import proofs.«109600_j80247168959070_2_alg».proof.Pre_finite_inputs
import Idealize.ShloMosaic.PureOps.Ideal
import Idealize.ShloMosaic.Lib.ReduceAll
import Idealize.ShloMosaic.Lib.ValueIdx

noncomputable section

namespace Cert.VQ

open Idealize.ShloMosaic Cert.Pre_finite_inputs

/-- An extended real whose absolute value `max x (−x)` lies strictly below `+∞` (the pattern with the all-ones
    exponent and zero fraction, sign clear) is neither infinity, so it is a real number. -/
private theorem m_real_of_abs_lt_inf (x : EReal)
    (h : Ideal.cmp .olt (max x (-x)) (Ideal.ofBits .f32 0x7F800000#32) = 1#1) : ∃ r : ℝ, x = ((r : ℝ) : EReal) := by
  have htop : Ideal.ofBits .f32 0x7F800000#32 = ⊤ := by simp [Ideal.ofBits, Ideal.ieee]
  rw [htop] at h
  induction x using EReal.rec with
  | bot => simp [Ideal.cmp] at h
  | coe r => exact ⟨r, rfl⟩
  | top => simp [Ideal.cmp] at h

/-- The precondition's term says `|x| < +∞` of every entry of every argument; on the extended reals (no NaN) that
    makes each entry a real number. -/
theorem real_of_finite [Cert.Pre_finite_inputs.Facts]
    (a0 a1 : FVec Ideal S8192x1024 .f32) (a2 : FVec Ideal S1024 .f32) (a3 : FVec Ideal S1024x1024 .f32) (a4 : FVec Ideal S1024 .f32)
    (h : Cert.Pre_finite_inputs.fn (F := Ideal) a0 a1 a2 a3 a4 = fun _ => 1#1) :
    (∀ i, ∃ x : ℝ, a0 i = ((x : ℝ) : EReal)) ∧ (∀ i, ∃ x : ℝ, a1 i = ((x : ℝ) : EReal))
      ∧ (∀ i, ∃ x : ℝ, a2 i = ((x : ℝ) : EReal)) ∧ (∀ i, ∃ x : ℝ, a3 i = ((x : ℝ) : EReal))
      ∧ (∀ i, ∃ x : ℝ, a4 i = ((x : ℝ) : EReal)) := by
  haveI : Subsingleton S_.Idx := ⟨fun a b => funext fun d => d.elim0⟩
  -- The term's one entry is the conjunction of the five `all`s.
  have h0 := congrFun h ValueIdx.ix0
  dsimp only [fn, fn_part1] at h0
  obtain ⟨h0123, h4⟩ := IntOp.andi_eq_one.1 h0
  obtain ⟨h012, h3⟩ := IntOp.andi_eq_one.1 h0123
  obtain ⟨h01, h2⟩ := IntOp.andi_eq_one.1 h012
  obtain ⟨hh0, hh1⟩ := IntOp.andi_eq_one.1 h01
  -- Each `all` being true makes every compared entry true: `|x| < +∞` at every index.
  refine ⟨fun i => ?_, fun i => ?_, fun i => ?_, fun i => ?_, fun i => ?_⟩
  · exact m_real_of_abs_lt_inf _ (Host.reduce_andi_all _ _ _ _ _ hh0 i)
  · exact m_real_of_abs_lt_inf _ (Host.reduce_andi_all _ _ _ _ _ hh1 i)
  · exact m_real_of_abs_lt_inf _ (Host.reduce_andi_all _ _ _ _ _ h2 i)
  · exact m_real_of_abs_lt_inf _ (Host.reduce_andi_all _ _ _ _ _ h3 i)
  · exact m_real_of_abs_lt_inf _ (Host.reduce_andi_all _ _ _ _ _ h4 i)

end Cert.VQ

end
-- ==== Proof.lean ====
/-
  The certificate's five claims for the vector-quantisation layer.

  The three frames and the ideal pass's one rewrite are in Proof/Claims.lean. The algebraic claim: under the
  precondition every entry of the five arguments is a real number (Proof/Finite.lean). On real data the kernel's
  result array is the layer's output `outR` (Proof/KernelValue.lean): its running softmax over the eight codebook
  tiles keeps, for one real reference point per row, the sums of `e^{score − m}` and of `e^{score − m}·C`, whose
  quotient is the soft assignment whatever the reference point; the reference computes the same soft assignment with
  normalised weights first (Proof/RefValue.lean); the residual's normalisation, the linear layer and the bias are
  the same expressions on both sides.
-/
import proofs.«109600_j80247168959070_2_alg».proof.Defs
import proofs.«109600_j80247168959070_2_alg».proof.Proof.Claims
import proofs.«109600_j80247168959070_2_alg».proof.Proof.KernelValue
import proofs.«109600_j80247168959070_2_alg».proof.Proof.RefValue
import proofs.«109600_j80247168959070_2_alg».proof.Proof.Finite
import proofs.«109600_j80247168959070_2_alg».proof.Proof.Gen.KernelIdeal.Value
import proofs.«109600_j80247168959070_2_alg».proof.Proof.Gen.ReferenceIdeal.Run
import proofs.«109600_j80247168959070_2_alg».proof.Proof.Gen.ReferenceIdeal.Read
import Idealize.ShloMosaic.Adequacy
import Idealize.ShloMosaic.Init

noncomputable section

namespace Cert.Proof

open Idealize.ShloMosaic Idealize.ShloMosaic.TcCoe Idealize.SL.Sem Idealize.ShloMosaic.ValueIdx

/-- From memories agreeing on the arguments both idealized programs end with the layer's output on the arguments'
    real data. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  haveI : Cert.Pre_finite_inputs.Facts := Cert.Pre_finite_inputs.Gen.facts
  have hfin := fun c : Dev Cert.KernelIdeal.nD => Cert.VQ.real_of_finite _ _ _ _ _ (hpre c)
  choose H0 hH0 using fun c => (hfin c).1
  choose C0 hC0 using fun c => (hfin c).2.1
  choose S0 hS0 using fun c => (hfin c).2.2.1
  choose W0 hW0 using fun c => (hfin c).2.2.2.1
  choose B0 hB0 using fun c => (hfin c).2.2.2.2
  have ha : ∀ c : Dev Cert.KernelIdeal.nD, Cert.VQ.RealArgs m c (fun r d => H0 c (ix2 r d)) (fun j d => C0 c (ix2 j d))
      (fun d => S0 c (ix1 d)) (fun n => B0 c (ix1 n)) (fun n d => W0 c (ix2 n d)) :=
    fun c => ⟨fun r d => hH0 c _, fun j d => hC0 c _, fun d => hS0 c _, fun n d => hW0 c _, fun n => hB0 c _⟩
  refine ⟨fun c => Cert.VQ.outArr (fun r d => H0 c (ix2 r d)) (fun j d => C0 c (ix2 j d))
      (fun d => S0 c (ix1 d)) (fun n => B0 c (ix1 n)) (fun n d => W0 c (ix2 n d)), ?_, ?_⟩
  · exact (θ_run Cert.KernelIdeal.defs _ _).mono
      (fun r h c => ⟨(h c).1.trans (Cert.VQ.final6 m c _ _ _ _ _ (ha c)), (h c).2⟩)
      (Cert.KernelIdeal.Value.run_blocks m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v48_eq, (hagree c).1, (hagree c).2.1, (hagree c).2.2.1, (hagree c).2.2.2.1,
      (hagree c).2.2.2.2]
    funext idx
    obtain ⟨r, n, rfl⟩ : ∃ (r : Fin 8192) (n : Fin 1024), idx = ix2 r n := ⟨idx 0, idx 1, eq_ix2 idx⟩
    exact Cert.VQ.ref_value _ _ _ _ _ _ _ _ _ _ (ha c).h0 (ha c).h1 (ha c).h2 (ha c).h3 (ha c).h4 r n

theorem claim : Cert.Claim := ⟨Cert.Kernel.Gen.facts, Cert.KernelIdeal.Gen.facts, Cert.ReferenceIdeal.Gen.facts, Cert.Pre_finite_inputs.Gen.facts,
  Cert.Proof.Parts.frame_kernel, Cert.Proof.Parts.frame_kernel_ideal, Cert.Proof.Parts.frame_reference,
  Cert.Proof.Parts.preserves, algebraic⟩

end Cert.Proof

end
